-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S2048x2048 .f32) (main_arg3 : FVec F S2048x2048 .f32) (main_arg4 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩
abbrev S512x512 : Shape := ⟨2, ![512, 512]⟩
abbrev S1024x256 : Shape := ⟨2, ![1024, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S2048x2048, .f32⟩
  | .hbm, ⟨10, _⟩ => ⟨S2048x2048, .bf16⟩
  | .hbm, ⟨11, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x2048, .f32⟩
  | .local _ .vmem, ⟨32, _⟩ => ⟨S256x2048, .f32⟩
  | .local _ .vmem, ⟨33, _⟩ => ⟨S256x2048, .bf16⟩
  | .local _ .vmem, ⟨34, _⟩ => ⟨S256x2048, .bf16⟩
  | .local _ .vmem, ⟨35, _⟩ => ⟨S1024x512, .bf16⟩
  | .local _ .vmem, ⟨36, _⟩ => ⟨S1024x512, .bf16⟩
  | .local _ .vmem, ⟨37, _⟩ => ⟨S512x1024, .bf16⟩
  | .local _ .vmem, ⟨38, _⟩ => ⟨S512x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_22 : BitVec 32 := 0#32
  let v31 : BitVec 1 := Scalar.cmpi .ne v30 c0_i32_22
  v31

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![8, 8, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨3, ![8, 2, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  packedbf16_S1024x1024_S1024x1024_0_0 : (Rect.unit (s := S1024x1024) ![0, 0] S1024x1024.size inb_S1024x1024_S1024x1024_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  shapeCasts_S1024x512_S1024x512 : S1024x512.ShapeCasts S1024x512
  shapeCasts_S512x1024_S512x1024 : S512x1024.ShapeCasts S512x1024
  dot_S1024x512_S512x1024_S1024x1024_1_0_0_1_n_n_wf : DotDims.WF S1024x512 S512x1024 S1024x1024 [1] [0] [0] [1] [] []
  dot_S512x512_S512x512_S512x512_1_0_0_1_n_n_wf : DotDims.WF S512x512 S512x512 S512x512 [1] [0] [0] [1] [] []
  dot_S1024x256_S1024x256_S256x256_0_0_1_1_n_n_wf : DotDims.WF S1024x256 S1024x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x2048.size a
  hwx0_1 : ∀ i : grid0.Coords, EltTy.bits .f32 = 32 ∨ (Rect.block (s := S2048x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x2048.size a
  hwx0_2 : ∀ i : grid0.Coords, EltTy.bits .bf16 = 32 ∨ (Rect.block (s := S8192x2048) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x2048.size a
  hwx1_0 : ∀ i : grid1.Coords, EltTy.bits .bf16 = 32 ∨ (Rect.block (s := S8192x2048) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x2048.size a
  hwx1_1 : ∀ i : grid1.Coords, EltTy.bits .f32 = 32 ∨ (Rect.block (s := S2048x2048) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x2048.size a
  hwx1_4 : ∀ i : grid1.Coords, EltTy.bits .f32 = 32 ∨ (Rect.block (s := S8192x2048) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S8192x2048.size a
  hwx1_5 : ∀ i : grid1.Coords, EltTy.bits .f32 = 32 ∨ (Rect.block (s := S8192x2048) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S8192x2048.size a
  hwx1_6 : ∀ i : grid1.Coords, EltTy.bits .bf16 = 32 ∨ (Rect.block (s := S8192x2048) S512x512.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x2048.size a
  hwx2_0 : ∀ i : grid2.Coords, EltTy.bits .f32 = 32 ∨ (Rect.block (s := S8192x2048) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x2048.size a
  hwx2_1 : ∀ i : grid2.Coords, EltTy.bits .f32 = 32 ∨ (Rect.block (s := S8192x2048) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S2048x2048.size a
  hwx2_2 : ∀ i : grid2.Coords, EltTy.bits .f32 = 32 ∨ (Rect.block (s := S2048x2048) S256x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S2048x2048.size a
  hwx3_0 : ∀ i : grid3.Coords, EltTy.bits .f32 = 32 ∨ (Rect.block (s := S2048x2048) S256x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S2048x2048.size a
  hwx3_1 : ∀ i : grid3.Coords, EltTy.bits .bf16 = 32 ∨ (Rect.block (s := S2048x2048) S256x2048.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x2048.size a
  hwx4_0 : ∀ i : grid4.Coords, EltTy.bits .bf16 = 32 ∨ (Rect.block (s := S8192x2048) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S2048x2048.size a
  hwx4_1 : ∀ i : grid4.Coords, EltTy.bits .bf16 = 32 ∨ (Rect.block (s := S2048x2048) S512x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x2048.size a
  hwx4_2 : ∀ i : grid4.Coords, EltTy.bits .f32 = 32 ∨ (Rect.block (s := S8192x2048) S1024x1024.size (cc4_transform_2 i) (hinb4_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_2) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v1_1) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S256x2048.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v1_2) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x8192, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S8192x2048_S2048x8192_1_0 : S8192x2048.Transposes [1, 0] S2048x8192
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S8192x2048_S2048x2048_S8192x2048_1_0_0_1_n_n_wf : DotDims.WF S8192x2048 S2048x2048 S8192x2048 [1] [0] [0] [1] [] []
  dot_S2048x8192_S8192x2048_S2048x2048_1_0_0_1_n_n_wf : DotDims.WF S2048x8192 S8192x2048 S2048x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.Bits.R0Shared.lean ====
/- Region 0 (a = inputs @ w): what the three cases of the body share. The windows' blocks, the closed forms of
   the two branch conditions over the grid, where the output window is idle, the memrefs the body is called
   with, and the region invariant with the accumulator split off. -/
import proofs.«169802_j68702296867381_2_alg».proof.Proof.Gen.Kernel.Launch
import proofs.«169802_j68702296867381_2_alg».proof.Proof.Gen.Kernel.Skeleton
import proofs.«169802_j68702296867381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first conditional (zero the accumulator): the contraction coordinate is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (store the accumulator into the output block): the contraction coordinate is the last. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second conditional fails the output window is idle, -/
theorem idleAt0_2 : ∀ t : Fin cfg0.N, ¬cond0_1 (grid0.coords t) → cfg0.idle 2 (grid0.coords t) = true := by decide +kernel
/-- and not written back; -/
theorem noFlush0_2 : ∀ t : Fin cfg0.N, ¬cond0_1 (grid0.coords t) → (cfg0.win 2).flush t = false := by decide +kernel
/-- where it holds the window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The rest of the region invariant, carried along unopened: every other scoped buffer at some contents. -/
abbrev restBut0 (c : Dev nD) : sProp 𝕄 :=
  Pipeline.scopedRestBut (Ix := Unit) (Name := ℕ) (U := UR sig nD τ) (Lvl := ℕ) (Val := Elt F) spec0 c [cc0_scratch0]

/-- The region invariant with the accumulator split off, owned at some contents. -/
theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_split]; simp only [scM0_0, owns_whole]; try rfl

end Cert.Kernel.Hand

end
-- ==== Proof.Bits.R0RunA.lean ====
/- Region 0, the points with contraction coordinate 0: the body zeroes the accumulator, then adds the block product
   into it; the output block is not touched. -/
import proofs.«169802_j68702296867381_2_alg».proof.Proof.Bits.R0Shared
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first conditional holds and the second fails: on whole memrefs, the operands' at their
    contents, the output's at contents handed back untouched, the accumulator at anything, it runs to the
    continuation holding the operands' and the output's as they were and the accumulator with the pieces `LS0`
    written (last first). The pieces are found by the run. -/
noncomputable def kernelRun0_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R0RunB.lean ====
/- Region 0, the points with contraction coordinate strictly between 0 and the last: the body adds the block
   product into the accumulator; the output block is not touched. -/
import proofs.«169802_j68702296867381_2_alg».proof.Proof.Bits.R0Shared
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where both conditionals fail: on whole memrefs, the operands' at their contents, the output's at
    contents handed back untouched, the accumulator at what the point before left, it runs to the continuation
    holding the operands' and the output's as they were and the accumulator with the pieces `LS0` written. -/
noncomputable def kernelRun0_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R0RunC.lean ====
/- Region 0, the points with the last contraction coordinate: the body adds the block product into the
   accumulator, then stores the accumulator, rounded to the output's format, into the output block. -/
import proofs.«169802_j68702296867381_2_alg».proof.Proof.Bits.R0Shared
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first conditional fails and the second holds: on whole memrefs, the operands' at their
    contents, the output's at anything, the accumulator at what the point before left, it runs to the continuation
    holding the operands' as they were, the output's with the pieces `L2` written and the accumulator with the
    pieces `LS0` written. -/
noncomputable def kernelRun0_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Bits.R0Frame.lean ====
/- Region 0 (a = inputs @ w) on the grid (8, 2, 4): what the accumulator holds after each point, what the output
   block holds after the last contraction step, the proof data, the body's obligation at every point, and the
   region invariant at the region's two ends. -/
import proofs.«169802_j68702296867381_2_alg».proof.Proof.Bits.R0RunA
import proofs.«169802_j68702296867381_2_alg».proof.Proof.Bits.R0RunB
import proofs.«169802_j68702296867381_2_alg».proof.Proof.Bits.R0RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output block -/

/-- The stores of the first case cover the accumulator. -/
theorem scover0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the first case leaves in the accumulator. -/
def sout0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) : Vec F S1024x1024 .f32 :=
  VS0_0.read (Elt F) (VS0_0.writes (Elt F) VS0_0.junk (kernelRun0_A c i arg3 harg3 arg4 harg4 arg5 harg5 arg6 harg6 hc0 hc1 x0 x1).2.1)

/-- The store of the middle case covers the accumulator. -/
theorem scover0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the middle case leaves in the accumulator. -/
def sout0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- The store of the last case into the output block covers it. -/
theorem cover0_C_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the last case leaves in the output block. -/
def out0_C_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)

/-- The store of the last case into the accumulator covers it. -/
theorem scover0_C_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the last case leaves in the accumulator. -/
def sout0_C_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## The cases at a grid point -/

theorem hA0_1 (t : Fin cfg0.N) (h0 : t.val % 4 = 0) : ¬cond0_1 (grid0.coords t) :=
  fun h => by have := (hcond0_1 t).mp h; omega
theorem hN0_0 (t : Fin cfg0.N) (h0 : ¬t.val % 4 = 0) : ¬cond0_0 (grid0.coords t) :=
  fun h => h0 ((hcond0_0 t).mp h)
theorem hN0_1 (t : Fin cfg0.N) (h1 : ¬t.val % 4 = 3) : ¬cond0_1 (grid0.coords t) :=
  fun h => h1 ((hcond0_1 t).mp h)

/-- The accumulator after a point with contraction coordinate 0, from the point's operand blocks. -/
def stepA0 (c : Dev nD) (t : Fin cfg0.N) (h0 : t.val % 4 = 0) : Vec F S1024x1024 .f32 :=
  sout0_A_0 c (grid0.coords t) (ms0_0 t) (hs0_0 t) (ms0_1 t) (hs0_1 t) (ms0_2 t) (hs0_2 t) scM0_0 (Memref.isWhole_whole _) ((hcond0_0 t).mpr h0) (hA0_1 t h0) (iblk0 V c 0 t) (iblk0 V c 1 t)

/-- The accumulator after a point with a middle contraction coordinate, from the operand blocks and what the point before left. -/
def stepB0 (c : Dev nD) (t : Fin cfg0.N) (h0 : ¬t.val % 4 = 0) (h1 : ¬t.val % 4 = 3) (xs0 : Vec F S1024x1024 .f32) : Vec F S1024x1024 .f32 :=
  sout0_B_0 c (grid0.coords t) (ms0_0 t) (hs0_0 t) (ms0_1 t) (hs0_1 t) (ms0_2 t) (hs0_2 t) scM0_0 (Memref.isWhole_whole _) (hN0_0 t h0) (hN0_1 t h1) (iblk0 V c 0 t) (iblk0 V c 1 t) xs0

/-- The accumulator after a point with the last contraction coordinate, -/
def stepC0 (c : Dev nD) (t : Fin cfg0.N) (h0 : ¬t.val % 4 = 0) (h1 : t.val % 4 = 3) (xs0 : Vec F S1024x1024 .f32) : Vec F S1024x1024 .f32 :=
  sout0_C_0 c (grid0.coords t) (ms0_0 t) (hs0_0 t) (ms0_1 t) (hs0_1 t) (ms0_2 t) (hs0_2 t) scM0_0 (Memref.isWhole_whole _) (hN0_0 t h0) ((hcond0_1 t).mpr h1) (iblk0 V c 0 t) (iblk0 V c 1 t) xs0

/-- and the output block after it. -/
def outC0 (c : Dev nD) (t : Fin cfg0.N) (h0 : ¬t.val % 4 = 0) (h1 : t.val % 4 = 3) (xs0 : Vec F S1024x1024 .f32) : Vec F S1024x1024 .bf16 :=
  out0_C_2 c (grid0.coords t) (ms0_0 t) (hs0_0 t) (ms0_1 t) (hs0_1 t) (ms0_2 t) (hs0_2 t) scM0_0 (Memref.isWhole_whole _) (hN0_0 t h0) ((hcond0_1 t).mpr h1) (iblk0 V c 0 t) (iblk0 V c 1 t) xs0

/-! ## The accumulation -/

/-- What the accumulator holds after the body at position `n`: restarted at a contraction coordinate 0, otherwise the
    case's result over what position `n - 1` left. -/
def acc0 (c : Dev nD) : (n : ℕ) → n < cfg0.N → Vec F S1024x1024 .f32
  | 0, hn => stepA0 V c ⟨0, hn⟩ (Nat.zero_mod _)
  | n + 1, hn =>
    if h0 : (n + 1) % 4 = 0 then stepA0 V c ⟨n + 1, hn⟩ h0
    else if h1 : (n + 1) % 4 = 3 then stepC0 V c ⟨n + 1, hn⟩ h0 h1 (acc0 c n (Nat.lt_of_succ_lt hn))
    else stepB0 V c ⟨n + 1, hn⟩ h0 h1 (acc0 c n (Nat.lt_of_succ_lt hn))

theorem acc0_A (c : Dev nD) (t : Fin cfg0.N) (h0 : t.val % 4 = 0) : acc0 V c t.val t.isLt = stepA0 V c t h0 := by
  obtain ⟨n, hn⟩ := t
  cases n with
  | zero => exact rfl
  | succ n => exact (dif_pos h0).trans rfl

theorem acc0_B (c : Dev nD) (t : Fin cfg0.N) (h0 : ¬t.val % 4 = 0) (h1 : ¬t.val % 4 = 3) :
    acc0 V c t.val t.isLt = stepB0 V c t h0 h1 (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc0_C (c : Dev nD) (t : Fin cfg0.N) (h0 : ¬t.val % 4 = 0) (h1 : t.val % 4 = 3) :
    acc0 V c t.val t.isLt = stepC0 V c t h0 h1 (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block holds after the body at point `t`: at the last contraction coordinate the stored accumulator;
    elsewhere the window is idle and nothing reads this. -/
def outAt0 (c : Dev nD) (t : Fin cfg0.N) : Vec F S1024x1024 .bf16 :=
  if h1 : t.val % 4 = 3 then
    outC0 V c t (by omega) h1 (acc0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = outC0 V c t h0 h1 (acc0 V c (t.val - 1) (Nat.lt_of_le_of_lt (Nat.sub_le _ _) t.isLt)) := dif_pos h1

/-! ## The region invariant -/

/-- Before position `n`: at the region's start what the launch hands over; afterwards the accumulator at what position
    `n - 1` left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have hn1 : ¬cond0_1 (grid0.coords t) := hA0_1 t h0
    rw [Dat.leavesExact_idle (dat0 V c) 2 t (idleAt0_2 t hn1) (noFlush0_2 t hn1)]
    rw [acc0_A V c t h0]
    unfold stepA0 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_C V c t h0 h1, outAt0_C V c t h0 h1]
      unfold stepC0 outC0 sout0_C_0 out0_C_2; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (hN0_0 t h0) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hn1 : ¬cond0_1 (grid0.coords t) := hN0_1 t h1
      rw [Dat.leavesExact_idle (dat0 V c) 2 t (idleAt0_2 t hn1) (noFlush0_2 t hn1)]
      rw [acc0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (hN0_0 t h0) hn1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.Kernel.Hand

end
-- ==== Proof.Bits.R1Shared.lean ====
/-
  Region 1: the fused projections q, k, v = a · w_q, a · w_k, a · w_v, on a grid of 16 × 4 × 4 points whose last
  coordinate k runs over the four blocks of the contracted axis.  What the three runs of its body share: the blocks
  of the windows' arrays, what the body finds in the input windows, the two conditions of the body in closed form
  (k = 0: the three accumulators are zeroed; k = 3: they are copied to the outputs), where the output windows are
  idle, and the invariant handed to the body with the three accumulators singled out.
-/
import proofs.«169802_j68702296867381_2_alg».proof.Proof.Gen.Kernel.Launch
import proofs.«169802_j68702296867381_2_alg».proof.Proof.Gen.Kernel.Skeleton
import proofs.«169802_j68702296867381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether or not the
    pipeline fetched it there: an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether or not the
    pipeline fetched it there: an unfetched point has the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether or not the
    pipeline fetched it there: an unfetched point has the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, whether or not the
    pipeline fetched it there: an unfetched point has the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body, `k = 0`, as the scalar chain computes it from the grid coordinates. -/
abbrev cond1_0 (i : grid1.Coords) : Prop := (Scalar.cmpi .ne (Scalar.extui (Scalar.cmpi .eq (BitVec.ofNat 32 (i 2).val) 0#32)) 0#32) = 1#1
/-- It holds at the points whose position is ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition of the body, `k = 3`. -/
abbrev cond1_1 (i : grid1.Coords) : Prop := k1_cond2 i = 1#1
/-- It holds at the points whose position is ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel

/-- Where `k ≠ 3` the body stores nothing into output window 4: the window is idle there, -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- where `k = 3` it is live. -/
theorem liveAt1_4 : ∀ t : Fin cfg1.N, cond1_1 (grid1.coords t) → cfg1.idle 4 (grid1.coords t) = false := by decide +kernel
/-- Where `k ≠ 3` the body stores nothing into output window 5: the window is idle there, -/
theorem idleAt1_5 : ∀ t : Fin cfg1.N, ¬cond1_1 (grid1.coords t) → cfg1.idle 5 (grid1.coords t) = true := by decide +kernel
/-- and its block is not written back there; -/
theorem noFlush1_5 : ∀ t : Fin cfg1.N, ¬cond1_1 (grid1.coords t) → (cfg1.win 5).flush t = false := by decide +kernel
/-- where `k = 3` it is live. -/
theorem liveAt1_5 : ∀ t : Fin cfg1.N, cond1_1 (grid1.coords t) → cfg1.idle 5 (grid1.coords t) = false := by decide +kernel
/-- Where `k ≠ 3` the body stores nothing into output window 6: the window is idle there, -/
theorem idleAt1_6 : ∀ t : Fin cfg1.N, ¬cond1_1 (grid1.coords t) → cfg1.idle 6 (grid1.coords t) = true := by decide +kernel
/-- and its block is not written back there; -/
theorem noFlush1_6 : ∀ t : Fin cfg1.N, ¬cond1_1 (grid1.coords t) → (cfg1.win 6).flush t = false := by decide +kernel
/-- where `k = 3` it is live. -/
theorem liveAt1_6 : ∀ t : Fin cfg1.N, cond1_1 (grid1.coords t) → cfg1.idle 6 (grid1.coords t) = false := by decide +kernel

/-! ## The memrefs the body is called with -/

/-- One staging buffer of each output window, through which what a run leaves there is stated. -/
abbrev VO1_4 : View sig .tc .vmem S512x512 .f32 := (Memref.whole cc1_stg4_0 : Memref sig .tc .vmem S512x512 .f32).view
abbrev VO1_5 : View sig .tc .vmem S512x512 .f32 := (Memref.whole cc1_stg5_0 : Memref sig .tc .vmem S512x512 .f32).view
abbrev VO1_6 : View sig .tc .vmem S512x512 .bf16 := (Memref.whole cc1_stg6_0 : Memref sig .tc .vmem S512x512 .bf16).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
/-- The three accumulators: whole scoped buffers of the call's own, carried from point to point. -/
abbrev scM1_0 : Memref sig .tc .vmem S512x512 .f32 := Memref.whole cc1_scratch0
abbrev scM1_1 : Memref sig .tc .vmem S512x512 .f32 := Memref.whole cc1_scratch1
abbrev scM1_2 : Memref sig .tc .vmem S512x512 .f32 := Memref.whole cc1_scratch2
abbrev VS1_0 : View sig .tc .vmem S512x512 .f32 := scM1_0.view
abbrev VS1_1 : View sig .tc .vmem S512x512 .f32 := scM1_1.view
abbrev VS1_2 : View sig .tc .vmem S512x512 .f32 := scM1_2.view

/-- The scoped buffers of the call that are neither staging buffers nor its accumulators: carried along unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant the region is entered with, the three accumulators singled out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ rest1 (F := F) c) ∗ (∃ r, prngReg c r)) := by
  unfold Pipeline.ΦA; rw [scopedRest1_split]; simp only [scM1_0, scM1_1, scM1_2, owns_whole]; try rfl

end Cert.Kernel.Hand

end
-- ==== Proof.Bits.R1RunA.lean ====
/-
  Region 1, the body at a point with k = 0: the three accumulators, found at anything, are zeroed and then hold the
  first block product each; the output windows are not touched.
-/
import proofs.«169802_j68702296867381_2_alg».proof.Proof.Bits.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with k = 0, on any whole memrefs: from the input windows' buffers at their contents, the output windows' at contents handed back untouched and the three accumulators at anything, the body runs to the inputs as they were and each accumulator with the pieces its stores wrote (the witness the run finds). -/
noncomputable def kernelRun1_A (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) :
    Σ' (LS0 : List (View.Piece (Elt F) S512x512 .f32)) (LS1 : List (View.Piece (Elt F) S512x512 .f32)), { LS2 : List (View.Piece (Elt F) S512x512 .f32) //
      ∀ (xi4 xi5 : Vec F S512x512 .f32) (xi6 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.Bits.R1RunB.lean ====
/-
  Region 1, the body at a point with 0 < k < 3: each accumulator, found at what the point before left, has this
  point's block product added; the output windows are not touched.
-/
import proofs.«169802_j68702296867381_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with 0 < k < 3, on any whole memrefs: from the input windows' buffers at their contents, the output windows' at contents handed back untouched and the three accumulators at the contents `xs·` the point before left, the body runs to the inputs as they were and each accumulator with the pieces its stores wrote. -/
noncomputable def kernelRun1_B (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) :
    Σ' (LS0 : List (View.Piece (Elt F) S512x512 .f32)) (LS1 : List (View.Piece (Elt F) S512x512 .f32)), { LS2 : List (View.Piece (Elt F) S512x512 .f32) //
      ∀ (xi4 xi5 : Vec F S512x512 .f32) (xi6 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.Bits.R1RunC.lean ====
/-
  Region 1, the body at a point with k = 3: each accumulator, found at what the point before left, has the last
  block product added, and is then copied into its output window (the third through the rounding to bf16).
-/
import proofs.«169802_j68702296867381_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with k = 3, on any whole memrefs: from the input windows' buffers at their contents, the output windows' at anything and the three accumulators at the contents `xs·` the point before left, the body runs to the inputs as they were and each output window's buffer and each accumulator with the pieces its stores wrote. -/
noncomputable def kernelRun1_C (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    Σ' (L4 : List (View.Piece (Elt F) S512x512 .f32)) (L5 : List (View.Piece (Elt F) S512x512 .f32)) (L6 : List (View.Piece (Elt F) S512x512 .bf16)) (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.Bits.R1Outs.lean ====
/-
  Region 1: what the three accumulators and the three output windows' buffers hold after the body at each point of
  the grid.  Per case of the body (k = 0, 0 < k < 3, k = 3) the pieces its stores wrote tile the buffer, so what the
  buffer holds is those pieces read back; point by point the accumulators are then given by recursion on the
  position, the case with k = 0 starting afresh and the others continuing from what the point before left.
-/
import proofs.«169802_j68702296867381_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the body writes into accumulator 0 at a point with k = 0 tile it: they cover it. -/
theorem scover1_A_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).1 S512x512.size (by sl_kernel_rfl) y

/-- What the body leaves in accumulator 0 at a point with k = 0: its pieces read back. -/
def sout1_A_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3).1)

/-- The pieces the body writes into accumulator 1 at a point with k = 0 tile it: they cover it. -/
theorem scover1_A_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).2.1 S512x512.size (by sl_kernel_rfl) y

/-- What the body leaves in accumulator 1 at a point with k = 0: its pieces read back. -/
def sout1_A_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3).2.1)

/-- The pieces the body writes into accumulator 2 at a point with k = 0 tile it: they cover it. -/
theorem scover1_A_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).2.2.1 S512x512.size (by sl_kernel_rfl) y

/-- What the body leaves in accumulator 2 at a point with k = 0: its pieces read back. -/
def sout1_A_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3).2.2.1)

/-- The pieces the body writes into accumulator 0 at a point with 0 < k < 3 tile it: they cover it. -/
theorem scover1_B_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).1 S512x512.size (by sl_kernel_rfl) y

/-- What the body leaves in accumulator 0 at a point with 0 < k < 3: its pieces read back. -/
def sout1_B_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).1)

/-- The pieces the body writes into accumulator 1 at a point with 0 < k < 3 tile it: they cover it. -/
theorem scover1_B_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1 S512x512.size (by sl_kernel_rfl) y

/-- What the body leaves in accumulator 1 at a point with 0 < k < 3: its pieces read back. -/
def sout1_B_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1)

/-- The pieces the body writes into accumulator 2 at a point with 0 < k < 3 tile it: they cover it. -/
theorem scover1_B_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1 S512x512.size (by sl_kernel_rfl) y

/-- What the body leaves in accumulator 2 at a point with 0 < k < 3: its pieces read back. -/
def sout1_B_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1)

/-- The pieces the body writes into accumulator 0 at a point with k = 3 tile it: they cover it. -/
theorem scover1_C_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1 S512x512.size (by sl_kernel_rfl) y

/-- What the body leaves in accumulator 0 at a point with k = 3: its pieces read back. -/
def sout1_C_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1)

/-- The pieces the body writes into accumulator 1 at a point with k = 3 tile it: they cover it. -/
theorem scover1_C_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1 S512x512.size (by sl_kernel_rfl) y

/-- What the body leaves in accumulator 1 at a point with k = 3: its pieces read back. -/
def sout1_C_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1)

/-- The pieces the body writes into accumulator 2 at a point with k = 3 tile it: they cover it. -/
theorem scover1_C_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1 S512x512.size (by sl_kernel_rfl) y

/-- What the body leaves in accumulator 2 at a point with k = 3: its pieces read back. -/
def sout1_C_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1)

/-- The pieces the body writes into output window 4's buffer at a point with k = 3 tile it: they cover it. -/
theorem cover1_C_4 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).1 S512x512.size (by sl_kernel_rfl) y

/-- What the body leaves in output window 4's buffer at a point with k = 3: its pieces read back. -/
def out1_C_4 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).1)

/-- The pieces the body writes into output window 5's buffer at a point with k = 3 tile it: they cover it. -/
theorem cover1_C_5 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1 S512x512.size (by sl_kernel_rfl) y

/-- What the body leaves in output window 5's buffer at a point with k = 3: its pieces read back. -/
def out1_C_5 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1)

/-- The pieces the body writes into output window 6's buffer at a point with k = 3 tile it: they cover it. -/
theorem cover1_C_6 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1 S512x512.size (by sl_kernel_rfl) y

/-- What the body leaves in output window 6's buffer at a point with k = 3: its pieces read back. -/
def out1_C_6 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .bf16 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1)

/-! ## The conditions at a point, from its position -/

theorem condA1 (t : Fin cfg1.N) (h0 : t.val % 4 = 0) : cond1_0 (grid1.coords t) ∧ ¬cond1_1 (grid1.coords t) :=
  ⟨(hcond1_0 t).mpr h0, fun h => by have := (hcond1_1 t).mp h; omega⟩
theorem condB1 (t : Fin cfg1.N) (h0 : ¬t.val % 4 = 0) (h3 : ¬t.val % 4 = 3) : ¬cond1_0 (grid1.coords t) ∧ ¬cond1_1 (grid1.coords t) :=
  ⟨fun h => h0 ((hcond1_0 t).mp h), fun h => h3 ((hcond1_1 t).mp h)⟩
theorem condC1 (t : Fin cfg1.N) (h3 : t.val % 4 = 3) : ¬cond1_0 (grid1.coords t) ∧ cond1_1 (grid1.coords t) :=
  ⟨fun h => by have := (hcond1_0 t).mp h; omega, (hcond1_1 t).mpr h3⟩

/-! ## What the buffers hold after each point -/

/-- The contents of the three output windows' buffers (q, k, v) and of the three accumulators. -/
abbrev Outs1 (F : FTy → Type) : Type :=
  (Vec F S512x512 .f32 × Vec F S512x512 .f32 × Vec F S512x512 .bf16) × (Vec F S512x512 .f32 × Vec F S512x512 .f32 × Vec F S512x512 .f32)

/-- A placeholder for the output windows' buffers at the points with k ≠ 3, where the body stores nothing into them
    and the pipeline writes nothing back: nothing consults it. -/
def idleOuts1 : Vec F S512x512 .f32 × Vec F S512x512 .f32 × Vec F S512x512 .bf16 :=
  (VO1_4.read (Elt F) VO1_4.junk, VO1_5.read (Elt F) VO1_5.junk, VO1_6.read (Elt F) VO1_6.junk)

/-- THE ACCUMULATION.  After the body at position `n`: at a point with k = 0 the accumulators hold what that case
    leaves from scratch; at the others what the case leaves over the accumulators of position `n - 1`; the output
    windows' buffers hold what the case k = 3 leaves, and a placeholder elsewhere. -/
def outsAt1 (c : Dev nD) : (n : ℕ) → n < cfg1.N → Outs1 F
  | 0, hn => (idleOuts1, (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩)))
  | n + 1, hn =>
    if h0 : (n + 1) % 4 = 0 then
      (idleOuts1, (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩)))
    else if h3 : (n + 1) % 4 = 3 then
      ((out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))
    else
      (idleOuts1, (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))

/-- `outsAt1` at a point with k = 0. -/
theorem outsAt1_A (c : Dev nD) (t : Fin cfg1.N) (h0 : t.val % 4 = 0) :
    outsAt1 V c t.val t.isLt = (idleOuts1, (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t))) := by
  obtain ⟨n, hn⟩ := t
  cases n with
  | zero => exact rfl
  | succ n => exact (dif_pos h0).trans rfl

/-- `outsAt1` at a point with 0 < k < 3: over what the point before left. -/
theorem outsAt1_B (c : Dev nD) (t : Fin cfg1.N) (h0 : ¬t.val % 4 = 0) (h3 : ¬t.val % 4 = 3) :
    outsAt1 V c t.val t.isLt = (idleOuts1, (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact absurd (Nat.zero_mod _) h0
  | succ n => exact (dif_neg h0).trans ((dif_neg h3).trans rfl)

/-- `outsAt1` at a point with k = 3: over what the point before left. -/
theorem outsAt1_C (c : Dev nD) (t : Fin cfg1.N) (h3 : t.val % 4 = 3) :
    outsAt1 V c t.val t.isLt = ((out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
       (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact absurd (show (0 : ℕ) % 4 = 3 from h3) (by decide)
  | succ n => exact (dif_neg (fun h0 => by dsimp only at h0 h3; omega)).trans ((dif_pos h3).trans rfl)

/-! ## The invariant -/

/-- The three accumulators owned at the given contents, the call's other scoped buffers, the generator register. -/
abbrev carried1 (c : Dev nD) (s : Vec F S512x512 .f32 × Vec F S512x512 .f32 × Vec F S512x512 .f32) : sProp 𝕄 :=
  iprop(iprop(iprop(owns (c : Thread nD τ) scM1_0 fullShare s.1 ∗ owns (c : Thread nD τ) scM1_1 fullShare s.2.1 ∗ owns (c : Thread nD τ) scM1_2 fullShare s.2.2)
    ∗ rest1 (F := F) c) ∗ (∃ r, prngReg c r))

/-- The region's invariant before position `n`: before the first point what the region is entered with; afterwards
    the accumulators at what the point before left in them. -/
def PhiS1 (c : Dev nD) : (n : ℕ) → n ≤ cfg1.N → sProp 𝕄
  | 0, _ => Pipeline.ΦA spec1 c
  | n + 1, hn => carried1 c (outsAt1 V c n hn).2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried1 c (outsAt1 V c n hn).2 := rfl

theorem PhiS1_pos (c : Dev nD) (n : ℕ) (h : n ≤ cfg1.N) (hz : n ≠ 0) :
    PhiS1 V c n h = carried1 c (outsAt1 V c (n - 1) (by omega)).2 := by
  cases n with
  | zero => exact absurd rfl hz
  | succ n => rfl

end Cert.Kernel.Hand

end
-- ==== Proof.Bits.R1Frame.lean ====
/-
  Region 1, the frame: the proof data of the pipeline (what every window's buffer holds after the body at every
  point, the invariant carrying the three accumulators from point to point), the body's obligation at a generic
  point by cases on the position modulo 4, and the two ends of the invariant.
-/
import proofs.«169802_j68702296867381_2_alg».proof.Proof.Bits.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of region 1 on core `c`: the arrays as the region finds them; after the body at point `t` each
    input window's buffer at its block and each output window's at `outsAt1`'s component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1.1
    | ⟨5, _⟩ => (outsAt1 V c t.val t.isLt).1.2.1
    | ⟨6, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1.1 := by dsimp only [dat1]
theorem after1_5 (c : Dev nD) (t : Fin cfg1.N) : (dat1 V c).after 5 t = (outsAt1 V c t.val t.isLt).1.2.1 := by dsimp only [dat1]
theorem after1_6 (c : Dev nD) (t : Fin cfg1.N) : (dat1 V c).after 6 t = (outsAt1 V c t.val t.isLt).1.2.2 := by dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the input windows' buffers hold their blocks; the position says which case the point is
    in; the invariant hands the body the accumulators (at anything before the first point, else at what the point
    before left, which a point with k = 0 forgets) and takes them back at this point's contents, the pieces the run
    wrote covering each buffer; where k ≠ 3 the output windows' buffers go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · -- k = 0
    rw [Dat.leavesExact_idle (dat1 V c) 4 t (idleAt1_4 t (condA1 t h0).2) (noFlush1_4 t (condA1 t h0).2)]
    rw [Dat.leavesExact_idle (dat1 V c) 5 t (idleAt1_5 t (condA1 t h0).2) (noFlush1_5 t (condA1 t h0).2)]
    rw [Dat.leavesExact_idle (dat1 V c) 6 t (idleAt1_6 t (condA1 t h0).2) (noFlush1_6 t (condA1 t h0).2)]
    rw [outsAt1_A V c t h0]
    unfold sout1_A_0 sout1_A_1 sout1_A_2; (try dsimp only [carried1])
    by_cases hz : t.val = 0
    · rw [PhiS1_castSucc V c t, PhiS1_zero V c _ _ hz, PhiA1_eq]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (condA1 t h0).1 (condA1 t h0).2 (iblk1 V c 0 t) (iblk1 V c 1 t) (iblk1 V c 2 t) (iblk1 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_A_0 c _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_A_1 c _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (condA1 t h0).1 (condA1 t h0).2 (iblk1 V c 0 t) (iblk1 V c 1 t) (iblk1 V c 2 t) (iblk1 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_A_0 c _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_A_1 c _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h3 : t.val % 4 = 3
    · -- k = 3
      rw [show (dat1 V c).leavesExact 4 t = owns (c : Thread nD τ) (ms1_4 t) fullShare ((dat1 V c).after 4 t) from by
        unfold Dat.leavesExact; rw [liveAt1_4 t (condC1 t h3).2], after1_4]
      rw [show (dat1 V c).leavesExact 5 t = owns (c : Thread nD τ) (ms1_5 t) fullShare ((dat1 V c).after 5 t) from by
        unfold Dat.leavesExact; rw [liveAt1_5 t (condC1 t h3).2], after1_5]
      rw [show (dat1 V c).leavesExact 6 t = owns (c : Thread nD τ) (ms1_6 t) fullShare ((dat1 V c).after 6 t) from by
        unfold Dat.leavesExact; rw [liveAt1_6 t (condC1 t h3).2], after1_6]
      rw [outsAt1_C V c t h3]
      unfold out1_C_4 out1_C_5 out1_C_6 sout1_C_0 sout1_C_1 sout1_C_2; (try dsimp only [carried1])
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (condC1 t h3).1 (condC1 t h3).2 (iblk1 V c 0 t) (iblk1 V c 1 t) (iblk1 V c 2 t) (iblk1 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover1_C_4 c _ _ _ _ _ _ _ _ _ _ _ _ _ _ _ _ _ _ _ _ _ _ _ _ _ _ _ _ _ _)
      isplitl [H5]
      ·
        unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _)
    · -- 0 < k < 3
      rw [Dat.leavesExact_idle (dat1 V c) 4 t (idleAt1_4 t (condB1 t h0 h3).2) (noFlush1_4 t (condB1 t h0 h3).2)]
      rw [Dat.leavesExact_idle (dat1 V c) 5 t (idleAt1_5 t (condB1 t h0 h3).2) (noFlush1_5 t (condB1 t h0 h3).2)]
      rw [Dat.leavesExact_idle (dat1 V c) 6 t (idleAt1_6 t (condB1 t h0 h3).2) (noFlush1_6 t (condB1 t h0 h3).2)]
      rw [outsAt1_B V c t h0 h3]
      unfold sout1_B_0 sout1_B_1 sout1_B_2; (try dsimp only [carried1])
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (condB1 t h0 h3).1 (condB1 t h0 h3).2 (iblk1 V c 0 t) (iblk1 V c 1 t) (iblk1 V c 2 t) (iblk1 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: the accumulators' contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.Kernel.Hand

end
-- ==== Proof.Bits.R2Shared.lean ====
/- Region 2, the product kᵀ·q accumulated over the eight blocks of the contracted axis: the two branch
   conditions of the body in closed form over the grid (the innermost coordinate is 0; it is 7), where the
   output window is idle and not written back, the staging and scratch memrefs, and the region's invariant
   with the accumulator buffer split off the remaining scoped buffers. -/
import proofs.«169802_j68702296867381_2_alg».proof.Proof.Gen.Kernel.Launch
import proofs.«169802_j68702296867381_2_alg».proof.Proof.Gen.Kernel.Skeleton
import proofs.«169802_j68702296867381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the accumulator is zeroed): the scalar chain of the body on the
    innermost grid coordinate. -/
abbrev cond2_0 (i : grid2.Coords) : Prop :=
  (Scalar.cmpi .ne (Scalar.extui (Scalar.cmpi .eq (BitVec.ofNat 32 (i 2).val) 0#32)) 0#32) = 1#1
/-- It holds exactly at the points whose innermost coordinate is 0. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the accumulator is copied to the output block). -/
abbrev cond2_1 (i : grid2.Coords) : Prop := k2_cond2 i = 1#1
/-- It holds exactly at the points whose innermost coordinate is 7. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last block of the contraction the output window is idle -/
theorem idleAt2_2 : ∀ t : Fin cfg2.N, ¬cond2_1 (grid2.coords t) → cfg2.idle 2 (grid2.coords t) = true := by decide +kernel
/-- and is not written back; -/
theorem noFlush2_2 : ∀ t : Fin cfg2.N, ¬cond2_1 (grid2.coords t) → (cfg2.win 2).flush t = false := by decide +kernel
/-- at the last block it is live. -/
theorem liveAt2_2 : ∀ t : Fin cfg2.N, cond2_1 (grid2.coords t) → cfg2.idle 2 (grid2.coords t) = false := by decide +kernel

/-! ## The memrefs the body is called with -/

/-- One staging buffer of the output window, through which its contents are stated. -/
abbrev VO2_2 : View sig .tc .vmem S256x256 .f32 := (Memref.whole cc2_stg2_0 : Memref sig .tc .vmem S256x256 .f32).view
/-- Each window's current staging memref at point `t` and its wholeness. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S256x256 .f32 := Memref.whole cc2_scratch0
/-- The accumulator as a view: what it holds is stated through it. -/
abbrev VS2_0 : View sig .tc .vmem S256x256 .f32 := scM2_0.view

/-- The scoped buffers other than the accumulator, unopened. -/
abbrev restBut2 (c : Dev nD) : sProp 𝕄 :=
  Pipeline.scopedRestBut (Ix := Unit) (Name := ℕ) (U := UR sig nD τ) (Lvl := ℕ) (Val := Elt F) spec2 c [cc2_scratch0]

/-- The region's invariant with the accumulator as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.Kernel.Hand

end
-- ==== Proof.Bits.R2RunA.lean ====
/- Region 2, the body run at a point whose innermost coordinate is 0: the accumulator, found at any
   contents, is stored zeros and then zeros plus the block product; the output block is not touched. -/
import proofs.«169802_j68702296867381_2_alg».proof.Proof.Bits.R2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at a first block of the contraction (the list, last store
    first), with the proof that on whole memrefs — the two input blocks at their contents, the output buffer at
    contents handed back untouched, the accumulator at anything — the body runs to a continuation holding the inputs
    as they were, the output as it was and the accumulator with those pieces written. -/
noncomputable def kernelRun2_A (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i)
    (x0 : Vec F S1024x256 .f32) (x1 : Vec F S1024x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨[], ?_, fun xi2 E K => ?run⟩
  case run =>
    simp only [cc2__kq_kernel_eq_skeleton]; unfold cc2__kq_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R2RunB.lean ====
/- Region 2, the body run at a point whose innermost coordinate is strictly between 0 and 7: the
   accumulator, at what the point before left, is stored itself plus the block product; the output block is
   not touched. -/
import proofs.«169802_j68702296867381_2_alg».proof.Proof.Bits.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator at a middle block of the contraction, with the proof that on
    whole memrefs — the two input blocks at their contents, the output buffer at contents handed back untouched, the
    accumulator at the contents `xs0` the point before left — the body runs to a continuation holding the inputs as
    they were, the output as it was and the accumulator with those pieces written. -/
noncomputable def kernelRun2_B (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i)
    (x0 : Vec F S1024x256 .f32) (x1 : Vec F S1024x256 .f32) (xs0 : Vec F S256x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨[], ?_, fun xi2 E K => ?run⟩
  case run =>
    simp only [cc2__kq_kernel_eq_skeleton]; unfold cc2__kq_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R2RunC.lean ====
/- Region 2, the body run at a point whose innermost coordinate is 7: the accumulator, at what the
   point before left, is stored itself plus the block product, and that sum is stored into the output block. -/
import proofs.«169802_j68702296867381_2_alg».proof.Proof.Bits.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator at a last block of the contraction,
    with the proof that on whole memrefs — the two input blocks at their contents, the output buffer at anything, the
    accumulator at the contents `xs0` the point before left — the body runs to a continuation holding the inputs as
    they were and the output and the accumulator with those pieces written. -/
noncomputable def kernelRun2_C (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i)
    (x0 : Vec F S1024x256 .f32) (x1 : Vec F S1024x256 .f32) (xs0 : Vec F S256x256 .f32) :
    Σ' (L2 : List (View.Piece (Elt F) S256x256 .f32)), { LS0 : List (View.Piece (Elt F) S256x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨?_, ?_, fun E K => ?run⟩
  case run =>
    simp only [cc2__kq_kernel_eq_skeleton]; unfold cc2__kq_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Bits.R2Frame.lean ====
/- Region 2, the product kᵀ·q accumulated over the eight blocks of the contracted axis, as a pipeline
   stated at the contents `V` the region is entered with: what the accumulator and the output block hold after
   every grid point, the invariant carried between points (the accumulator at what the point before left),
   the proof data, and the body's obligation at every point from the three runs of the body. -/
import proofs.«169802_j68702296867381_2_alg».proof.Proof.Bits.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves: the pieces read back, and that they cover -/

/-- The placeholder for the output block at the points that do not store into it (the window is idle there: neither
    written back nor read at the next point). -/
def idleOut2 : Vec F S256x256 .f32 := VO2_2.read (Elt F) VO2_2.junk

/-- A first block's pieces for the accumulator cover it. -/
theorem scover2_A_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i) (x0 : Vec F S1024x256 .f32) (x1 : Vec F S1024x256 .f32) (y : S256x256.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S256x256.size (by sl_kernel_rfl) y
/-- What a first block leaves in the accumulator: its pieces read back. -/
def sout2_A_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i) (x0 : Vec F S1024x256 .f32) (x1 : Vec F S1024x256 .f32) : Vec F S256x256 .f32 :=
  VS2_0.read (Elt F) (VS2_0.writes (Elt F) VS2_0.junk (kernelRun2_A c i arg3 harg3 arg4 harg4 arg5 harg5 arg6 harg6 hc0 hc1 x0 x1).2.1)

/-- A middle block's pieces for the accumulator cover it. -/
theorem scover2_B_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i) (x0 : Vec F S1024x256 .f32) (x1 : Vec F S1024x256 .f32) (xs0 : Vec F S256x256 .f32) (y : S256x256.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S256x256.size (by sl_kernel_rfl) y
/-- What a middle block leaves in the accumulator. -/
def sout2_B_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i) (x0 : Vec F S1024x256 .f32) (x1 : Vec F S1024x256 .f32) (xs0 : Vec F S256x256 .f32) : Vec F S256x256 .f32 :=
  VS2_0.read (Elt F) (VS2_0.writes (Elt F) VS2_0.junk (kernelRun2_B c i arg3 harg3 arg4 harg4 arg5 harg5 arg6 harg6 hc0 hc1 x0 x1 xs0).2.1)

/-- A last block's pieces for the output block cover it. -/
theorem cover2_C_2 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) (y : S256x256.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S256x256.size (by sl_kernel_rfl) y
/-- What a last block leaves in the output's staging buffer. -/
def out2_C_2 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) : Vec F S256x256 .f32 :=
  VO2_2.read (Elt F) (VO2_2.writes (Elt F) VO2_2.junk (kernelRun2_C c i arg3 harg3 arg4 harg4 arg5 harg5 arg6 harg6 hc0 hc1 x0 x1 xs0).1)
/-- A last block's pieces for the accumulator cover it. -/
theorem scover2_C_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) (y : S256x256.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S256x256.size (by sl_kernel_rfl) y
/-- What a last block leaves in the accumulator. -/
def sout2_C_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) : Vec F S256x256 .f32 :=
  VS2_0.read (Elt F) (VS2_0.writes (Elt F) VS2_0.junk (kernelRun2_C c i arg3 harg3 arg4 harg4 arg5 harg5 arg6 harg6 hc0 hc1 x0 x1 xs0).2.1)

/-! ## What the output block and the accumulator hold after each point -/

/-- The accumulation: after the body at position `n`, the pair (output staging buffer, accumulator). A point whose
    innermost coordinate is 0 starts afresh from the point's two input blocks; every other point continues from what
    the point before left in the accumulator; the output buffer is written at the points whose innermost coordinate
    is 7 only (elsewhere a placeholder nothing reads). -/
def outsAt2 (c : Dev nD) : (n : ℕ) → n < cfg2.N → Vec F S256x256 .f32 × Vec F S256x256 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (by have := (hcond2_1 ⟨n + 1, hn⟩).mp h; (try dsimp only at this); omega)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point whose innermost coordinate is 0. -/
theorem outsAt2_A (c : Dev nD) (t : Fin cfg2.N) (h0 : t.val % 8 = 0) (h1 : ¬t.val % 8 = 7) :
    outsAt2 V c t.val t.isLt = (idleOut2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

/-- `outsAt2` at a point whose innermost coordinate is strictly between 0 and 7: over what the point before left. -/
theorem outsAt2_B (c : Dev nD) (t : Fin cfg2.N) (h0 : ¬t.val % 8 = 0) (h1 : ¬t.val % 8 = 7) :
    outsAt2 V c t.val t.isLt = (idleOut2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt2` at a point whose innermost coordinate is 7: over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- The region invariant before position `n`: before the first point what the launch hands the region; afterwards
    the accumulator at what the point before left in it, the remaining scoped buffers, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-- At every position the invariant gives the accumulator at SOME contents beside the rest: the named contents forgotten. -/
theorem PhiS2_weak (c : Dev nD) (n : ℕ) (h : n ≤ cfg2.N) :
    PhiS2 V c n h ⊢ iprop(iprop(iprop((∃ d, owns (c : Thread nD τ) scM2_0 fullShare d)) ∗ restBut2 (F := F) c) ∗ (∃ r, prngReg c r)) := by
  cases n with
  | zero => rw [show PhiS2 V c 0 h = Pipeline.ΦA spec2 c from rfl, PhiA2_eq]
  | succ n =>
    rw [PhiS2_succ]
    iintro ⟨⟨HS0, HR⟩, Hg⟩
    isplitl [HS0 HR]
    · isplitl [HS0]
      · iexists _; iexact HS0
      iexact HR
    iexact Hg

/-! ## The pipeline's proof data -/

/-- The proof data of the pipeline on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at a point whose innermost coordinate is 0: the invariant, whatever it says of the accumulator, hands it
    over at some contents; the run of the first case applies; the accumulator comes back at this point's contents. -/
theorem sound_body2_A (c : Dev nD) (t : Fin cfg2.N) (h0 : t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have h1 : ¬t.val % 8 = 7 := by omega
  rw [Dat.leavesExact_idle (dat2 V c) 2 t (idleAt2_2 t (fun h => h1 ((hcond2_1 t).mp h))) (noFlush2_2 t (fun h => h1 ((hcond2_1 t).mp h)))]
  rw [outsAt2_A V c t h0 h1]
  unfold sout2_A_0; (try dsimp only)
  rw [PhiS2_castSucc V c t]
  refine (BIClass.sep_mono (PhiS2_weak V c _ _) (Idealize.SL.BI.Entails.refl _)).trans ?_
  iintro ⟨⟨⟨HS0, HR⟩, Hg⟩, Ho, ⟨%d0, H0⟩, ⟨%d1, H1⟩, ⟨%d2, H2⟩⟩
  iapply ((kernelRun2_A c (grid2.coords t) _ _ _ _ _ _ _ _ ((hcond2_0 t).mpr h0) (fun h => h1 ((hcond2_1 t).mp h)) (iblk2 V c 0 t) (iblk2 V c 1 t)).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_A_0 c _ _ _ _ _ _ _ _ _ _ _ _ _)
      iexact HR
    iexact Hg
  isplitl [Ho]; · iexact Ho
  isplitl [H0]; · iexact H0
  isplitl [H1]; · iexact H1
  iexists _; iexact H2

set_option maxHeartbeats 4000000 in
/-- The body at a point whose innermost coordinate is strictly between 0 and 7: the invariant hands over the
    accumulator at what the point before left; the run of the middle case applies. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hz : t.val ≠ 0 := fun e => h0 (by rw [e])
  rw [Dat.leavesExact_idle (dat2 V c) 2 t (idleAt2_2 t (fun h => h1 ((hcond2_1 t).mp h))) (noFlush2_2 t (fun h => h1 ((hcond2_1 t).mp h)))]
  rw [outsAt2_B V c t h0 h1]
  unfold sout2_B_0; (try dsimp only)
  rw [PhiS2_castSucc V c t, PhiS2_pos V c _ _ hz]
  iintro ⟨⟨⟨HS0, HR⟩, Hg⟩, Ho, ⟨%d0, H0⟩, ⟨%d1, H1⟩, ⟨%d2, H2⟩⟩
  iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_B_0 c _ _ _ _ _ _ _ _ _ _ _ _ _ _)
      iexact HR
    iexact Hg
  isplitl [Ho]; · iexact Ho
  isplitl [H0]; · iexact H0
  isplitl [H1]; · iexact H1
  iexists _; iexact H2

set_option maxHeartbeats 4000000 in
/-- The body at a point whose innermost coordinate is 7: as at a middle point, and the output's staging buffer,
    handed over at anything, comes back at the case's contents. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hz : t.val ≠ 0 := fun e => h0 (by rw [e])
  rw [show (dat2 V c).leavesExact 2 t = owns (c : Thread nD τ) (ms2_2 t) fullShare ((dat2 V c).after 2 t) from by
    unfold Dat.leavesExact; rw [liveAt2_2 t ((hcond2_1 t).mpr h1)], after2_2]
  rw [outsAt2_C V c t h0 h1]
  unfold out2_C_2 sout2_C_0; (try dsimp only)
  rw [PhiS2_castSucc V c t, PhiS2_pos V c _ _ hz]
  iintro ⟨⟨⟨HS0, HR⟩, Hg⟩, Ho, ⟨%d0, H0⟩, ⟨%d1, H1⟩, ⟨%d2, H2⟩⟩
  iapply ((kernelRun2_C c (grid2.coords t) _ _ _ _ _ _ _ _ (fun h => h0 ((hcond2_0 t).mp h)) ((hcond2_1 t).mpr h1) (iblk2 V c 0 t) (iblk2 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_C_0 c _ _ _ _ _ _ _ _ _ _ _ _ _ _)
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_C_2 c _ _ _ _ _ _ _ _ _ _ _ _ _ _)

/-- The library's body obligation, at every point: by the innermost coordinate. -/
theorem body_obligation2 (c : Dev nD) : BodyObligation (dat2 (F := F) V c) (defs₀ (F := F)) Variants.none () Set.univ := fun t => by
  rw [bigSep_W2, bigSep_W2]
  by_cases h0 : t.val % 8 = 0
  · exact sound_body2_A V c t h0
  · by_cases h1 : t.val % 8 = 7
    · exact sound_body2_C V c t h0 h1
    · exact sound_body2_B V c t h0 h1

/-- What the launch hands the region is the invariant before the first point. -/
theorem hin2 (c : Dev nD) : (Pipeline.ΦA spec2 c : sProp 𝕄) ⊢ (dat2 V c).Φ 0 := Idealize.SL.BI.Entails.refl _

/-- After the last point the invariant gives back what the launch handed: the accumulator's contents are forgotten. -/
theorem hout2 (c : Dev nD) : (dat2 V c).Φ (Fin.last cfg2.N) ⊢ (Pipeline.ΦA spec2 c : sProp 𝕄) := by
  rw [PhiA2_eq, show (dat2 V c).Φ (Fin.last cfg2.N) = PhiS2 V c (Fin.last cfg2.N).val (Nat.le_of_lt_succ (Fin.last cfg2.N).isLt) from rfl]
  exact PhiS2_weak V c _ _

end Cert.Kernel.Hand

end
-- ==== Proof.Bits.R3Frame.lean ====
/-
  The row-softmax region of the kernel (the fourth of its five calls): the frame part.  The region's grid has 8
  points; at each the body loads its block of 256 whole rows of the 2048 × 2048 score matrix, takes the row
  softmax of every row of the block, and stores the result over the whole output block.  There is no scratch
  memory and nothing is carried between points, so the invariant is the same at every point and the proof
  data record, per point, only what the body leaves in the two windows' buffers.
-/
import proofs.«169802_j68702296867381_2_alg».proof.Proof.Gen.Kernel.Launch
import proofs.«169802_j68702296867381_2_alg».proof.Proof.Gen.Kernel.Skeleton
import proofs.«169802_j68702296867381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-softmax region: one straight-line body per grid point, no carried state

Each of the 8 grid points loads its block of 256 whole rows, computes the row softmax of every row in it
and stores the result over the whole output block.  Nothing is carried from point to point, so the invariant
is the same at every point. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 256 × 2048 block. -/
abbrev r3_0 : Rect S256x2048 := Rect.unit (s := S256x2048) ![0, 0] S256x2048.size inb_S256x2048_S256x2048_0_0

/-- The output buffer after the body: the single store of the row softmax of the loaded block. -/
def out3_1 (x0 : Vec F S256x2048 .f32) : Vec F S256x2048 .bf16 :=
  View.canon [⟨r3_0, k3_pay1 (View.ld x0 r3_0)⟩]

/-- The single store is over the whole block, so it covers it. -/
theorem cover3_1 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

set_option maxHeartbeats 1000000 in
/-- The body on whole buffers, the input's at contents `x0` and the output's at anything, leaves the input as it
    was and the output at `out3_1 x0`. -/
theorem sound_kernel3 (c : Dev nD) (E : Set ℕ) (i : grid3.Coords) (arg0 : Memref sig .tc .vmem S256x2048 .f32) (harg0 : arg0.IsWhole) (arg1 : Memref sig .tc .vmem S256x2048 .bf16) (harg1 : arg1.IsWhole)
    (x0 : Vec F S256x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__softmax_kernel i arg0 harg0 arg1 harg1) K := by
  simp only [cc3__softmax_kernel_eq_skeleton]; unfold cc3__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The proof data -/

/-- The proof data on core `c`: the arrays as the region finds them; after the body at point `t` the input's
    buffer holds its block and the output's the row softmax of it; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so `sound_kernel3` applies; the invariant and what is
    owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant at the first point is the one the region is entered with, -/
theorem hin3 (c : Dev nD) : (Pipeline.ΦA spec3 c : sProp 𝕄) ⊢ (dat3 V c).Φ 0 := Idealize.SL.BI.Entails.refl _

/-- and after the last point the one it is left with. -/
theorem hout3 (c : Dev nD) : (dat3 V c).Φ (Fin.last cfg3.N) ⊢ (Pipeline.ΦA spec3 c : sProp 𝕄) := Idealize.SL.BI.Entails.refl _

end Cert.Kernel.Hand

end
-- ==== Proof.Bits.R4Shared.lean ====
/-
  Region 4 (the product of the value rows with the normalised scores, contracted in four blocks of 512):
  what its three cases share.  The blocks of the windows read off the arrays as the region finds them; the
  two branch conditions of the body in closed form over the grid (the first holds where the contraction
  block is the first, the second where it is the last); where the output window is idle; the staging and
  scratch memrefs; and the region invariant with the accumulator split off the scoped rest.
-/
import proofs.«169802_j68702296867381_2_alg».proof.Proof.Gen.Kernel.Launch
import proofs.«169802_j68702296867381_2_alg».proof.Proof.Gen.Kernel.Skeleton
import proofs.«169802_j68702296867381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffer of the left operand holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The staging buffer of the right operand holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition: the contraction block is the first. -/
abbrev cond4_0 (i : grid4.Coords) : Prop := (Scalar.cmpi .ne (Scalar.extui (Scalar.cmpi .eq (BitVec.ofNat 32 (i 2).val) 0#32)) 0#32) = 1#1
/-- It holds exactly at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's condition: the contraction block is the last. -/
abbrev cond4_1 (i : grid4.Coords) : Prop := k4_cond2 i = 1#1
/-- It holds exactly at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The operands are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last contraction block the output window is idle and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- At the last contraction block the output window is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S1024x1024 .f32 := (Memref.whole cc4_stg2_0 : Memref sig .tc .vmem S1024x1024 .f32).view
/-- Each window's current staging memref at point `t`, and its wholeness. -/
abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
/-- The accumulator: a whole scoped buffer of the kernel's own, carried from point to point. -/
abbrev scM4_0 : Memref sig .tc .vmem S1024x1024 .f32 := Memref.whole cc4_scratch0
abbrev VS4_0 : View sig .tc .vmem S1024x1024 .f32 := scM4_0.view

/-- The region invariant with the accumulator split off as a memref owned at some contents; the other scoped
    buffers stay unopened. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.Kernel.Hand

end
-- ==== Proof.Bits.R4RunA.lean ====
/-
  Region 4, case A: the contraction block is the first.  The accumulator, found at anything, is zeroed and then receives the block product; the output window is left untouched.
  The body's triple on any whole memrefs, with the pieces its stores leave in each buffer as the witness.
-/
import proofs.«169802_j68702296867381_2_alg».proof.Proof.Bits.R4Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator (last first) at a point with the first contraction
    block, with the proof that on whole memrefs — the operands' at their blocks, the output's at contents
    `xi2` handed back untouched, the accumulator's at anything — the body runs to a continuation holding the
    operands and the output as they were and the accumulator with those pieces written. -/
noncomputable def kernelRun4_A (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R4RunB.lean ====
/-
  Region 4, case B: the contraction block is neither the first nor the last.  The accumulator, found at what the point before left, receives the block product; the output window is left untouched.
  The body's triple on any whole memrefs, with the pieces its stores leave in each buffer as the witness.
-/
import proofs.«169802_j68702296867381_2_alg».proof.Proof.Bits.R4Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator (last first) at a point whose contraction block is
    neither the first nor the last, with the proof that on whole memrefs — the operands' at their blocks, the
    output's at contents `xi2` handed back untouched, the accumulator's at `xs0` — the body runs to a
    continuation holding the operands and the output as they were and the accumulator with those pieces written. -/
noncomputable def kernelRun4_B (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R4RunC.lean ====
/-
  Region 4, case C: the contraction block is the last.  The accumulator, found at what the point before left, receives the block product and is then copied into the output window.
  The body's triple on any whole memrefs, with the pieces its stores leave in each buffer as the witness.
-/
import proofs.«169802_j68702296867381_2_alg».proof.Proof.Bits.R4Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the accumulator (last first) at a
    point with the last contraction block, with the proof that on whole memrefs — the operands' at their
    blocks, the output's at anything, the accumulator's at `xs0` — the body runs to a continuation holding the
    operands as they were and the output and the accumulator with those pieces written. -/
noncomputable def kernelRun4_C (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Bits.R4Frame.lean ====
/-
  Region 4 (out = v · k_q_hat, contracted in four blocks of 512; grid 8 × 2 × 4, the contraction block
  innermost): the frame part.  What the accumulator and the output's staging buffer hold after each point, by
  recursion on the point; the region invariant (before the first point the class's, afterwards the accumulator
  at what the point before left, the other scoped buffers unopened, the generator register at some state);
  the proof data; the body obligation by cases on the contraction block; and the invariant's two ends.
-/
import proofs.«169802_j68702296867381_2_alg».proof.Proof.Bits.R4RunA
import proofs.«169802_j68702296867381_2_alg».proof.Proof.Bits.R4RunB
import proofs.«169802_j68702296867381_2_alg».proof.Proof.Bits.R4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces cover the accumulator. -/
theorem scover4_A_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) (y : S1024x1024.Idx) :
    ∃ pc ∈ (kernelRun4_A c i arg3 harg3 arg4 harg4 arg5 harg5 arg6 harg6 hc0 hc1 x0 x1).1, y ∈ pc.1.set :=
  View.cover_of_tiledL (kernelRun4_A c i arg3 harg3 arg4 harg4 arg5 harg5 arg6 harg6 hc0 hc1 x0 x1).1 S1024x1024.size (by sl_kernel_rfl) y

/-- What case A leaves in the accumulator: its pieces read back. -/
def sout4_A_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) : Vec F S1024x1024 .f32 :=
  VS4_0.read (Elt F) (VS4_0.writes (Elt F) VS4_0.junk (kernelRun4_A c i arg3 harg3 arg4 harg4 arg5 harg5 arg6 harg6 hc0 hc1 x0 x1).1)

/-- Case B's pieces cover the accumulator. -/
theorem scover4_B_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) (y : S1024x1024.Idx) :
    ∃ pc ∈ (kernelRun4_B c i arg3 harg3 arg4 harg4 arg5 harg5 arg6 harg6 hc0 hc1 x0 x1 xs0).1, y ∈ pc.1.set :=
  View.cover_of_tiledL (kernelRun4_B c i arg3 harg3 arg4 harg4 arg5 harg5 arg6 harg6 hc0 hc1 x0 x1 xs0).1 S1024x1024.size (by sl_kernel_rfl) y

/-- What case B leaves in the accumulator: its pieces read back. -/
def sout4_B_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 hc0 hc1 x0 x1 xs0).1)

/-- Case C's pieces cover the output's block. -/
theorem cover4_C_2 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) (y : S1024x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x1024.size (by sl_kernel_rfl) y

/-- What case C leaves in the output's staging buffer: its pieces read back. -/
def out4_C_2 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) : Vec F S1024x1024 .f32 :=
  VO4_2.read (Elt F) (VO4_2.writes (Elt F) VO4_2.junk (kernelRun4_C c i arg3 harg3 arg4 harg4 arg5 harg5 arg6 harg6 hc0 hc1 x0 x1 xs0).1)

/-- Case C's pieces cover the accumulator. -/
theorem scover4_C_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) (y : S1024x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x1024.size (by sl_kernel_rfl) y

/-- What case C leaves in the accumulator: its pieces read back. -/
def sout4_C_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 hc0 hc1 x0 x1 xs0).2.1)

/-- What the output's staging buffer is said to hold after a point that stores nothing into it: a placeholder
    nothing consults (the window is idle there and not written back). -/
def idleOut4 : Vec F S1024x1024 .f32 := VO4_2.read (Elt F) VO4_2.junk

/-! ## The closed forms as hypotheses of the cases -/

theorem hA4_0 (t : Fin cfg4.N) (h0 : t.val % 4 = 0) : cond4_0 (grid4.coords t) := (hcond4_0 t).mpr h0
theorem hA4_1 (t : Fin cfg4.N) (h0 : t.val % 4 = 0) : ¬cond4_1 (grid4.coords t) := fun h => by
  have := (hcond4_1 t).mp h; omega
theorem hB4_0 (t : Fin cfg4.N) (h0 : ¬t.val % 4 = 0) : ¬cond4_0 (grid4.coords t) := fun h => h0 ((hcond4_0 t).mp h)
theorem hB4_1 (t : Fin cfg4.N) (h3 : ¬t.val % 4 = 3) : ¬cond4_1 (grid4.coords t) := fun h => h3 ((hcond4_1 t).mp h)
theorem hC4_1 (t : Fin cfg4.N) (h3 : t.val % 4 = 3) : cond4_1 (grid4.coords t) := (hcond4_1 t).mpr h3

/-! ## What the buffers hold after each point -/

/-- THE ACCUMULATION.  After the body at position `n`: (the output's staging buffer, the accumulator).  Where the
    contraction block is the first, case A on the point's blocks; elsewhere case B or C on the point's blocks and
    the accumulator the point before left. -/
def outsAt4 (c : Dev nD) : (n : ℕ) → n < cfg4.N → Vec F S1024x1024 .f32 × Vec F S1024x1024 .f32
  | 0, hn => (idleOut4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) (hA4_0 ⟨0, hn⟩ (Nat.zero_mod _)) (hA4_1 ⟨0, hn⟩ (Nat.zero_mod _)) (iblk4 V c 0 ⟨0, hn⟩) (iblk4 V c 1 ⟨0, hn⟩))
  | n + 1, hn =>
    if h0 : (n + 1) % 4 = 0 then
      (idleOut4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hA4_0 ⟨n + 1, hn⟩ h0) (hA4_1 ⟨n + 1, hn⟩ h0) (iblk4 V c 0 ⟨n + 1, hn⟩) (iblk4 V c 1 ⟨n + 1, hn⟩))
    else
      if h3 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hC4_1 ⟨n + 1, hn⟩ h3) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hC4_1 ⟨n + 1, hn⟩ h3) (iblk4 V c 0 ⟨n + 1, hn⟩) (iblk4 V c 1 ⟨n + 1, hn⟩) (outsAt4 c n (Nat.lt_of_succ_lt hn)).2)
      else
        (idleOut4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hB4_1 ⟨n + 1, hn⟩ h3) (iblk4 V c 0 ⟨n + 1, hn⟩) (iblk4 V c 1 ⟨n + 1, hn⟩) (outsAt4 c n (Nat.lt_of_succ_lt hn)).2)

/-- `outsAt4` at a point of case A. -/
theorem outsAt4_A (c : Dev nD) (t : Fin cfg4.N) (h0 : t.val % 4 = 0) :
    outsAt4 V c t.val t.isLt = (idleOut4, sout4_A_0 c (grid4.coords t) (ms4_0 t) (hs4_0 t) (ms4_1 t) (hs4_1 t) (ms4_2 t) (hs4_2 t) scM4_0 (Memref.isWhole_whole _) (hA4_0 t h0) (hA4_1 t h0) (iblk4 V c 0 t) (iblk4 V c 1 t)) := by
  obtain ⟨n, hn⟩ := t
  cases n with
  | zero => exact rfl
  | succ n => exact (dif_pos h0).trans rfl

/-- `outsAt4` at a point of case B: over what the point before left. -/
theorem outsAt4_B (c : Dev nD) (t : Fin cfg4.N) (h0 : ¬t.val % 4 = 0) (h3 : ¬t.val % 4 = 3) :
    outsAt4 V c t.val t.isLt = (idleOut4, sout4_B_0 c (grid4.coords t) (ms4_0 t) (hs4_0 t) (ms4_1 t) (hs4_1 t) (ms4_2 t) (hs4_2 t) scM4_0 (Memref.isWhole_whole _) (hB4_0 t h0) (hB4_1 t h3) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt4` at a point of case C: over what the point before left. -/
theorem outsAt4_C (c : Dev nD) (t : Fin cfg4.N) (h0 : ¬t.val % 4 = 0) (h3 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region invariant -/

/-- Before position `n`: before the first point the class's invariant (every scoped buffer that is no staging
    buffer at anything, the generator register at some state); afterwards the accumulator at what the point before
    left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The proof data -/

/-- The proof data of the region on core `c`: the arrays as the region finds them; after the body at point `t`
    each operand's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The operands' memrefs hold their blocks; the contraction block says which case the
    point is in.  The invariant hands the body the accumulator — at anything before the first point, at what the
    point before left afterwards (forgotten where the body zeroes it first) — and takes it back at this point's
    contents; the output's buffer comes back untouched where the window is idle, covered by the store where it is
    live; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 4 = 0
  · rw [Dat.leavesExact_idle (dat4 V c) 2 t (idleAt4_2 t (hA4_1 t h0)) (noFlush4_2 t (hA4_1 t h0))]
    rw [outsAt4_A V c t h0]
    unfold sout4_A_0; (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩⟩
      iapply ((kernelRun4_A c (grid4.coords t) _ _ _ _ _ _ _ _ (hA4_0 t h0) (hA4_1 t h0) (iblk4 V c 0 t) (iblk4 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _)
          iexact Hr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_A c (grid4.coords t) _ _ _ _ _ _ _ _ (hA4_0 t h0) (hA4_1 t h0) (iblk4 V c 0 t) (iblk4 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat4 V c).leavesExact 2 t = owns (c : Thread nD τ) (ms4_2 t) fullShare ((dat4 V c).after 2 t) from by
        unfold Dat.leavesExact; rw [liveAt4_2 t (hC4_1 t h3)], after4_2]
      rw [outsAt4_C V c t h0 h3]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (hB4_0 t h0) (hC4_1 t h3) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (hB4_1 t h3)) (noFlush4_2 t (hB4_1 t h3))]
      rw [outsAt4_B V c t h0 h3]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (hB4_0 t h0) (hB4_1 t h3) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulator's contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 64 := N_4; omega)

end Cert.Kernel.Hand

end
-- ==== Proof.Bits.Run.lean ====
/-
  The whole program is five kernel regions in a row, with no host operation between them.  This module
  composes them: the contents of every unscoped buffer at each region boundary (a region changes only the
  arrays of its own windows, which end at what its write-backs leave), each region's proof data stated at
  the contents it is entered from, one segment record per region over the thread state "every unscoped
  buffer at the boundary's contents, the generator register at some state, nothing owed", and the run of
  @main: it terminates without a fault with every unscoped buffer at the last boundary's contents.  From
  that run come the frame (no region's output window is an argument array, so the arguments end as launched)
  and the contents of the result array.
-/
import proofs.«169802_j68702296867381_2_alg».proof.Proof.Bits.R0Frame
import proofs.«169802_j68702296867381_2_alg».proof.Proof.Bits.R1Frame
import proofs.«169802_j68702296867381_2_alg».proof.Proof.Bits.R2Frame
import proofs.«169802_j68702296867381_2_alg».proof.Proof.Bits.R3Frame
import proofs.«169802_j68702296867381_2_alg».proof.Proof.Bits.R4Frame
import proofs.«169802_j68702296867381_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch. -/
abbrev W0 : Dev nD → Valuation τ sig (Elt F) := fun c b => m ((c : Dev nD), b)
/-- The same read at the TensorCore's references: what region 0 is entered from. -/
abbrev E0 : (c : Dev nD) → (b : Ref sig .tc) → Buf (Elt F) ((c : Thread nD τ).loc b) := fun c b => W0 m c b

/-- After region 0: its windows' arrays at what the pipeline leaves (an input as entered, an output's write-backs folded),
    every other buffer as the region found it. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1: its windows' arrays at what the pipeline leaves (an input as entered, an output's write-backs folded),
    every other buffer as the region found it. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After region 2: its windows' arrays at what the pipeline leaves (an input as entered, an output's write-backs folded),
    every other buffer as the region found it. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-- After region 3: its windows' arrays at what the pipeline leaves (an input as entered, an output's write-backs folded),
    every other buffer as the region found it. -/
def W4 (c : Dev nD) : Valuation τ sig (Elt F) :=
  Pipeline.withArrays spec3 c (W3 m c) fun w => (dat3 (E3 m) c).arrAt w cfg3.N
theorem W4_arr (c : Dev nD) (w : Fin cfg3.W) :
    W4 m c (Proc.devRef .tc (Pipeline.arrRef spec3 w)) = (dat3 (E3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references. -/
abbrev E4 : (c : Dev nD) → (b : Ref sig .tc) → Buf (Elt F) ((c : Thread nD τ).loc b) := fun c b => W4 m c b
theorem hF3 (c : Dev nD) (w : Fin cfg3.W) : (dat3 (E3 m) c).arrAt w cfg3.N = E4 m c (Pipeline.arrRef spec3 w) :=
  (W4_arr m c w).symm
theorem hrest3 (c : Dev nD) : ∀ b, b ∉ Finset.univ.image (Pipeline.arrRef spec3) → E4 m c b = E3 m c b :=
  fun b hb => W4_of_ne m c b fun w e => hb (Finset.mem_image.mpr ⟨w, Finset.mem_univ _, e⟩)

/-- After region 4: its windows' arrays at what the pipeline leaves (an input as entered, an output's write-backs folded),
    every other buffer as the region found it. -/
def W5 (c : Dev nD) : Valuation τ sig (Elt F) :=
  Pipeline.withArrays spec4 c (W4 m c) fun w => (dat4 (E4 m) c).arrAt w cfg4.N
theorem W5_arr (c : Dev nD) (w : Fin cfg4.W) :
    W5 m c (Proc.devRef .tc (Pipeline.arrRef spec4 w)) = (dat4 (E4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
/-- The same read at the TensorCore's references. -/
abbrev E5 : (c : Dev nD) → (b : Ref sig .tc) → Buf (Elt F) ((c : Thread nD τ).loc b) := fun c b => W5 m c b
theorem hF4 (c : Dev nD) (w : Fin cfg4.W) : (dat4 (E4 m) c).arrAt w cfg4.N = E5 m c (Pipeline.arrRef spec4 w) :=
  (W5_arr m c w).symm
theorem hrest4 (c : Dev nD) : ∀ b, b ∉ Finset.univ.image (Pipeline.arrRef spec4) → E5 m c b = E4 m c b :=
  fun b hb => W5_of_ne m c b fun w e => hb (Finset.mem_image.mpr ⟨w, Finset.mem_univ _, e⟩)

/-! ## The proof data family and the thread state -/

/-- No pallas_call has a prefetched table. -/
abbrev adm : (p : Fin 5) → (pcfgs (F := F) p).Adm := fun p => (cfgs p).toPCfg_adm
/-- Every region's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered from every unscoped buffer at `W0`, left at `W1`.  Its windows' arrays are split out of the
    unscoped buffers and put back at their exit contents; the generator register and the scoped buffers go into the region's
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (E0 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (E0 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`.  Its windows' arrays are split out of the
    unscoped buffers and put back at their exit contents; the generator register and the scoped buffers go into the region's
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (E1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (E1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W2`, left at `W3`.  Its windows' arrays are split out of the
    unscoped buffers and put back at their exit contents; the generator register and the scoped buffers go into the region's
    invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (E2 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout2 (E2 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W3`, left at `W4`.  Its windows' arrays are split out of the
    unscoped buffers and put back at their exit contents; the generator register and the scoped buffers go into the region's
    invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin3 (E3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout3 (E3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W4`, left at `W5`.  Its windows' arrays are split out of the
    unscoped buffers and put back at their exit contents; the generator register and the scoped buffers go into the region's
    invariant and come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin4 (E4 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout4 (E4 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (E5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .region (reg0 m), .region (reg1 m), .region (reg2 m), .region (reg3 m), .region (reg4 m) ]
/-- @main is the run of the segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting, and
    every final state holds every unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Bits.Ends.lean ====
/-
  What the boundaries' contents are at particular buffers.  A region leaves the array of an INPUT window as it
  found it, and every buffer that is no window of it as well; so each argument array, followed back from the last
  boundary through the five regions, is still at its launch contents.  That is the frame claim.
-/
import proofs.«169802_j68702296867381_2_alg».proof.Proof.Bits.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's array passes a region unchanged -/

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))

theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))

theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))

theorem W4_in (c : Dev nD) (w : Fin cfg3.W) (hw : (cfg3.win w).isOut = false) :
    W4 m c (Proc.devRef .tc (Pipeline.arrRef spec3 w)) = W3 m c (Proc.devRef .tc (Pipeline.arrRef spec3 w)) :=
  (W4_arr m c w).trans (((dat3 (E3 m) c).arrAt_in w hw _).trans (A_eq3 (E3 m) c w))

theorem W5_in (c : Dev nD) (w : Fin cfg4.W) (hw : (cfg4.win w).isOut = false) :
    W5 m c (Proc.devRef .tc (Pipeline.arrRef spec4 w)) = W4 m c (Proc.devRef .tc (Pipeline.arrRef spec4 w)) :=
  (W5_arr m c w).trans (((dat4 (E4 m) c).arrAt_in w hw _).trans (A_eq4 (E4 m) c w))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_in m c 0 rfl
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_in m c 1 rfl
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_in m c 1 rfl
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_in m c 2 rfl
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 3 rfl
    _ = W0 m c (Proc.devRef .tc main_arg4) := W1_of_ne m c main_arg4 (by decide)
    _ = m ((c : Thread nD τ).loc main_arg4) := rfl

/-! ## The frame -/

/-- From any memory with zero counters every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

end Cert.Kernel.Hand

end
-- ==== Proof.Ideal.R0Shared.lean ====
/- Region 0 (a = inputs @ w): what the three cases of the body share. The windows' blocks, the closed forms of
   the two branch conditions over the grid, where the output window is idle, the memrefs the body is called
   with, and the region invariant with the accumulator split off. -/
import proofs.«169802_j68702296867381_2_alg».proof.Proof.Gen.KernelIdeal.Launch
import proofs.«169802_j68702296867381_2_alg».proof.Proof.Gen.KernelIdeal.Skeleton
import proofs.«169802_j68702296867381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first conditional (zero the accumulator): the contraction coordinate is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (store the accumulator into the output block): the contraction coordinate is the last. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second conditional fails the output window is idle, -/
theorem idleAt0_2 : ∀ t : Fin cfg0.N, ¬cond0_1 (grid0.coords t) → cfg0.idle 2 (grid0.coords t) = true := by decide +kernel
/-- and not written back; -/
theorem noFlush0_2 : ∀ t : Fin cfg0.N, ¬cond0_1 (grid0.coords t) → (cfg0.win 2).flush t = false := by decide +kernel
/-- where it holds the window is live. -/
theorem liveAt0_2 : ∀ t : Fin cfg0.N, cond0_1 (grid0.coords t) → cfg0.idle 2 (grid0.coords t) = false := by decide +kernel

/-! ## The memrefs the body is called with -/

abbrev VO0_2 : View sig .tc .vmem S1024x1024 .bf16 := (Memref.whole cc0_stg2_0 : Memref sig .tc .vmem S1024x1024 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The rest of the region invariant, carried along unopened: every other scoped buffer at some contents. -/
abbrev restBut0 (c : Dev nD) : sProp 𝕄 :=
  Pipeline.scopedRestBut (Ix := Unit) (Name := ℕ) (U := UR sig nD τ) (Lvl := ℕ) (Val := Elt F) spec0 c [cc0_scratch0]

/-- The region invariant with the accumulator split off, owned at some contents. -/
theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_split]; simp only [scM0_0, owns_whole]; try rfl

end Cert.KernelIdeal.Hand

end
-- ==== Proof.Ideal.R0RunA.lean ====
/- Region 0, the points with contraction coordinate 0: the body zeroes the accumulator, then adds the block product
   into it; the output block is not touched. -/
import proofs.«169802_j68702296867381_2_alg».proof.Proof.Ideal.R0Shared
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first conditional holds and the second fails: on whole memrefs, the operands' at their
    contents, the output's at contents handed back untouched, the accumulator at anything, it runs to the
    continuation holding the operands' and the output's as they were and the accumulator with the pieces `LS0`
    written (last first). The pieces are found by the run. -/
noncomputable def kernelRun0_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R0RunB.lean ====
/- Region 0, the points with contraction coordinate strictly between 0 and the last: the body adds the block
   product into the accumulator; the output block is not touched. -/
import proofs.«169802_j68702296867381_2_alg».proof.Proof.Ideal.R0Shared
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where both conditionals fail: on whole memrefs, the operands' at their contents, the output's at
    contents handed back untouched, the accumulator at what the point before left, it runs to the continuation
    holding the operands' and the output's as they were and the accumulator with the pieces `LS0` written. -/
noncomputable def kernelRun0_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R0RunC.lean ====
/- Region 0, the points with the last contraction coordinate: the body adds the block product into the
   accumulator, then stores the accumulator, rounded to the output's format, into the output block. -/
import proofs.«169802_j68702296867381_2_alg».proof.Proof.Ideal.R0Shared
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first conditional fails and the second holds: on whole memrefs, the operands' at their
    contents, the output's at anything, the accumulator at what the point before left, it runs to the continuation
    holding the operands' as they were, the output's with the pieces `L2` written and the accumulator with the
    pieces `LS0` written. -/
noncomputable def kernelRun0_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.Ideal.R0Frame.lean ====
/- Region 0 (a = inputs @ w) on the grid (8, 2, 4): what the accumulator holds after each point, what the output
   block holds after the last contraction step, the proof data, the body's obligation at every point, and the
   region invariant at the region's two ends. -/
import proofs.«169802_j68702296867381_2_alg».proof.Proof.Ideal.R0RunA
import proofs.«169802_j68702296867381_2_alg».proof.Proof.Ideal.R0RunB
import proofs.«169802_j68702296867381_2_alg».proof.Proof.Ideal.R0RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output block -/

/-- The stores of the first case cover the accumulator. -/
theorem scover0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the first case leaves in the accumulator. -/
def sout0_A_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) : Vec F S1024x1024 .f32 :=
  VS0_0.read (Elt F) (VS0_0.writes (Elt F) VS0_0.junk (kernelRun0_A c i arg3 harg3 arg4 harg4 arg5 harg5 arg6 harg6 hc0 hc1 x0 x1).2.1)

/-- The store of the middle case covers the accumulator. -/
theorem scover0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the middle case leaves in the accumulator. -/
def sout0_B_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- The store of the last case into the output block covers it. -/
theorem cover0_C_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the last case leaves in the output block. -/
def out0_C_2 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)

/-- The store of the last case into the accumulator covers it. -/
theorem scover0_C_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the last case leaves in the accumulator. -/
def sout0_C_0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## The cases at a grid point -/

theorem hA0_1 (t : Fin cfg0.N) (h0 : t.val % 4 = 0) : ¬cond0_1 (grid0.coords t) :=
  fun h => by have := (hcond0_1 t).mp h; omega
theorem hN0_0 (t : Fin cfg0.N) (h0 : ¬t.val % 4 = 0) : ¬cond0_0 (grid0.coords t) :=
  fun h => h0 ((hcond0_0 t).mp h)
theorem hN0_1 (t : Fin cfg0.N) (h1 : ¬t.val % 4 = 3) : ¬cond0_1 (grid0.coords t) :=
  fun h => h1 ((hcond0_1 t).mp h)

/-- The accumulator after a point with contraction coordinate 0, from the point's operand blocks. -/
def stepA0 (c : Dev nD) (t : Fin cfg0.N) (h0 : t.val % 4 = 0) : Vec F S1024x1024 .f32 :=
  sout0_A_0 c (grid0.coords t) (ms0_0 t) (hs0_0 t) (ms0_1 t) (hs0_1 t) (ms0_2 t) (hs0_2 t) scM0_0 (Memref.isWhole_whole _) ((hcond0_0 t).mpr h0) (hA0_1 t h0) (iblk0 V c 0 t) (iblk0 V c 1 t)

/-- The accumulator after a point with a middle contraction coordinate, from the operand blocks and what the point before left. -/
def stepB0 (c : Dev nD) (t : Fin cfg0.N) (h0 : ¬t.val % 4 = 0) (h1 : ¬t.val % 4 = 3) (xs0 : Vec F S1024x1024 .f32) : Vec F S1024x1024 .f32 :=
  sout0_B_0 c (grid0.coords t) (ms0_0 t) (hs0_0 t) (ms0_1 t) (hs0_1 t) (ms0_2 t) (hs0_2 t) scM0_0 (Memref.isWhole_whole _) (hN0_0 t h0) (hN0_1 t h1) (iblk0 V c 0 t) (iblk0 V c 1 t) xs0

/-- The accumulator after a point with the last contraction coordinate, -/
def stepC0 (c : Dev nD) (t : Fin cfg0.N) (h0 : ¬t.val % 4 = 0) (h1 : t.val % 4 = 3) (xs0 : Vec F S1024x1024 .f32) : Vec F S1024x1024 .f32 :=
  sout0_C_0 c (grid0.coords t) (ms0_0 t) (hs0_0 t) (ms0_1 t) (hs0_1 t) (ms0_2 t) (hs0_2 t) scM0_0 (Memref.isWhole_whole _) (hN0_0 t h0) ((hcond0_1 t).mpr h1) (iblk0 V c 0 t) (iblk0 V c 1 t) xs0

/-- and the output block after it. -/
def outC0 (c : Dev nD) (t : Fin cfg0.N) (h0 : ¬t.val % 4 = 0) (h1 : t.val % 4 = 3) (xs0 : Vec F S1024x1024 .f32) : Vec F S1024x1024 .bf16 :=
  out0_C_2 c (grid0.coords t) (ms0_0 t) (hs0_0 t) (ms0_1 t) (hs0_1 t) (ms0_2 t) (hs0_2 t) scM0_0 (Memref.isWhole_whole _) (hN0_0 t h0) ((hcond0_1 t).mpr h1) (iblk0 V c 0 t) (iblk0 V c 1 t) xs0

/-! ## The accumulation -/

/-- What the accumulator holds after the body at position `n`: restarted at a contraction coordinate 0, otherwise the
    case's result over what position `n - 1` left. -/
def acc0 (c : Dev nD) : (n : ℕ) → n < cfg0.N → Vec F S1024x1024 .f32
  | 0, hn => stepA0 V c ⟨0, hn⟩ (Nat.zero_mod _)
  | n + 1, hn =>
    if h0 : (n + 1) % 4 = 0 then stepA0 V c ⟨n + 1, hn⟩ h0
    else if h1 : (n + 1) % 4 = 3 then stepC0 V c ⟨n + 1, hn⟩ h0 h1 (acc0 c n (Nat.lt_of_succ_lt hn))
    else stepB0 V c ⟨n + 1, hn⟩ h0 h1 (acc0 c n (Nat.lt_of_succ_lt hn))

theorem acc0_A (c : Dev nD) (t : Fin cfg0.N) (h0 : t.val % 4 = 0) : acc0 V c t.val t.isLt = stepA0 V c t h0 := by
  obtain ⟨n, hn⟩ := t
  cases n with
  | zero => exact rfl
  | succ n => exact (dif_pos h0).trans rfl

theorem acc0_B (c : Dev nD) (t : Fin cfg0.N) (h0 : ¬t.val % 4 = 0) (h1 : ¬t.val % 4 = 3) :
    acc0 V c t.val t.isLt = stepB0 V c t h0 h1 (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem acc0_C (c : Dev nD) (t : Fin cfg0.N) (h0 : ¬t.val % 4 = 0) (h1 : t.val % 4 = 3) :
    acc0 V c t.val t.isLt = stepC0 V c t h0 h1 (acc0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output block holds after the body at point `t`: at the last contraction coordinate the stored accumulator;
    elsewhere the window is idle and nothing reads this. -/
def outAt0 (c : Dev nD) (t : Fin cfg0.N) : Vec F S1024x1024 .bf16 :=
  if h1 : t.val % 4 = 3 then
    outC0 V c t (by omega) h1 (acc0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = outC0 V c t h0 h1 (acc0 V c (t.val - 1) (Nat.lt_of_le_of_lt (Nat.sub_le _ _) t.isLt)) := dif_pos h1

/-! ## The region invariant -/

/-- Before position `n`: at the region's start what the launch hands over; afterwards the accumulator at what position
    `n - 1` left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have hn1 : ¬cond0_1 (grid0.coords t) := hA0_1 t h0
    rw [Dat.leavesExact_idle (dat0 V c) 2 t (idleAt0_2 t hn1) (noFlush0_2 t hn1)]
    rw [acc0_A V c t h0]
    unfold stepA0 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) hn1 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [acc0_C V c t h0 h1, outAt0_C V c t h0 h1]
      unfold stepC0 outC0 sout0_C_0 out0_C_2; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (hN0_0 t h0) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · have hn1 : ¬cond0_1 (grid0.coords t) := hN0_1 t h1
      rw [Dat.leavesExact_idle (dat0 V c) 2 t (idleAt0_2 t hn1) (noFlush0_2 t hn1)]
      rw [acc0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (hN0_0 t h0) hn1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.KernelIdeal.Hand

end
-- ==== Proof.Ideal.R1Shared.lean ====
/-
  Region 1: the fused projections q, k, v = a · w_q, a · w_k, a · w_v, on a grid of 16 × 4 × 4 points whose last
  coordinate k runs over the four blocks of the contracted axis.  What the three runs of its body share: the blocks
  of the windows' arrays, what the body finds in the input windows, the two conditions of the body in closed form
  (k = 0: the three accumulators are zeroed; k = 3: they are copied to the outputs), where the output windows are
  idle, and the invariant handed to the body with the three accumulators singled out.
-/
import proofs.«169802_j68702296867381_2_alg».proof.Proof.Gen.KernelIdeal.Launch
import proofs.«169802_j68702296867381_2_alg».proof.Proof.Gen.KernelIdeal.Skeleton
import proofs.«169802_j68702296867381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether or not the
    pipeline fetched it there: an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, whether or not the
    pipeline fetched it there: an unfetched point has the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, whether or not the
    pipeline fetched it there: an unfetched point has the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, whether or not the
    pipeline fetched it there: an unfetched point has the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition of the body, `k = 0`, as the scalar chain computes it from the grid coordinates. -/
abbrev cond1_0 (i : grid1.Coords) : Prop := (Scalar.cmpi .ne (Scalar.extui (Scalar.cmpi .eq (BitVec.ofNat 32 (i 2).val) 0#32)) 0#32) = 1#1
/-- It holds at the points whose position is ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition of the body, `k = 3`. -/
abbrev cond1_1 (i : grid1.Coords) : Prop := k1_cond2 i = 1#1
/-- It holds at the points whose position is ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel

/-- Where `k ≠ 3` the body stores nothing into output window 4: the window is idle there, -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- where `k = 3` it is live. -/
theorem liveAt1_4 : ∀ t : Fin cfg1.N, cond1_1 (grid1.coords t) → cfg1.idle 4 (grid1.coords t) = false := by decide +kernel
/-- Where `k ≠ 3` the body stores nothing into output window 5: the window is idle there, -/
theorem idleAt1_5 : ∀ t : Fin cfg1.N, ¬cond1_1 (grid1.coords t) → cfg1.idle 5 (grid1.coords t) = true := by decide +kernel
/-- and its block is not written back there; -/
theorem noFlush1_5 : ∀ t : Fin cfg1.N, ¬cond1_1 (grid1.coords t) → (cfg1.win 5).flush t = false := by decide +kernel
/-- where `k = 3` it is live. -/
theorem liveAt1_5 : ∀ t : Fin cfg1.N, cond1_1 (grid1.coords t) → cfg1.idle 5 (grid1.coords t) = false := by decide +kernel
/-- Where `k ≠ 3` the body stores nothing into output window 6: the window is idle there, -/
theorem idleAt1_6 : ∀ t : Fin cfg1.N, ¬cond1_1 (grid1.coords t) → cfg1.idle 6 (grid1.coords t) = true := by decide +kernel
/-- and its block is not written back there; -/
theorem noFlush1_6 : ∀ t : Fin cfg1.N, ¬cond1_1 (grid1.coords t) → (cfg1.win 6).flush t = false := by decide +kernel
/-- where `k = 3` it is live. -/
theorem liveAt1_6 : ∀ t : Fin cfg1.N, cond1_1 (grid1.coords t) → cfg1.idle 6 (grid1.coords t) = false := by decide +kernel

/-! ## The memrefs the body is called with -/

/-- One staging buffer of each output window, through which what a run leaves there is stated. -/
abbrev VO1_4 : View sig .tc .vmem S512x512 .f32 := (Memref.whole cc1_stg4_0 : Memref sig .tc .vmem S512x512 .f32).view
abbrev VO1_5 : View sig .tc .vmem S512x512 .f32 := (Memref.whole cc1_stg5_0 : Memref sig .tc .vmem S512x512 .f32).view
abbrev VO1_6 : View sig .tc .vmem S512x512 .bf16 := (Memref.whole cc1_stg6_0 : Memref sig .tc .vmem S512x512 .bf16).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
/-- The three accumulators: whole scoped buffers of the call's own, carried from point to point. -/
abbrev scM1_0 : Memref sig .tc .vmem S512x512 .f32 := Memref.whole cc1_scratch0
abbrev scM1_1 : Memref sig .tc .vmem S512x512 .f32 := Memref.whole cc1_scratch1
abbrev scM1_2 : Memref sig .tc .vmem S512x512 .f32 := Memref.whole cc1_scratch2
abbrev VS1_0 : View sig .tc .vmem S512x512 .f32 := scM1_0.view
abbrev VS1_1 : View sig .tc .vmem S512x512 .f32 := scM1_1.view
abbrev VS1_2 : View sig .tc .vmem S512x512 .f32 := scM1_2.view

/-- The scoped buffers of the call that are neither staging buffers nor its accumulators: carried along unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant the region is entered with, the three accumulators singled out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ rest1 (F := F) c) ∗ (∃ r, prngReg c r)) := by
  unfold Pipeline.ΦA; rw [scopedRest1_split]; simp only [scM1_0, scM1_1, scM1_2, owns_whole]; try rfl

end Cert.KernelIdeal.Hand

end
-- ==== Proof.Ideal.R1RunA.lean ====
/-
  Region 1, the body at a point with k = 0: the three accumulators, found at anything, are zeroed and then hold the
  first block product each; the output windows are not touched.
-/
import proofs.«169802_j68702296867381_2_alg».proof.Proof.Ideal.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with k = 0, on any whole memrefs: from the input windows' buffers at their contents, the output windows' at contents handed back untouched and the three accumulators at anything, the body runs to the inputs as they were and each accumulator with the pieces its stores wrote (the witness the run finds). -/
noncomputable def kernelRun1_A (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) :
    Σ' (LS0 : List (View.Piece (Elt F) S512x512 .f32)) (LS1 : List (View.Piece (Elt F) S512x512 .f32)), { LS2 : List (View.Piece (Elt F) S512x512 .f32) //
      ∀ (xi4 xi5 : Vec F S512x512 .f32) (xi6 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.Ideal.R1RunB.lean ====
/-
  Region 1, the body at a point with 0 < k < 3: each accumulator, found at what the point before left, has this
  point's block product added; the output windows are not touched.
-/
import proofs.«169802_j68702296867381_2_alg».proof.Proof.Ideal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with 0 < k < 3, on any whole memrefs: from the input windows' buffers at their contents, the output windows' at contents handed back untouched and the three accumulators at the contents `xs·` the point before left, the body runs to the inputs as they were and each accumulator with the pieces its stores wrote. -/
noncomputable def kernelRun1_B (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) :
    Σ' (LS0 : List (View.Piece (Elt F) S512x512 .f32)) (LS1 : List (View.Piece (Elt F) S512x512 .f32)), { LS2 : List (View.Piece (Elt F) S512x512 .f32) //
      ∀ (xi4 xi5 : Vec F S512x512 .f32) (xi6 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.Ideal.R1RunC.lean ====
/-
  Region 1, the body at a point with k = 3: each accumulator, found at what the point before left, has the last
  block product added, and is then copied into its output window (the third through the rounding to bf16).
-/
import proofs.«169802_j68702296867381_2_alg».proof.Proof.Ideal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a point with k = 3, on any whole memrefs: from the input windows' buffers at their contents, the output windows' at anything and the three accumulators at the contents `xs·` the point before left, the body runs to the inputs as they were and each output window's buffer and each accumulator with the pieces its stores wrote. -/
noncomputable def kernelRun1_C (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    Σ' (L4 : List (View.Piece (Elt F) S512x512 .f32)) (L5 : List (View.Piece (Elt F) S512x512 .f32)) (L6 : List (View.Piece (Elt F) S512x512 .bf16)) (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__qkv_kernel i arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1__qkv_kernel_eq_skeleton]; unfold cc1__qkv_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.Ideal.R1Outs.lean ====
/-
  Region 1: what the three accumulators and the three output windows' buffers hold after the body at each point of
  the grid.  Per case of the body (k = 0, 0 < k < 3, k = 3) the pieces its stores wrote tile the buffer, so what the
  buffer holds is those pieces read back; point by point the accumulators are then given by recursion on the
  position, the case with k = 0 starting afresh and the others continuing from what the point before left.
-/
import proofs.«169802_j68702296867381_2_alg».proof.Proof.Ideal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the body writes into accumulator 0 at a point with k = 0 tile it: they cover it. -/
theorem scover1_A_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).1 S512x512.size (by sl_kernel_rfl) y

/-- What the body leaves in accumulator 0 at a point with k = 0: its pieces read back. -/
def sout1_A_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3).1)

/-- The pieces the body writes into accumulator 1 at a point with k = 0 tile it: they cover it. -/
theorem scover1_A_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).2.1 S512x512.size (by sl_kernel_rfl) y

/-- What the body leaves in accumulator 1 at a point with k = 0: its pieces read back. -/
def sout1_A_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3).2.1)

/-- The pieces the body writes into accumulator 2 at a point with k = 0 tile it: they cover it. -/
theorem scover1_A_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) (y : S512x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3).2.2.1 S512x512.size (by sl_kernel_rfl) y

/-- What the body leaves in accumulator 2 at a point with k = 0: its pieces read back. -/
def sout1_A_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) : Vec F S512x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3).2.2.1)

/-- The pieces the body writes into accumulator 0 at a point with 0 < k < 3 tile it: they cover it. -/
theorem scover1_B_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).1 S512x512.size (by sl_kernel_rfl) y

/-- What the body leaves in accumulator 0 at a point with 0 < k < 3: its pieces read back. -/
def sout1_B_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).1)

/-- The pieces the body writes into accumulator 1 at a point with 0 < k < 3 tile it: they cover it. -/
theorem scover1_B_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1 S512x512.size (by sl_kernel_rfl) y

/-- What the body leaves in accumulator 1 at a point with 0 < k < 3: its pieces read back. -/
def sout1_B_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.1)

/-- The pieces the body writes into accumulator 2 at a point with 0 < k < 3 tile it: they cover it. -/
theorem scover1_B_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1 S512x512.size (by sl_kernel_rfl) y

/-- What the body leaves in accumulator 2 at a point with 0 < k < 3: its pieces read back. -/
def sout1_B_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) : Vec F S512x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 xs0 xs1 xs2).2.2.1)

/-- The pieces the body writes into accumulator 0 at a point with k = 3 tile it: they cover it. -/
theorem scover1_C_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1 S512x512.size (by sl_kernel_rfl) y

/-- What the body leaves in accumulator 0 at a point with k = 3: its pieces read back. -/
def sout1_C_0 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.1)

/-- The pieces the body writes into accumulator 1 at a point with k = 3 tile it: they cover it. -/
theorem scover1_C_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1 S512x512.size (by sl_kernel_rfl) y

/-- What the body leaves in accumulator 1 at a point with k = 3: its pieces read back. -/
def sout1_C_1 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1)

/-- The pieces the body writes into accumulator 2 at a point with k = 3 tile it: they cover it. -/
theorem scover1_C_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1 S512x512.size (by sl_kernel_rfl) y

/-- What the body leaves in accumulator 2 at a point with k = 3: its pieces read back. -/
def sout1_C_2 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1)

/-- The pieces the body writes into output window 4's buffer at a point with k = 3 tile it: they cover it. -/
theorem cover1_C_4 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).1 S512x512.size (by sl_kernel_rfl) y

/-- What the body leaves in output window 4's buffer at a point with k = 3: its pieces read back. -/
def out1_C_4 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).1)

/-- The pieces the body writes into output window 5's buffer at a point with k = 3 tile it: they cover it. -/
theorem cover1_C_5 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1 S512x512.size (by sl_kernel_rfl) y

/-- What the body leaves in output window 5's buffer at a point with k = 3: its pieces read back. -/
def out1_C_5 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.1)

/-- The pieces the body writes into output window 6's buffer at a point with k = 3 tile it: they cover it. -/
theorem cover1_C_6 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1 S512x512.size (by sl_kernel_rfl) y

/-- What the body leaves in output window 6's buffer at a point with k = 3: its pieces read back. -/
def out1_C_6 (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) : Vec F S512x512 .bf16 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 xs0 xs1 xs2).2.2.1)

/-! ## The conditions at a point, from its position -/

theorem condA1 (t : Fin cfg1.N) (h0 : t.val % 4 = 0) : cond1_0 (grid1.coords t) ∧ ¬cond1_1 (grid1.coords t) :=
  ⟨(hcond1_0 t).mpr h0, fun h => by have := (hcond1_1 t).mp h; omega⟩
theorem condB1 (t : Fin cfg1.N) (h0 : ¬t.val % 4 = 0) (h3 : ¬t.val % 4 = 3) : ¬cond1_0 (grid1.coords t) ∧ ¬cond1_1 (grid1.coords t) :=
  ⟨fun h => h0 ((hcond1_0 t).mp h), fun h => h3 ((hcond1_1 t).mp h)⟩
theorem condC1 (t : Fin cfg1.N) (h3 : t.val % 4 = 3) : ¬cond1_0 (grid1.coords t) ∧ cond1_1 (grid1.coords t) :=
  ⟨fun h => by have := (hcond1_0 t).mp h; omega, (hcond1_1 t).mpr h3⟩

/-! ## What the buffers hold after each point -/

/-- The contents of the three output windows' buffers (q, k, v) and of the three accumulators. -/
abbrev Outs1 (F : FTy → Type) : Type :=
  (Vec F S512x512 .f32 × Vec F S512x512 .f32 × Vec F S512x512 .bf16) × (Vec F S512x512 .f32 × Vec F S512x512 .f32 × Vec F S512x512 .f32)

/-- A placeholder for the output windows' buffers at the points with k ≠ 3, where the body stores nothing into them
    and the pipeline writes nothing back: nothing consults it. -/
def idleOuts1 : Vec F S512x512 .f32 × Vec F S512x512 .f32 × Vec F S512x512 .bf16 :=
  (VO1_4.read (Elt F) VO1_4.junk, VO1_5.read (Elt F) VO1_5.junk, VO1_6.read (Elt F) VO1_6.junk)

/-- THE ACCUMULATION.  After the body at position `n`: at a point with k = 0 the accumulators hold what that case
    leaves from scratch; at the others what the case leaves over the accumulators of position `n - 1`; the output
    windows' buffers hold what the case k = 3 leaves, and a placeholder elsewhere. -/
def outsAt1 (c : Dev nD) : (n : ℕ) → n < cfg1.N → Outs1 F
  | 0, hn => (idleOuts1, (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) (condA1 ⟨0, hn⟩ (Nat.zero_mod _)).1 (condA1 ⟨0, hn⟩ (Nat.zero_mod _)).2 (iblk1 V c 0 ⟨0, hn⟩) (iblk1 V c 1 ⟨0, hn⟩) (iblk1 V c 2 ⟨0, hn⟩) (iblk1 V c 3 ⟨0, hn⟩)))
  | n + 1, hn =>
    if h0 : (n + 1) % 4 = 0 then
      (idleOuts1, (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condA1 ⟨n + 1, hn⟩ h0).1 (condA1 ⟨n + 1, hn⟩ h0).2 (iblk1 V c 0 ⟨n + 1, hn⟩) (iblk1 V c 1 ⟨n + 1, hn⟩) (iblk1 V c 2 ⟨n + 1, hn⟩) (iblk1 V c 3 ⟨n + 1, hn⟩)))
    else if h3 : (n + 1) % 4 = 3 then
      ((out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2),
       (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condC1 ⟨n + 1, hn⟩ h3).1 (condC1 ⟨n + 1, hn⟩ h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))
    else
      (idleOuts1, (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (condB1 ⟨n + 1, hn⟩ h0 h3).1 (condB1 ⟨n + 1, hn⟩ h0 h3).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))

/-- `outsAt1` at a point with k = 0. -/
theorem outsAt1_A (c : Dev nD) (t : Fin cfg1.N) (h0 : t.val % 4 = 0) :
    outsAt1 V c t.val t.isLt = (idleOuts1, (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t))) := by
  obtain ⟨n, hn⟩ := t
  cases n with
  | zero => exact rfl
  | succ n => exact (dif_pos h0).trans rfl

/-- `outsAt1` at a point with 0 < k < 3: over what the point before left. -/
theorem outsAt1_B (c : Dev nD) (t : Fin cfg1.N) (h0 : ¬t.val % 4 = 0) (h3 : ¬t.val % 4 = 3) :
    outsAt1 V c t.val t.isLt = (idleOuts1, (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact absurd (Nat.zero_mod _) h0
  | succ n => exact (dif_neg h0).trans ((dif_neg h3).trans rfl)

/-- `outsAt1` at a point with k = 3: over what the point before left. -/
theorem outsAt1_C (c : Dev nD) (t : Fin cfg1.N) (h3 : t.val % 4 = 3) :
    outsAt1 V c t.val t.isLt = ((out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
       (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact absurd (show (0 : ℕ) % 4 = 3 from h3) (by decide)
  | succ n => exact (dif_neg (fun h0 => by dsimp only at h0 h3; omega)).trans ((dif_pos h3).trans rfl)

/-! ## The invariant -/

/-- The three accumulators owned at the given contents, the call's other scoped buffers, the generator register. -/
abbrev carried1 (c : Dev nD) (s : Vec F S512x512 .f32 × Vec F S512x512 .f32 × Vec F S512x512 .f32) : sProp 𝕄 :=
  iprop(iprop(iprop(owns (c : Thread nD τ) scM1_0 fullShare s.1 ∗ owns (c : Thread nD τ) scM1_1 fullShare s.2.1 ∗ owns (c : Thread nD τ) scM1_2 fullShare s.2.2)
    ∗ rest1 (F := F) c) ∗ (∃ r, prngReg c r))

/-- The region's invariant before position `n`: before the first point what the region is entered with; afterwards
    the accumulators at what the point before left in them. -/
def PhiS1 (c : Dev nD) : (n : ℕ) → n ≤ cfg1.N → sProp 𝕄
  | 0, _ => Pipeline.ΦA spec1 c
  | n + 1, hn => carried1 c (outsAt1 V c n hn).2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried1 c (outsAt1 V c n hn).2 := rfl

theorem PhiS1_pos (c : Dev nD) (n : ℕ) (h : n ≤ cfg1.N) (hz : n ≠ 0) :
    PhiS1 V c n h = carried1 c (outsAt1 V c (n - 1) (by omega)).2 := by
  cases n with
  | zero => exact absurd rfl hz
  | succ n => rfl

end Cert.KernelIdeal.Hand

end
-- ==== Proof.Ideal.R1Frame.lean ====
/-
  Region 1, the frame: the proof data of the pipeline (what every window's buffer holds after the body at every
  point, the invariant carrying the three accumulators from point to point), the body's obligation at a generic
  point by cases on the position modulo 4, and the two ends of the invariant.
-/
import proofs.«169802_j68702296867381_2_alg».proof.Proof.Ideal.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of region 1 on core `c`: the arrays as the region finds them; after the body at point `t` each
    input window's buffer at its block and each output window's at `outsAt1`'s component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1.1
    | ⟨5, _⟩ => (outsAt1 V c t.val t.isLt).1.2.1
    | ⟨6, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1.1 := by dsimp only [dat1]
theorem after1_5 (c : Dev nD) (t : Fin cfg1.N) : (dat1 V c).after 5 t = (outsAt1 V c t.val t.isLt).1.2.1 := by dsimp only [dat1]
theorem after1_6 (c : Dev nD) (t : Fin cfg1.N) : (dat1 V c).after 6 t = (outsAt1 V c t.val t.isLt).1.2.2 := by dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the input windows' buffers hold their blocks; the position says which case the point is
    in; the invariant hands the body the accumulators (at anything before the first point, else at what the point
    before left, which a point with k = 0 forgets) and takes them back at this point's contents, the pieces the run
    wrote covering each buffer; where k ≠ 3 the output windows' buffers go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · -- k = 0
    rw [Dat.leavesExact_idle (dat1 V c) 4 t (idleAt1_4 t (condA1 t h0).2) (noFlush1_4 t (condA1 t h0).2)]
    rw [Dat.leavesExact_idle (dat1 V c) 5 t (idleAt1_5 t (condA1 t h0).2) (noFlush1_5 t (condA1 t h0).2)]
    rw [Dat.leavesExact_idle (dat1 V c) 6 t (idleAt1_6 t (condA1 t h0).2) (noFlush1_6 t (condA1 t h0).2)]
    rw [outsAt1_A V c t h0]
    unfold sout1_A_0 sout1_A_1 sout1_A_2; (try dsimp only [carried1])
    by_cases hz : t.val = 0
    · rw [PhiS1_castSucc V c t, PhiS1_zero V c _ _ hz, PhiA1_eq]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (condA1 t h0).1 (condA1 t h0).2 (iblk1 V c 0 t) (iblk1 V c 1 t) (iblk1 V c 2 t) (iblk1 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_A_0 c _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_A_1 c _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (condA1 t h0).1 (condA1 t h0).2 (iblk1 V c 0 t) (iblk1 V c 1 t) (iblk1 V c 2 t) (iblk1 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_A_0 c _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_A_1 c _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h3 : t.val % 4 = 3
    · -- k = 3
      rw [show (dat1 V c).leavesExact 4 t = owns (c : Thread nD τ) (ms1_4 t) fullShare ((dat1 V c).after 4 t) from by
        unfold Dat.leavesExact; rw [liveAt1_4 t (condC1 t h3).2], after1_4]
      rw [show (dat1 V c).leavesExact 5 t = owns (c : Thread nD τ) (ms1_5 t) fullShare ((dat1 V c).after 5 t) from by
        unfold Dat.leavesExact; rw [liveAt1_5 t (condC1 t h3).2], after1_5]
      rw [show (dat1 V c).leavesExact 6 t = owns (c : Thread nD τ) (ms1_6 t) fullShare ((dat1 V c).after 6 t) from by
        unfold Dat.leavesExact; rw [liveAt1_6 t (condC1 t h3).2], after1_6]
      rw [outsAt1_C V c t h3]
      unfold out1_C_4 out1_C_5 out1_C_6 sout1_C_0 sout1_C_1 sout1_C_2; (try dsimp only [carried1])
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (condC1 t h3).1 (condC1 t h3).2 (iblk1 V c 0 t) (iblk1 V c 1 t) (iblk1 V c 2 t) (iblk1 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      ·
        unfold owns; iexists _; isplitr
        swap; · iexact H4
        ipureintro; exact View.read_writes_of_cover _ _ _ _ _ (cover1_C_4 c _ _ _ _ _ _ _ _ _ _ _ _ _ _ _ _ _ _ _ _ _ _ _ _ _ _ _ _ _ _)
      isplitl [H5]
      ·
        unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _)
    · -- 0 < k < 3
      rw [Dat.leavesExact_idle (dat1 V c) 4 t (idleAt1_4 t (condB1 t h0 h3).2) (noFlush1_4 t (condB1 t h0 h3).2)]
      rw [Dat.leavesExact_idle (dat1 V c) 5 t (idleAt1_5 t (condB1 t h0 h3).2) (noFlush1_5 t (condB1 t h0 h3).2)]
      rw [Dat.leavesExact_idle (dat1 V c) 6 t (idleAt1_6 t (condB1 t h0 h3).2) (noFlush1_6 t (condB1 t h0 h3).2)]
      rw [outsAt1_B V c t h0 h3]
      unfold sout1_B_0 sout1_B_1 sout1_B_2; (try dsimp only [carried1])
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (condB1 t h0 h3).1 (condB1 t h0 h3).2 (iblk1 V c 0 t) (iblk1 V c 1 t) (iblk1 V c 2 t) (iblk1 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hr Hg]
      · isplitl [HS0 HS1 HS2 Hr]
        · isplitl [HS0 HS1 HS2]
          ·
            isplitl [HS0]
            ·
              unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry invariant back: the accumulators' contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.KernelIdeal.Hand

end
-- ==== Proof.Ideal.R2Shared.lean ====
/- Region 2, the product kᵀ·q accumulated over the eight blocks of the contracted axis: the two branch
   conditions of the body in closed form over the grid (the innermost coordinate is 0; it is 7), where the
   output window is idle and not written back, the staging and scratch memrefs, and the region's invariant
   with the accumulator buffer split off the remaining scoped buffers. -/
import proofs.«169802_j68702296867381_2_alg».proof.Proof.Gen.KernelIdeal.Launch
import proofs.«169802_j68702296867381_2_alg».proof.Proof.Gen.KernelIdeal.Skeleton
import proofs.«169802_j68702296867381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the accumulator is zeroed): the scalar chain of the body on the
    innermost grid coordinate. -/
abbrev cond2_0 (i : grid2.Coords) : Prop :=
  (Scalar.cmpi .ne (Scalar.extui (Scalar.cmpi .eq (BitVec.ofNat 32 (i 2).val) 0#32)) 0#32) = 1#1
/-- It holds exactly at the points whose innermost coordinate is 0. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the accumulator is copied to the output block). -/
abbrev cond2_1 (i : grid2.Coords) : Prop := k2_cond2 i = 1#1
/-- It holds exactly at the points whose innermost coordinate is 7. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last block of the contraction the output window is idle -/
theorem idleAt2_2 : ∀ t : Fin cfg2.N, ¬cond2_1 (grid2.coords t) → cfg2.idle 2 (grid2.coords t) = true := by decide +kernel
/-- and is not written back; -/
theorem noFlush2_2 : ∀ t : Fin cfg2.N, ¬cond2_1 (grid2.coords t) → (cfg2.win 2).flush t = false := by decide +kernel
/-- at the last block it is live. -/
theorem liveAt2_2 : ∀ t : Fin cfg2.N, cond2_1 (grid2.coords t) → cfg2.idle 2 (grid2.coords t) = false := by decide +kernel

/-! ## The memrefs the body is called with -/

/-- One staging buffer of the output window, through which its contents are stated. -/
abbrev VO2_2 : View sig .tc .vmem S256x256 .f32 := (Memref.whole cc2_stg2_0 : Memref sig .tc .vmem S256x256 .f32).view
/-- Each window's current staging memref at point `t` and its wholeness. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S256x256 .f32 := Memref.whole cc2_scratch0
/-- The accumulator as a view: what it holds is stated through it. -/
abbrev VS2_0 : View sig .tc .vmem S256x256 .f32 := scM2_0.view

/-- The scoped buffers other than the accumulator, unopened. -/
abbrev restBut2 (c : Dev nD) : sProp 𝕄 :=
  Pipeline.scopedRestBut (Ix := Unit) (Name := ℕ) (U := UR sig nD τ) (Lvl := ℕ) (Val := Elt F) spec2 c [cc2_scratch0]

/-- The region's invariant with the accumulator as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.KernelIdeal.Hand

end
-- ==== Proof.Ideal.R2RunA.lean ====
/- Region 2, the body run at a point whose innermost coordinate is 0: the accumulator, found at any
   contents, is stored zeros and then zeros plus the block product; the output block is not touched. -/
import proofs.«169802_j68702296867381_2_alg».proof.Proof.Ideal.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at a first block of the contraction (the list, last store
    first), with the proof that on whole memrefs — the two input blocks at their contents, the output buffer at
    contents handed back untouched, the accumulator at anything — the body runs to a continuation holding the inputs
    as they were, the output as it was and the accumulator with those pieces written. -/
noncomputable def kernelRun2_A (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i)
    (x0 : Vec F S1024x256 .f32) (x1 : Vec F S1024x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨[], ?_, fun xi2 E K => ?run⟩
  case run =>
    simp only [cc2__kq_kernel_eq_skeleton]; unfold cc2__kq_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R2RunB.lean ====
/- Region 2, the body run at a point whose innermost coordinate is strictly between 0 and 7: the
   accumulator, at what the point before left, is stored itself plus the block product; the output block is
   not touched. -/
import proofs.«169802_j68702296867381_2_alg».proof.Proof.Ideal.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator at a middle block of the contraction, with the proof that on
    whole memrefs — the two input blocks at their contents, the output buffer at contents handed back untouched, the
    accumulator at the contents `xs0` the point before left — the body runs to a continuation holding the inputs as
    they were, the output as it was and the accumulator with those pieces written. -/
noncomputable def kernelRun2_B (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i)
    (x0 : Vec F S1024x256 .f32) (x1 : Vec F S1024x256 .f32) (xs0 : Vec F S256x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨[], ?_, fun xi2 E K => ?run⟩
  case run =>
    simp only [cc2__kq_kernel_eq_skeleton]; unfold cc2__kq_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R2RunC.lean ====
/- Region 2, the body run at a point whose innermost coordinate is 7: the accumulator, at what the
   point before left, is stored itself plus the block product, and that sum is stored into the output block. -/
import proofs.«169802_j68702296867381_2_alg».proof.Proof.Ideal.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator at a last block of the contraction,
    with the proof that on whole memrefs — the two input blocks at their contents, the output buffer at anything, the
    accumulator at the contents `xs0` the point before left — the body runs to a continuation holding the inputs as
    they were and the output and the accumulator with those pieces written. -/
noncomputable def kernelRun2_C (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i)
    (x0 : Vec F S1024x256 .f32) (x1 : Vec F S1024x256 .f32) (xs0 : Vec F S256x256 .f32) :
    Σ' (L2 : List (View.Piece (Elt F) S256x256 .f32)), { LS0 : List (View.Piece (Elt F) S256x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__kq_kernel i arg3 harg3 arg4 harg4 arg5 harg5 arg6 harg6) K } := by
  refine ⟨?_, ?_, fun E K => ?run⟩
  case run =>
    simp only [cc2__kq_kernel_eq_skeleton]; unfold cc2__kq_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.Ideal.R2Frame.lean ====
/- Region 2, the product kᵀ·q accumulated over the eight blocks of the contracted axis, as a pipeline
   stated at the contents `V` the region is entered with: what the accumulator and the output block hold after
   every grid point, the invariant carried between points (the accumulator at what the point before left),
   the proof data, and the body's obligation at every point from the three runs of the body. -/
import proofs.«169802_j68702296867381_2_alg».proof.Proof.Ideal.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves: the pieces read back, and that they cover -/

/-- The placeholder for the output block at the points that do not store into it (the window is idle there: neither
    written back nor read at the next point). -/
def idleOut2 : Vec F S256x256 .f32 := VO2_2.read (Elt F) VO2_2.junk

/-- A first block's pieces for the accumulator cover it. -/
theorem scover2_A_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i) (x0 : Vec F S1024x256 .f32) (x1 : Vec F S1024x256 .f32) (y : S256x256.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S256x256.size (by sl_kernel_rfl) y
/-- What a first block leaves in the accumulator: its pieces read back. -/
def sout2_A_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i) (x0 : Vec F S1024x256 .f32) (x1 : Vec F S1024x256 .f32) : Vec F S256x256 .f32 :=
  VS2_0.read (Elt F) (VS2_0.writes (Elt F) VS2_0.junk (kernelRun2_A c i arg3 harg3 arg4 harg4 arg5 harg5 arg6 harg6 hc0 hc1 x0 x1).2.1)

/-- A middle block's pieces for the accumulator cover it. -/
theorem scover2_B_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i) (x0 : Vec F S1024x256 .f32) (x1 : Vec F S1024x256 .f32) (xs0 : Vec F S256x256 .f32) (y : S256x256.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S256x256.size (by sl_kernel_rfl) y
/-- What a middle block leaves in the accumulator. -/
def sout2_B_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i) (x0 : Vec F S1024x256 .f32) (x1 : Vec F S1024x256 .f32) (xs0 : Vec F S256x256 .f32) : Vec F S256x256 .f32 :=
  VS2_0.read (Elt F) (VS2_0.writes (Elt F) VS2_0.junk (kernelRun2_B c i arg3 harg3 arg4 harg4 arg5 harg5 arg6 harg6 hc0 hc1 x0 x1 xs0).2.1)

/-- A last block's pieces for the output block cover it. -/
theorem cover2_C_2 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) (y : S256x256.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S256x256.size (by sl_kernel_rfl) y
/-- What a last block leaves in the output's staging buffer. -/
def out2_C_2 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) : Vec F S256x256 .f32 :=
  VO2_2.read (Elt F) (VO2_2.writes (Elt F) VO2_2.junk (kernelRun2_C c i arg3 harg3 arg4 harg4 arg5 harg5 arg6 harg6 hc0 hc1 x0 x1 xs0).1)
/-- A last block's pieces for the accumulator cover it. -/
theorem scover2_C_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) (y : S256x256.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S256x256.size (by sl_kernel_rfl) y
/-- What a last block leaves in the accumulator. -/
def sout2_C_0 (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 : Vec F S1024x256 .f32) (x1 : Vec F S1024x256 .f32) (xs0 : Vec F S256x256 .f32) : Vec F S256x256 .f32 :=
  VS2_0.read (Elt F) (VS2_0.writes (Elt F) VS2_0.junk (kernelRun2_C c i arg3 harg3 arg4 harg4 arg5 harg5 arg6 harg6 hc0 hc1 x0 x1 xs0).2.1)

/-! ## What the output block and the accumulator hold after each point -/

/-- The accumulation: after the body at position `n`, the pair (output staging buffer, accumulator). A point whose
    innermost coordinate is 0 starts afresh from the point's two input blocks; every other point continues from what
    the point before left in the accumulator; the output buffer is written at the points whose innermost coordinate
    is 7 only (elsewhere a placeholder nothing reads). -/
def outsAt2 (c : Dev nD) : (n : ℕ) → n < cfg2.N → Vec F S256x256 .f32 × Vec F S256x256 .f32
  | 0, hn => (idleOut2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      (idleOut2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => (by have := (hcond2_1 ⟨n + 1, hn⟩).mp h; (try dsimp only at this); omega)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point whose innermost coordinate is 0. -/
theorem outsAt2_A (c : Dev nD) (t : Fin cfg2.N) (h0 : t.val % 8 = 0) (h1 : ¬t.val % 8 = 7) :
    outsAt2 V c t.val t.isLt = (idleOut2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans rfl

/-- `outsAt2` at a point whose innermost coordinate is strictly between 0 and 7: over what the point before left. -/
theorem outsAt2_B (c : Dev nD) (t : Fin cfg2.N) (h0 : ¬t.val % 8 = 0) (h1 : ¬t.val % 8 = 7) :
    outsAt2 V c t.val t.isLt = (idleOut2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt2` at a point whose innermost coordinate is 7: over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- The region invariant before position `n`: before the first point what the launch hands the region; afterwards
    the accumulator at what the point before left in it, the remaining scoped buffers, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-- At every position the invariant gives the accumulator at SOME contents beside the rest: the named contents forgotten. -/
theorem PhiS2_weak (c : Dev nD) (n : ℕ) (h : n ≤ cfg2.N) :
    PhiS2 V c n h ⊢ iprop(iprop(iprop((∃ d, owns (c : Thread nD τ) scM2_0 fullShare d)) ∗ restBut2 (F := F) c) ∗ (∃ r, prngReg c r)) := by
  cases n with
  | zero => rw [show PhiS2 V c 0 h = Pipeline.ΦA spec2 c from rfl, PhiA2_eq]
  | succ n =>
    rw [PhiS2_succ]
    iintro ⟨⟨HS0, HR⟩, Hg⟩
    isplitl [HS0 HR]
    · isplitl [HS0]
      · iexists _; iexact HS0
      iexact HR
    iexact Hg

/-! ## The pipeline's proof data -/

/-- The proof data of the pipeline on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at a point whose innermost coordinate is 0: the invariant, whatever it says of the accumulator, hands it
    over at some contents; the run of the first case applies; the accumulator comes back at this point's contents. -/
theorem sound_body2_A (c : Dev nD) (t : Fin cfg2.N) (h0 : t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have h1 : ¬t.val % 8 = 7 := by omega
  rw [Dat.leavesExact_idle (dat2 V c) 2 t (idleAt2_2 t (fun h => h1 ((hcond2_1 t).mp h))) (noFlush2_2 t (fun h => h1 ((hcond2_1 t).mp h)))]
  rw [outsAt2_A V c t h0 h1]
  unfold sout2_A_0; (try dsimp only)
  rw [PhiS2_castSucc V c t]
  refine (BIClass.sep_mono (PhiS2_weak V c _ _) (Idealize.SL.BI.Entails.refl _)).trans ?_
  iintro ⟨⟨⟨HS0, HR⟩, Hg⟩, Ho, ⟨%d0, H0⟩, ⟨%d1, H1⟩, ⟨%d2, H2⟩⟩
  iapply ((kernelRun2_A c (grid2.coords t) _ _ _ _ _ _ _ _ ((hcond2_0 t).mpr h0) (fun h => h1 ((hcond2_1 t).mp h)) (iblk2 V c 0 t) (iblk2 V c 1 t)).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_A_0 c _ _ _ _ _ _ _ _ _ _ _ _ _)
      iexact HR
    iexact Hg
  isplitl [Ho]; · iexact Ho
  isplitl [H0]; · iexact H0
  isplitl [H1]; · iexact H1
  iexists _; iexact H2

set_option maxHeartbeats 4000000 in
/-- The body at a point whose innermost coordinate is strictly between 0 and 7: the invariant hands over the
    accumulator at what the point before left; the run of the middle case applies. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hz : t.val ≠ 0 := fun e => h0 (by rw [e])
  rw [Dat.leavesExact_idle (dat2 V c) 2 t (idleAt2_2 t (fun h => h1 ((hcond2_1 t).mp h))) (noFlush2_2 t (fun h => h1 ((hcond2_1 t).mp h)))]
  rw [outsAt2_B V c t h0 h1]
  unfold sout2_B_0; (try dsimp only)
  rw [PhiS2_castSucc V c t, PhiS2_pos V c _ _ hz]
  iintro ⟨⟨⟨HS0, HR⟩, Hg⟩, Ho, ⟨%d0, H0⟩, ⟨%d1, H1⟩, ⟨%d2, H2⟩⟩
  iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
  isplitl [H0]; · iexact H0
  isplitl [H1]; · iexact H1
  isplitl [H2]; · iexact H2
  isplitl [HS0]; · iexact HS0
  iintro ⟨H0, H1, H2, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_B_0 c _ _ _ _ _ _ _ _ _ _ _ _ _ _)
      iexact HR
    iexact Hg
  isplitl [Ho]; · iexact Ho
  isplitl [H0]; · iexact H0
  isplitl [H1]; · iexact H1
  iexists _; iexact H2

set_option maxHeartbeats 4000000 in
/-- The body at a point whose innermost coordinate is 7: as at a middle point, and the output's staging buffer,
    handed over at anything, comes back at the case's contents. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hz : t.val ≠ 0 := fun e => h0 (by rw [e])
  rw [show (dat2 V c).leavesExact 2 t = owns (c : Thread nD τ) (ms2_2 t) fullShare ((dat2 V c).after 2 t) from by
    unfold Dat.leavesExact; rw [liveAt2_2 t ((hcond2_1 t).mpr h1)], after2_2]
  rw [outsAt2_C V c t h0 h1]
  unfold out2_C_2 sout2_C_0; (try dsimp only)
  rw [PhiS2_castSucc V c t, PhiS2_pos V c _ _ hz]
  iintro ⟨⟨⟨HS0, HR⟩, Hg⟩, Ho, ⟨%d0, H0⟩, ⟨%d1, H1⟩, ⟨%d2, H2⟩⟩
  iapply ((kernelRun2_C c (grid2.coords t) _ _ _ _ _ _ _ _ (fun h => h0 ((hcond2_0 t).mp h)) ((hcond2_1 t).mpr h1) (iblk2 V c 0 t) (iblk2 V c 1 t) _).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover2_C_0 c _ _ _ _ _ _ _ _ _ _ _ _ _ _)
      iexact HR
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_C_2 c _ _ _ _ _ _ _ _ _ _ _ _ _ _)

/-- The library's body obligation, at every point: by the innermost coordinate. -/
theorem body_obligation2 (c : Dev nD) : BodyObligation (dat2 (F := F) V c) (defs₀ (F := F)) Variants.none () Set.univ := fun t => by
  rw [bigSep_W2, bigSep_W2]
  by_cases h0 : t.val % 8 = 0
  · exact sound_body2_A V c t h0
  · by_cases h1 : t.val % 8 = 7
    · exact sound_body2_C V c t h0 h1
    · exact sound_body2_B V c t h0 h1

/-- What the launch hands the region is the invariant before the first point. -/
theorem hin2 (c : Dev nD) : (Pipeline.ΦA spec2 c : sProp 𝕄) ⊢ (dat2 V c).Φ 0 := Idealize.SL.BI.Entails.refl _

/-- After the last point the invariant gives back what the launch handed: the accumulator's contents are forgotten. -/
theorem hout2 (c : Dev nD) : (dat2 V c).Φ (Fin.last cfg2.N) ⊢ (Pipeline.ΦA spec2 c : sProp 𝕄) := by
  rw [PhiA2_eq, show (dat2 V c).Φ (Fin.last cfg2.N) = PhiS2 V c (Fin.last cfg2.N).val (Nat.le_of_lt_succ (Fin.last cfg2.N).isLt) from rfl]
  exact PhiS2_weak V c _ _

end Cert.KernelIdeal.Hand

end
-- ==== Proof.Ideal.R3Frame.lean ====
/-
  The row-softmax region of the kernel (the fourth of its five calls): the frame part.  The region's grid has 8
  points; at each the body loads its block of 256 whole rows of the 2048 × 2048 score matrix, takes the row
  softmax of every row of the block, and stores the result over the whole output block.  There is no scratch
  memory and nothing is carried between points, so the invariant is the same at every point and the proof
  data record, per point, only what the body leaves in the two windows' buffers.
-/
import proofs.«169802_j68702296867381_2_alg».proof.Proof.Gen.KernelIdeal.Launch
import proofs.«169802_j68702296867381_2_alg».proof.Proof.Gen.KernelIdeal.Skeleton
import proofs.«169802_j68702296867381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The row-softmax region: one straight-line body per grid point, no carried state

Each of the 8 grid points loads its block of 256 whole rows, computes the row softmax of every row in it
and stores the result over the whole output block.  Nothing is carried from point to point, so the invariant
is the same at every point. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body touches: the whole 256 × 2048 block. -/
abbrev r3_0 : Rect S256x2048 := Rect.unit (s := S256x2048) ![0, 0] S256x2048.size inb_S256x2048_S256x2048_0_0

/-- The output buffer after the body: the single store of the row softmax of the loaded block. -/
def out3_1 (x0 : Vec F S256x2048 .f32) : Vec F S256x2048 .bf16 :=
  View.canon [⟨r3_0, k3_pay1 (View.ld x0 r3_0)⟩]

/-- The single store is over the whole block, so it covers it. -/
theorem cover3_1 (p0 : Vec F S256x2048 .bf16) (y : S256x2048.Idx) :
    ∃ pc ∈ ([⟨r3_0, p0⟩] : List (View.Piece (Elt F) S256x2048 .bf16)), y ∈ pc.1.set :=
  View.cover_of_tiled [⟨r3_0, p0⟩] S256x2048.size (by rfl) y

set_option maxHeartbeats 1000000 in
/-- The body on whole buffers, the input's at contents `x0` and the output's at anything, leaves the input as it
    was and the output at `out3_1 x0`. -/
theorem sound_kernel3 (c : Dev nD) (E : Set ℕ) (i : grid3.Coords) (arg0 : Memref sig .tc .vmem S256x2048 .f32) (harg0 : arg0.IsWhole) (arg1 : Memref sig .tc .vmem S256x2048 .bf16) (harg1 : arg1.IsWhole)
    (x0 : Vec F S256x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__softmax_kernel i arg0 harg0 arg1 harg1) K := by
  simp only [cc3__softmax_kernel_eq_skeleton]; unfold cc3__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-! ## The proof data -/

/-- The proof data on core `c`: the arrays as the region finds them; after the body at point `t` the input's
    buffer holds its block and the output's the row softmax of it; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so `sound_kernel3` applies; the invariant and what is
    owed pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

/-- The invariant at the first point is the one the region is entered with, -/
theorem hin3 (c : Dev nD) : (Pipeline.ΦA spec3 c : sProp 𝕄) ⊢ (dat3 V c).Φ 0 := Idealize.SL.BI.Entails.refl _

/-- and after the last point the one it is left with. -/
theorem hout3 (c : Dev nD) : (dat3 V c).Φ (Fin.last cfg3.N) ⊢ (Pipeline.ΦA spec3 c : sProp 𝕄) := Idealize.SL.BI.Entails.refl _

end Cert.KernelIdeal.Hand

end
-- ==== Proof.Ideal.R4Shared.lean ====
/-
  Region 4 (the product of the value rows with the normalised scores, contracted in four blocks of 512):
  what its three cases share.  The blocks of the windows read off the arrays as the region finds them; the
  two branch conditions of the body in closed form over the grid (the first holds where the contraction
  block is the first, the second where it is the last); where the output window is idle; the staging and
  scratch memrefs; and the region invariant with the accumulator split off the scoped rest.
-/
import proofs.«169802_j68702296867381_2_alg».proof.Proof.Gen.KernelIdeal.Launch
import proofs.«169802_j68702296867381_2_alg».proof.Proof.Gen.KernelIdeal.Skeleton
import proofs.«169802_j68702296867381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffer of the left operand holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The staging buffer of the right operand holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition: the contraction block is the first. -/
abbrev cond4_0 (i : grid4.Coords) : Prop := (Scalar.cmpi .ne (Scalar.extui (Scalar.cmpi .eq (BitVec.ofNat 32 (i 2).val) 0#32)) 0#32) = 1#1
/-- It holds exactly at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's condition: the contraction block is the last. -/
abbrev cond4_1 (i : grid4.Coords) : Prop := k4_cond2 i = 1#1
/-- It holds exactly at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The operands are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last contraction block the output window is idle and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- At the last contraction block the output window is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S1024x1024 .f32 := (Memref.whole cc4_stg2_0 : Memref sig .tc .vmem S1024x1024 .f32).view
/-- Each window's current staging memref at point `t`, and its wholeness. -/
abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .f32 := win4_2.stage (cfg4.slots t 2)
abbrev hs4_2 (t : Fin cfg4.N) : (ms4_2 t).IsWhole := hstage4_2 ((cfg4.slots t 2).cast nbuf4_2)
/-- The accumulator: a whole scoped buffer of the kernel's own, carried from point to point. -/
abbrev scM4_0 : Memref sig .tc .vmem S1024x1024 .f32 := Memref.whole cc4_scratch0
abbrev VS4_0 : View sig .tc .vmem S1024x1024 .f32 := scM4_0.view

/-- The region invariant with the accumulator split off as a memref owned at some contents; the other scoped
    buffers stay unopened. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

end Cert.KernelIdeal.Hand

end
-- ==== Proof.Ideal.R4RunA.lean ====
/-
  Region 4, case A: the contraction block is the first.  The accumulator, found at anything, is zeroed and then receives the block product; the output window is left untouched.
  The body's triple on any whole memrefs, with the pieces its stores leave in each buffer as the witness.
-/
import proofs.«169802_j68702296867381_2_alg».proof.Proof.Ideal.R4Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator (last first) at a point with the first contraction
    block, with the proof that on whole memrefs — the operands' at their blocks, the output's at contents
    `xi2` handed back untouched, the accumulator's at anything — the body runs to a continuation holding the
    operands and the output as they were and the accumulator with those pieces written. -/
noncomputable def kernelRun4_A (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R4RunB.lean ====
/-
  Region 4, case B: the contraction block is neither the first nor the last.  The accumulator, found at what the point before left, receives the block product; the output window is left untouched.
  The body's triple on any whole memrefs, with the pieces its stores leave in each buffer as the witness.
-/
import proofs.«169802_j68702296867381_2_alg».proof.Proof.Ideal.R4Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator (last first) at a point whose contraction block is
    neither the first nor the last, with the proof that on whole memrefs — the operands' at their blocks, the
    output's at contents `xi2` handed back untouched, the accumulator's at `xs0` — the body runs to a
    continuation holding the operands and the output as they were and the accumulator with those pieces written. -/
noncomputable def kernelRun4_B (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, fun xi2 E K => ?run⟩
  case run =>
    simp only [cc4__matmul_kernel_eq_skeleton]; unfold cc4__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R4RunC.lean ====
/-
  Region 4, case C: the contraction block is the last.  The accumulator, found at what the point before left, receives the block product and is then copied into the output window.
  The body's triple on any whole memrefs, with the pieces its stores leave in each buffer as the witness.
-/
import proofs.«169802_j68702296867381_2_alg».proof.Proof.Ideal.R4Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref and in the accumulator (last first) at a
    point with the last contraction block, with the proof that on whole memrefs — the operands' at their
    blocks, the output's at anything, the accumulator's at `xs0` — the body runs to a continuation holding the
    operands as they were and the output and the accumulator with those pieces written. -/
noncomputable def kernelRun4_C (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.Ideal.R4Frame.lean ====
/-
  Region 4 (out = v · k_q_hat, contracted in four blocks of 512; grid 8 × 2 × 4, the contraction block
  innermost): the frame part.  What the accumulator and the output's staging buffer hold after each point, by
  recursion on the point; the region invariant (before the first point the class's, afterwards the accumulator
  at what the point before left, the other scoped buffers unopened, the generator register at some state);
  the proof data; the body obligation by cases on the contraction block; and the invariant's two ends.
-/
import proofs.«169802_j68702296867381_2_alg».proof.Proof.Ideal.R4RunA
import proofs.«169802_j68702296867381_2_alg».proof.Proof.Ideal.R4RunB
import proofs.«169802_j68702296867381_2_alg».proof.Proof.Ideal.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces cover the accumulator. -/
theorem scover4_A_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) (y : S1024x1024.Idx) :
    ∃ pc ∈ (kernelRun4_A c i arg3 harg3 arg4 harg4 arg5 harg5 arg6 harg6 hc0 hc1 x0 x1).1, y ∈ pc.1.set :=
  View.cover_of_tiledL (kernelRun4_A c i arg3 harg3 arg4 harg4 arg5 harg5 arg6 harg6 hc0 hc1 x0 x1).1 S1024x1024.size (by sl_kernel_rfl) y

/-- What case A leaves in the accumulator: its pieces read back. -/
def sout4_A_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) : Vec F S1024x1024 .f32 :=
  VS4_0.read (Elt F) (VS4_0.writes (Elt F) VS4_0.junk (kernelRun4_A c i arg3 harg3 arg4 harg4 arg5 harg5 arg6 harg6 hc0 hc1 x0 x1).1)

/-- Case B's pieces cover the accumulator. -/
theorem scover4_B_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) (y : S1024x1024.Idx) :
    ∃ pc ∈ (kernelRun4_B c i arg3 harg3 arg4 harg4 arg5 harg5 arg6 harg6 hc0 hc1 x0 x1 xs0).1, y ∈ pc.1.set :=
  View.cover_of_tiledL (kernelRun4_B c i arg3 harg3 arg4 harg4 arg5 harg5 arg6 harg6 hc0 hc1 x0 x1 xs0).1 S1024x1024.size (by sl_kernel_rfl) y

/-- What case B leaves in the accumulator: its pieces read back. -/
def sout4_B_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) : Vec F S1024x1024 .f32 :=
  VS4_0.read (Elt F) (VS4_0.writes (Elt F) VS4_0.junk (kernelRun4_B c i arg3 harg3 arg4 harg4 arg5 harg5 arg6 harg6 hc0 hc1 x0 x1 xs0).1)

/-- Case C's pieces cover the output's block. -/
theorem cover4_C_2 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) (y : S1024x1024.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x1024.size (by sl_kernel_rfl) y

/-- What case C leaves in the output's staging buffer: its pieces read back. -/
def out4_C_2 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) : Vec F S1024x1024 .f32 :=
  VO4_2.read (Elt F) (VO4_2.writes (Elt F) VO4_2.junk (kernelRun4_C c i arg3 harg3 arg4 harg4 arg5 harg5 arg6 harg6 hc0 hc1 x0 x1 xs0).1)

/-- Case C's pieces cover the accumulator. -/
theorem scover4_C_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) (y : S1024x1024.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x1024.size (by sl_kernel_rfl) y

/-- What case C leaves in the accumulator: its pieces read back. -/
def sout4_C_0 (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) : Vec F S1024x1024 .f32 :=
  VS4_0.read (Elt F) (VS4_0.writes (Elt F) VS4_0.junk (kernelRun4_C c i arg3 harg3 arg4 harg4 arg5 harg5 arg6 harg6 hc0 hc1 x0 x1 xs0).2.1)

/-- What the output's staging buffer is said to hold after a point that stores nothing into it: a placeholder
    nothing consults (the window is idle there and not written back). -/
def idleOut4 : Vec F S1024x1024 .f32 := VO4_2.read (Elt F) VO4_2.junk

/-! ## The closed forms as hypotheses of the cases -/

theorem hA4_0 (t : Fin cfg4.N) (h0 : t.val % 4 = 0) : cond4_0 (grid4.coords t) := (hcond4_0 t).mpr h0
theorem hA4_1 (t : Fin cfg4.N) (h0 : t.val % 4 = 0) : ¬cond4_1 (grid4.coords t) := fun h => by
  have := (hcond4_1 t).mp h; omega
theorem hB4_0 (t : Fin cfg4.N) (h0 : ¬t.val % 4 = 0) : ¬cond4_0 (grid4.coords t) := fun h => h0 ((hcond4_0 t).mp h)
theorem hB4_1 (t : Fin cfg4.N) (h3 : ¬t.val % 4 = 3) : ¬cond4_1 (grid4.coords t) := fun h => h3 ((hcond4_1 t).mp h)
theorem hC4_1 (t : Fin cfg4.N) (h3 : t.val % 4 = 3) : cond4_1 (grid4.coords t) := (hcond4_1 t).mpr h3

/-! ## What the buffers hold after each point -/

/-- THE ACCUMULATION.  After the body at position `n`: (the output's staging buffer, the accumulator).  Where the
    contraction block is the first, case A on the point's blocks; elsewhere case B or C on the point's blocks and
    the accumulator the point before left. -/
def outsAt4 (c : Dev nD) : (n : ℕ) → n < cfg4.N → Vec F S1024x1024 .f32 × Vec F S1024x1024 .f32
  | 0, hn => (idleOut4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) (hA4_0 ⟨0, hn⟩ (Nat.zero_mod _)) (hA4_1 ⟨0, hn⟩ (Nat.zero_mod _)) (iblk4 V c 0 ⟨0, hn⟩) (iblk4 V c 1 ⟨0, hn⟩))
  | n + 1, hn =>
    if h0 : (n + 1) % 4 = 0 then
      (idleOut4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hA4_0 ⟨n + 1, hn⟩ h0) (hA4_1 ⟨n + 1, hn⟩ h0) (iblk4 V c 0 ⟨n + 1, hn⟩) (iblk4 V c 1 ⟨n + 1, hn⟩))
    else
      if h3 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hC4_1 ⟨n + 1, hn⟩ h3) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hC4_1 ⟨n + 1, hn⟩ h3) (iblk4 V c 0 ⟨n + 1, hn⟩) (iblk4 V c 1 ⟨n + 1, hn⟩) (outsAt4 c n (Nat.lt_of_succ_lt hn)).2)
      else
        (idleOut4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (hB4_0 ⟨n + 1, hn⟩ h0) (hB4_1 ⟨n + 1, hn⟩ h3) (iblk4 V c 0 ⟨n + 1, hn⟩) (iblk4 V c 1 ⟨n + 1, hn⟩) (outsAt4 c n (Nat.lt_of_succ_lt hn)).2)

/-- `outsAt4` at a point of case A. -/
theorem outsAt4_A (c : Dev nD) (t : Fin cfg4.N) (h0 : t.val % 4 = 0) :
    outsAt4 V c t.val t.isLt = (idleOut4, sout4_A_0 c (grid4.coords t) (ms4_0 t) (hs4_0 t) (ms4_1 t) (hs4_1 t) (ms4_2 t) (hs4_2 t) scM4_0 (Memref.isWhole_whole _) (hA4_0 t h0) (hA4_1 t h0) (iblk4 V c 0 t) (iblk4 V c 1 t)) := by
  obtain ⟨n, hn⟩ := t
  cases n with
  | zero => exact rfl
  | succ n => exact (dif_pos h0).trans rfl

/-- `outsAt4` at a point of case B: over what the point before left. -/
theorem outsAt4_B (c : Dev nD) (t : Fin cfg4.N) (h0 : ¬t.val % 4 = 0) (h3 : ¬t.val % 4 = 3) :
    outsAt4 V c t.val t.isLt = (idleOut4, sout4_B_0 c (grid4.coords t) (ms4_0 t) (hs4_0 t) (ms4_1 t) (hs4_1 t) (ms4_2 t) (hs4_2 t) scM4_0 (Memref.isWhole_whole _) (hB4_0 t h0) (hB4_1 t h3) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans rfl)

/-- `outsAt4` at a point of case C: over what the point before left. -/
theorem outsAt4_C (c : Dev nD) (t : Fin cfg4.N) (h0 : ¬t.val % 4 = 0) (h3 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans rfl)

/-! ## The region invariant -/

/-- Before position `n`: before the first point the class's invariant (every scoped buffer that is no staging
    buffer at anything, the generator register at some state); afterwards the accumulator at what the point before
    left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The proof data -/

/-- The proof data of the region on core `c`: the arrays as the region finds them; after the body at point `t`
    each operand's buffer at its block and the output's at `outsAt4`'s first component; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The operands' memrefs hold their blocks; the contraction block says which case the
    point is in.  The invariant hands the body the accumulator — at anything before the first point, at what the
    point before left afterwards (forgotten where the body zeroes it first) — and takes it back at this point's
    contents; the output's buffer comes back untouched where the window is idle, covered by the store where it is
    live; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 4 = 0
  · rw [Dat.leavesExact_idle (dat4 V c) 2 t (idleAt4_2 t (hA4_1 t h0)) (noFlush4_2 t (hA4_1 t h0))]
    rw [outsAt4_A V c t h0]
    unfold sout4_A_0; (try dsimp only)
    by_cases hz : t.val = 0
    · rw [PhiS4_castSucc V c t, PhiS4_zero V c _ _ hz, PhiA4_eq]
      iintro ⟨⟨⟨HS0, Hr⟩, Hg⟩, Ho, ⟨%d0, H0⟩, ⟨%d1, H1⟩, ⟨%d2, H2⟩⟩
      iapply ((kernelRun4_A c (grid4.coords t) _ _ _ _ _ _ _ _ (hA4_0 t h0) (hA4_1 t h0) (iblk4 V c 0 t) (iblk4 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _)
          iexact Hr
        iexact Hg
      isplitl [Ho]; · iexact Ho
      isplitl [H0]; · iexact H0
      isplitl [H1]; · iexact H1
      iexists _; iexact H2
    · rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_A c (grid4.coords t) _ _ _ _ _ _ _ _ (hA4_0 t h0) (hA4_1 t h0) (iblk4 V c 0 t) (iblk4 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_A_0 c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat4 V c).leavesExact 2 t = owns (c : Thread nD τ) (ms4_2 t) fullShare ((dat4 V c).after 2 t) from by
        unfold Dat.leavesExact; rw [liveAt4_2 t (hC4_1 t h3)], after4_2]
      rw [outsAt4_C V c t h0 h3]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (hB4_0 t h0) (hC4_1 t h3) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (hB4_1 t h3)) (noFlush4_2 t (hB4_1 t h3))]
      rw [outsAt4_B V c t h0 h3]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (hB4_0 t h0) (hB4_1 t h3) (iblk4 V c 0 t) (iblk4 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the class's back: the accumulator's contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 64 := N_4; omega)

end Cert.KernelIdeal.Hand

end
-- ==== Proof.Ideal.Run.lean ====
/-
  The whole program is five kernel regions in a row, with no host operation between them.  This module
  composes them: the contents of every unscoped buffer at each region boundary (a region changes only the
  arrays of its own windows, which end at what its write-backs leave), each region's proof data stated at
  the contents it is entered from, one segment record per region over the thread state "every unscoped
  buffer at the boundary's contents, the generator register at some state, nothing owed", and the run of
  @main: it terminates without a fault with every unscoped buffer at the last boundary's contents.  From
  that run come the frame (no region's output window is an argument array, so the arguments end as launched)
  and the contents of the result array.
-/
import proofs.«169802_j68702296867381_2_alg».proof.Proof.Ideal.R0Frame
import proofs.«169802_j68702296867381_2_alg».proof.Proof.Ideal.R1Frame
import proofs.«169802_j68702296867381_2_alg».proof.Proof.Ideal.R2Frame
import proofs.«169802_j68702296867381_2_alg».proof.Proof.Ideal.R3Frame
import proofs.«169802_j68702296867381_2_alg».proof.Proof.Ideal.R4Frame
import proofs.«169802_j68702296867381_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch. -/
abbrev W0 : Dev nD → Valuation τ sig (Elt F) := fun c b => m ((c : Dev nD), b)
/-- The same read at the TensorCore's references: what region 0 is entered from. -/
abbrev E0 : (c : Dev nD) → (b : Ref sig .tc) → Buf (Elt F) ((c : Thread nD τ).loc b) := fun c b => W0 m c b

/-- After region 0: its windows' arrays at what the pipeline leaves (an input as entered, an output's write-backs folded),
    every other buffer as the region found it. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1: its windows' arrays at what the pipeline leaves (an input as entered, an output's write-backs folded),
    every other buffer as the region found it. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After region 2: its windows' arrays at what the pipeline leaves (an input as entered, an output's write-backs folded),
    every other buffer as the region found it. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-- After region 3: its windows' arrays at what the pipeline leaves (an input as entered, an output's write-backs folded),
    every other buffer as the region found it. -/
def W4 (c : Dev nD) : Valuation τ sig (Elt F) :=
  Pipeline.withArrays spec3 c (W3 m c) fun w => (dat3 (E3 m) c).arrAt w cfg3.N
theorem W4_arr (c : Dev nD) (w : Fin cfg3.W) :
    W4 m c (Proc.devRef .tc (Pipeline.arrRef spec3 w)) = (dat3 (E3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references. -/
abbrev E4 : (c : Dev nD) → (b : Ref sig .tc) → Buf (Elt F) ((c : Thread nD τ).loc b) := fun c b => W4 m c b
theorem hF3 (c : Dev nD) (w : Fin cfg3.W) : (dat3 (E3 m) c).arrAt w cfg3.N = E4 m c (Pipeline.arrRef spec3 w) :=
  (W4_arr m c w).symm
theorem hrest3 (c : Dev nD) : ∀ b, b ∉ Finset.univ.image (Pipeline.arrRef spec3) → E4 m c b = E3 m c b :=
  fun b hb => W4_of_ne m c b fun w e => hb (Finset.mem_image.mpr ⟨w, Finset.mem_univ _, e⟩)

/-- After region 4: its windows' arrays at what the pipeline leaves (an input as entered, an output's write-backs folded),
    every other buffer as the region found it. -/
def W5 (c : Dev nD) : Valuation τ sig (Elt F) :=
  Pipeline.withArrays spec4 c (W4 m c) fun w => (dat4 (E4 m) c).arrAt w cfg4.N
theorem W5_arr (c : Dev nD) (w : Fin cfg4.W) :
    W5 m c (Proc.devRef .tc (Pipeline.arrRef spec4 w)) = (dat4 (E4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
/-- The same read at the TensorCore's references. -/
abbrev E5 : (c : Dev nD) → (b : Ref sig .tc) → Buf (Elt F) ((c : Thread nD τ).loc b) := fun c b => W5 m c b
theorem hF4 (c : Dev nD) (w : Fin cfg4.W) : (dat4 (E4 m) c).arrAt w cfg4.N = E5 m c (Pipeline.arrRef spec4 w) :=
  (W5_arr m c w).symm
theorem hrest4 (c : Dev nD) : ∀ b, b ∉ Finset.univ.image (Pipeline.arrRef spec4) → E5 m c b = E4 m c b :=
  fun b hb => W5_of_ne m c b fun w e => hb (Finset.mem_image.mpr ⟨w, Finset.mem_univ _, e⟩)

/-! ## The proof data family and the thread state -/

/-- No pallas_call has a prefetched table. -/
abbrev adm : (p : Fin 5) → (pcfgs (F := F) p).Adm := fun p => (cfgs p).toPCfg_adm
/-- Every region's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0: entered from every unscoped buffer at `W0`, left at `W1`.  Its windows' arrays are split out of the
    unscoped buffers and put back at their exit contents; the generator register and the scoped buffers go into the region's
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (E0 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (E0 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`.  Its windows' arrays are split out of the
    unscoped buffers and put back at their exit contents; the generator register and the scoped buffers go into the region's
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (E1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (E1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W2`, left at `W3`.  Its windows' arrays are split out of the
    unscoped buffers and put back at their exit contents; the generator register and the scoped buffers go into the region's
    invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (E2 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout2 (E2 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W3`, left at `W4`.  Its windows' arrays are split out of the
    unscoped buffers and put back at their exit contents; the generator register and the scoped buffers go into the region's
    invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin3 (E3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout3 (E3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W4`, left at `W5`.  Its windows' arrays are split out of the
    unscoped buffers and put back at their exit contents; the generator register and the scoped buffers go into the region's
    invariant and come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin4 (E4 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout4 (E4 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (E5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .region (reg0 m), .region (reg1 m), .region (reg2 m), .region (reg3 m), .region (reg4 m) ]
/-- @main is the run of the segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting, and
    every final state holds every unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Ideal.Ends.lean ====
/-
  What the boundaries' contents are at particular buffers.  A region leaves the array of an INPUT window as it
  found it, and every buffer that is no window of it as well; so each argument array, followed back from the last
  boundary through the five regions, is still at its launch contents.  That is the frame claim.
-/
import proofs.«169802_j68702296867381_2_alg».proof.Proof.Ideal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's array passes a region unchanged -/

theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hw _).trans (A_eq0 (E0 m) c w))

theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((dat1 (E1 m) c).arrAt_in w hw _).trans (A_eq1 (E1 m) c w))

theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((dat2 (E2 m) c).arrAt_in w hw _).trans (A_eq2 (E2 m) c w))

theorem W4_in (c : Dev nD) (w : Fin cfg3.W) (hw : (cfg3.win w).isOut = false) :
    W4 m c (Proc.devRef .tc (Pipeline.arrRef spec3 w)) = W3 m c (Proc.devRef .tc (Pipeline.arrRef spec3 w)) :=
  (W4_arr m c w).trans (((dat3 (E3 m) c).arrAt_in w hw _).trans (A_eq3 (E3 m) c w))

theorem W5_in (c : Dev nD) (w : Fin cfg4.W) (hw : (cfg4.win w).isOut = false) :
    W5 m c (Proc.devRef .tc (Pipeline.arrRef spec4 w)) = W4 m c (Proc.devRef .tc (Pipeline.arrRef spec4 w)) :=
  (W5_arr m c w).trans (((dat4 (E4 m) c).arrAt_in w hw _).trans (A_eq4 (E4 m) c w))

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_in m c 0 rfl
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_in m c 1 rfl
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_in m c 1 rfl
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_in m c 2 rfl
    _ = W0 m c (Proc.devRef .tc main_arg3) := W1_of_ne m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 3 rfl
    _ = W0 m c (Proc.devRef .tc main_arg4) := W1_of_ne m c main_arg4 (by decide)
    _ = m ((c : Thread nD τ).loc main_arg4) := rfl

/-! ## The frame -/

/-- From any memory with zero counters every weakly fair execution of @main terminates, nothing faulting, and the five
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

end Cert.KernelIdeal.Hand

end
-- ==== Proof.Spec.lean ====
/-
  The two whole-array products every stage of this computation is made of, read on the extended reals:
  a matrix product contracted over the inner axis, and the product of a transposed matrix with a matrix
  (contracted over the rows of both).  Both are plain finite sums; no finiteness is assumed.
-/
import Idealize.ShloMosaic.PureOps.Ideal
import Idealize.ShloMosaic.Lib.ValueIdx

noncomputable section

namespace Cert.Spec

open Idealize.ShloMosaic Idealize.ShloMosaic.ValueIdx

/-- The shape of the activations: 8192 rows of 2048 features. -/
abbrev SA : Shape := ⟨2, ![8192, 2048]⟩
/-- The shape of a weight matrix and of the feature-by-feature scores. -/
abbrev SW : Shape := ⟨2, ![2048, 2048]⟩

/-- `(A · B) i j = ∑ k, A i k * B k j`, for `A` of 8192 × 2048 and `B` of 2048 × 2048. -/
def mm (A : SA.Idx → EReal) (B : SW.Idx → EReal) : SA.Idx → EReal :=
  fun i => ∑ k : Fin 2048, A (ix2 (n0 := 8192) (n1 := 2048) (i 0) k) * B (ix2 (n0 := 2048) (n1 := 2048) k (i 1))

/-- `(Kᵀ · Q) a b = ∑ n, K n a * Q n b`, for `K`, `Q` of 8192 × 2048: the 2048 × 2048 matrix of feature scores. -/
def tmm (K Q : SA.Idx → EReal) : SW.Idx → EReal :=
  fun i => ∑ n : Fin 8192, K (ix2 (n0 := 8192) (n1 := 2048) n (i 0)) * Q (ix2 (n0 := 8192) (n1 := 2048) n (i 1))

end Cert.Spec

end
-- ==== Proof.Ideal.Result.lean ====
/-
  The result array of the five-region program, at the exact extended-real reading, as one function of the
  argument arrays.  Each region's output array is a product (or the row softmax) of the arrays the region is entered
  from; following the boundaries back from the last one composes them:
    a = x·w,  q = a·w_q,  k = a·w_k,  v = a·w_v,  s = kᵀ·q,  p = softmax of the rows of s,  out = v·p.
  The five per-region facts are taken as hypotheses here (each holds for ANY entry contents), so that this
  composition does not depend on how they are proved.
-/
import proofs.«169802_j68702296867381_2_alg».proof.Proof.Ideal.Ends
import proofs.«169802_j68702296867381_2_alg».proof.Proof.Spec

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

/-- The entry contents a region's value fact is stated over. -/
abbrev Entry : Type := (c : Dev nD) → (b : Ref sig .tc) → Buf (Elt Ideal) ((c : Thread nD τ).loc b)

variable (m : (ℓ : Loc nD τ sig) → Buf (Elt Ideal) ℓ)

/-- The composition of the five regions' values along the boundaries. -/
theorem result_of (S : (Cert.Spec.SW.Idx → EReal) → Cert.Spec.SW.Idx → EReal)
    (f0 : ∀ (V : Entry) (c : Dev nD), (dat0 (F := Ideal) V c).arrAt 2 cfg0.N = Cert.Spec.mm (V c main_arg0) (V c main_arg1))
    (f14 : ∀ (V : Entry) (c : Dev nD), (dat1 (F := Ideal) V c).arrAt 4 cfg1.N = Cert.Spec.mm (V c main_v0) (V c main_arg2))
    (f15 : ∀ (V : Entry) (c : Dev nD), (dat1 (F := Ideal) V c).arrAt 5 cfg1.N = Cert.Spec.mm (V c main_v0) (V c main_arg3))
    (f16 : ∀ (V : Entry) (c : Dev nD), (dat1 (F := Ideal) V c).arrAt 6 cfg1.N = Cert.Spec.mm (V c main_v0) (V c main_arg4))
    (f2 : ∀ (V : Entry) (c : Dev nD), (dat2 (F := Ideal) V c).arrAt 2 cfg2.N = Cert.Spec.tmm (V c main_v1_1) (V c main_v1_0))
    (f3 : ∀ (V : Entry) (c : Dev nD), (dat3 (F := Ideal) V c).arrAt 1 cfg3.N = S (V c main_v2))
    (f4 : ∀ (V : Entry) (c : Dev nD), (dat4 (F := Ideal) V c).arrAt 2 cfg4.N = Cert.Spec.mm (V c main_v1_2) (V c main_v3))
    (c : Dev nD) :
    W5 (F := Ideal) m c (Proc.devRef .tc main_v4)
      = Cert.Spec.mm
          (Cert.Spec.mm (Cert.Spec.mm (m ((c : Thread nD τ).loc main_arg0)) (m ((c : Thread nD τ).loc main_arg1))) (m ((c : Thread nD τ).loc main_arg4)))
          (S (Cert.Spec.tmm
            (Cert.Spec.mm (Cert.Spec.mm (m ((c : Thread nD τ).loc main_arg0)) (m ((c : Thread nD τ).loc main_arg1))) (m ((c : Thread nD τ).loc main_arg3)))
            (Cert.Spec.mm (Cert.Spec.mm (m ((c : Thread nD τ).loc main_arg0)) (m ((c : Thread nD τ).loc main_arg1))) (m ((c : Thread nD τ).loc main_arg2))))) := by
  -- after region 0: a = x·w; the weights untouched
  have ea : E1 m c main_v0 = Cert.Spec.mm (m ((c : Thread nD τ).loc main_arg0)) (m ((c : Thread nD τ).loc main_arg1)) :=
    (W1_arr m c 2).trans (f0 (E0 m) c)
  have e1q : E1 m c main_arg2 = m ((c : Thread nD τ).loc main_arg2) := W1_of_ne m c main_arg2 (by decide)
  have e1k : E1 m c main_arg3 = m ((c : Thread nD τ).loc main_arg3) := W1_of_ne m c main_arg3 (by decide)
  have e1v : E1 m c main_arg4 = m ((c : Thread nD τ).loc main_arg4) := W1_of_ne m c main_arg4 (by decide)
  -- after region 1: q, k, v
  have eq_ : E2 m c main_v1_0 = Cert.Spec.mm (E1 m c main_v0) (E1 m c main_arg2) := (W2_arr m c 4).trans (f14 (E1 m) c)
  have ek : E2 m c main_v1_1 = Cert.Spec.mm (E1 m c main_v0) (E1 m c main_arg3) := (W2_arr m c 5).trans (f15 (E1 m) c)
  have ev : E2 m c main_v1_2 = Cert.Spec.mm (E1 m c main_v0) (E1 m c main_arg4) := (W2_arr m c 6).trans (f16 (E1 m) c)
  -- after region 2: the scores; v untouched
  have es : E3 m c main_v2 = Cert.Spec.tmm (E2 m c main_v1_1) (E2 m c main_v1_0) := (W3_arr m c 2).trans (f2 (E2 m) c)
  have e3v : E3 m c main_v1_2 = E2 m c main_v1_2 := W3_of_ne m c main_v1_2 (by decide)
  -- after region 3: the softmax; v untouched
  have ep : E4 m c main_v3 = S (E3 m c main_v2) := (W4_arr m c 1).trans (f3 (E3 m) c)
  have e4v : E4 m c main_v1_2 = E3 m c main_v1_2 := W4_of_ne m c main_v1_2 (by decide)
  -- after region 4: the result
  have eo : W5 (F := Ideal) m c (Proc.devRef .tc main_v4) = Cert.Spec.mm (E4 m c main_v1_2) (E4 m c main_v3) :=
    (W5_arr m c 2).trans (f4 (E4 m) c)
  rw [eo, e4v, e3v, ev, ep, es, ek, eq_, ea, e1q, e1k, e1v]

end Cert.KernelIdeal.HandValue

end
-- ==== Proof.LibBlockSum.lean ====
/-
  Regrouping a finite sum over `n * b` consecutive indices into `n` blocks of `b`: the sum over all indices is the
  sum over the blocks of the sums inside each block.  It holds in any commutative additive monoid (in particular on
  the extended reals, with no finiteness assumption), and is how a contraction computed block by block is compared
  with the contraction computed at once.
-/
import Mathlib.Algebra.BigOperators.Fin
import Mathlib.Logic.Equiv.Fin.Basic
import Mathlib.Tactic.Ring

namespace Cert.LibBlockSum

open Finset

/-- The index `j * b + r` of entry `r` of block `j` is below `n * b`. -/
theorem block_index_lt {n b : ℕ} (j : Fin n) (r : Fin b) : j.val * b + r.val < n * b := by
  have hj : j.val + 1 ≤ n := j.isLt
  calc j.val * b + r.val < j.val * b + b := by have := r.isLt; omega
    _ = (j.val + 1) * b := (Nat.succ_mul _ _).symm
    _ ≤ n * b := Nat.mul_le_mul_right b hj

/-- A sum over `Fin (n * b)` is the sum over the `n` blocks of the sums over the `b` entries of each block. -/
theorem sum_fin_blocks {M : Type*} [AddCommMonoid M] (n b : ℕ) (f : Fin (n * b) → M) :
    ∑ k : Fin (n * b), f k = ∑ j : Fin n, ∑ r : Fin b, f ⟨j.val * b + r.val, block_index_lt j r⟩ := by
  rw [← (finProdFinEquiv (m := n) (n := b)).sum_comp f, Fintype.sum_prod_type]
  refine Finset.sum_congr rfl fun j _ => Finset.sum_congr rfl fun r _ => ?_
  congr 1
  apply Fin.ext
  simp only [finProdFinEquiv_apply_val]
  rw [Nat.mul_comm b j.val, Nat.add_comm]

/-- The same with the blocks counted by a range of naturals: the form a running accumulation over the blocks takes. -/
theorem sum_fin_blocks_range {M : Type*} [AddCommMonoid M] (n b : ℕ) (g : ℕ → M) :
    ∑ k : Fin (n * b), g k.val = ∑ j ∈ Finset.range n, ∑ r : Fin b, g (j * b + r.val) := by
  rw [sum_fin_blocks n b (fun k => g k.val), Fin.sum_univ_eq_sum_range (fun j => ∑ r : Fin b, g (j * b + r.val)) n]

end Cert.LibBlockSum
-- ==== Proof.Ideal.R0Value.lean ====
/- Region 0 computes a = inputs · w. The grid point ((i·2 + j)·4 + k) adds the product of block (i, k) of the left
   array and block (k, j) of the right array into a 1024 × 1024 accumulator that is zeroed at k = 0, and at k = 3
   stores the accumulator into block (i, j) of the output. Read on the extended reals every rounding is the
   identity, so after point n the accumulator's entry (p, q) is the sum of the first n mod 4 + 1 blocks of 512
   terms of the product's entry under it (induction over the points), the block stored at k = 3 is the whole
   contraction of 2048 = 4 · 512 terms, and the 16 output blocks tile the array. -/
import proofs.«169802_j68702296867381_2_alg».proof.Proof.Ideal.R0Frame
import proofs.«169802_j68702296867381_2_alg».proof.Proof.Spec
import proofs.«169802_j68702296867381_2_alg».proof.Proof.LibBlockSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.HandValue.R0

open Cert.KernelIdeal Cert.KernelIdeal.Gen Cert.KernelIdeal.Hand

variable {F : FTy → Type} [FloatOps F]

/-! ## What each case's stores leave, as the body's arithmetic -/

theorem hz0 : (![0, 0] : Fin 2 → Nat) = fun _ => 0 := funext fun a => by fin_cases a <;> rfl

/-- At a contraction coordinate 0 the accumulator ends at the block product added onto the zero fill. -/
theorem soutA_eq (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero hz0, View.readCov_unit_zero (S := S1024x1024) _ hz0]
  simp only [View.readAt_eq_ld, harg3.read_unread, harg4.read_unread, View.ld_unit_zero (S := S1024x512) hz0, View.ld_unit_zero (S := S512x1024) hz0]

/-- At a middle contraction coordinate the accumulator ends at the block product added onto what it held. -/
theorem soutB_eq (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  try sl_unfold_words
  rw [View.canon_unit_zero hz0]
  simp only [View.readAt_eq_ld, harg3.read_unread, harg4.read_unread, harg6.read_unread, View.ld_unit_zero (S := S1024x512) hz0, View.ld_unit_zero (S := S512x1024) hz0, View.ld_unit_zero (S := S1024x1024) hz0]

/-- At the last contraction coordinate the accumulator ends the same way, -/
theorem soutC_eq (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  try sl_unfold_words
  rw [View.canon_unit_zero hz0]
  simp only [View.readAt_eq_ld, harg3.read_unread, harg4.read_unread, harg6.read_unread, View.ld_unit_zero (S := S1024x512) hz0, View.ld_unit_zero (S := S512x1024) hz0, View.ld_unit_zero (S := S1024x1024) hz0]

/-- and the output block holds it, converted to the output's format. -/
theorem outC_eq (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero hz0, View.readCov_unit_zero (S := S1024x1024) _ hz0]
  simp only [View.readAt_eq_ld, harg3.read_unread, harg4.read_unread, harg6.read_unread, View.ld_unit_zero (S := S1024x512) hz0, View.ld_unit_zero (S := S512x1024) hz0, View.ld_unit_zero (S := S1024x1024) hz0]

/-! ## The body's arithmetic on the extended reals, at an index -/

theorem lhs0_0 (j : S1024x1024.Idx) (q : dot_S1024x512_S512x1024_S1024x1024_1_0_0_1_n_n.contr.Idx) : (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs0_1 (j : S1024x1024.Idx) (q : dot_S1024x512_S512x1024_S1024x1024_1_0_0_1_n_n.contr.Idx) : (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs0_0 (j : S1024x1024.Idx) (q : dot_S1024x512_S512x1024_S1024x1024_1_0_0_1_n_n.contr.Idx) : (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs0_1 (j : S1024x1024.Idx) (q : dot_S1024x512_S512x1024_S1024x1024_1_0_0_1_n_n.contr.Idx) : (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The zero fill is zero. -/
theorem pay1_apply (j : S1024x1024.Idx) : k0_pay1 (F := Ideal) j = 0 := by
  unfold k0_pay1
  refine (congrFun (shapeCast_self _ _) j).trans ?_
  show Ideal.ofBits .f32 0x00000000#32 = 0
  exact Ideal.ofBits_zero_f32

/-- One accumulation step at entry (p, q): what the accumulator held plus row p of the left block times column q of the right block. -/
theorem pay2_apply (x0 : Vec Ideal S1024x512 .f32) (x1 : Vec Ideal S512x1024 .f32) (xs : Vec Ideal S1024x1024 .f32) (p q : Fin 1024) :
    k0_pay2 (F := Ideal) x0 x1 xs (ix2 p q) = xs (ix2 p q) + ∑ k : Fin 512, x0 (ix2 p k) * x1 (ix2 k q) := by
  unfold k0_pay2
  refine (congrFun (shapeCast_self _ _) (ix2 p q)).trans ?_
  refine congrArg (xs (ix2 p q) + ·) ?_
  refine (Ideal.matmul_constant_zero_apply dot_S1024x512_S512x1024_S1024x1024_1_0_0_1_n_n none _ _ (ix2 p q)).trans ?_
  refine (Equiv.sum_comp (contrEquiv1 dot_S1024x512_S512x1024_S1024x1024_1_0_0_1_n_n 512 rfl rfl).symm _).symm.trans ?_
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs0_0 _ _
    | ⟨1, _⟩ => exact (lhs0_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs0_0 _ _).trans hk
    | ⟨1, _⟩ => exact rhs0_1 _ _)
  show x0 (dot_S1024x512_S512x1024_S1024x1024_1_0_0_1_n_n.lhsIdx (ix2 p q) _) * x1 (dot_S1024x512_S512x1024_S1024x1024_1_0_0_1_n_n.rhsIdx (ix2 p q) _) = _
  rw [el, er]

/-- The conversion to the output's format changes nothing on the extended reals. -/
theorem pay3_apply (v : Vec Ideal S1024x1024 .f32) (j : S1024x1024.Idx) : k0_pay3 (F := Ideal) v j = v j := rfl

/-! ## The blocks as parts of the arrays -/

variable (V : (c : Dev nD) → (b : Ref sig .tc) → Buf (Elt Ideal) ((c : Thread nD τ).loc b))

/-- Where the three windows' blocks sit at point `t` = ((i·2 + j)·4 + k): the left operand's at block (i, k), the
    right operand's at (k, j), the output's at (i, j). -/
theorem idx0_0 : ∀ t : Fin cfg0.N, win0_0.index t (0 : Fin 2) = t.val / 8 ∧ win0_0.index t (1 : Fin 2) = t.val % 4 :=
  (by decide +kernel : ∀ t : Fin grid0.N, win0_0.index t (0 : Fin 2) = t.val / 8 ∧ win0_0.index t (1 : Fin 2) = t.val % 4)
theorem idx0_1 : ∀ t : Fin cfg0.N, win0_1.index t (0 : Fin 2) = t.val % 4 ∧ win0_1.index t (1 : Fin 2) = t.val / 4 % 2 :=
  (by decide +kernel : ∀ t : Fin grid0.N, win0_1.index t (0 : Fin 2) = t.val % 4 ∧ win0_1.index t (1 : Fin 2) = t.val / 4 % 2)
theorem idx0_2 : ∀ t : Fin cfg0.N, win0_2.index t (0 : Fin 2) = t.val / 8 ∧ win0_2.index t (1 : Fin 2) = t.val / 4 % 2 :=
  (by decide +kernel : ∀ t : Fin grid0.N, win0_2.index t (0 : Fin 2) = t.val / 8 ∧ win0_2.index t (1 : Fin 2) = t.val / 4 % 2)

/-- An entry of the left operand's block is the entry of the array at the block's offset. -/
theorem iblk0_0_apply (c : Dev nD) (t : Fin cfg0.N) (x : S1024x512.Idx) (k : S8192x2048.Idx)
    (hk0 : (k 0).val = t.val / 8 * 1024 + (x 0).val) (hk1 : (k 1).val = t.val % 4 * 512 + (x 1).val) :
    (iblk0 V c 0 t : Vec Ideal S1024x512 .f32) x = (V c main_arg0 : S8192x2048.Idx → EReal) k := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 512 + 1 * (x 1).val = (k 1).val; rw [e1, hk1]; omega

/-- An entry of the right operand's block is the entry of the array at the block's offset. -/
theorem iblk0_1_apply (c : Dev nD) (t : Fin cfg0.N) (x : S512x1024.Idx) (k : S2048x2048.Idx)
    (hk0 : (k 0).val = t.val % 4 * 512 + (x 0).val) (hk1 : (k 1).val = t.val / 4 % 2 * 1024 + (x 1).val) :
    (iblk0 V c 1 t : Vec Ideal S512x1024 .f32) x = (V c main_arg1 : S2048x2048.Idx → EReal) k := by
  obtain ⟨e0, e1⟩ := idx0_1 t
  unfold iblk0
  rw [View.read_apply]
  show V c main_arg1 _ = V c main_arg1 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 1024 + 1 * (x 1).val = (k 1).val; rw [e1, hk1]; omega

/-- The two operand blocks at position `n`, at their literal shapes. -/
abbrev blkL0 (c : Dev nD) (n : ℕ) (hn : n < cfg0.N) : Vec Ideal S1024x512 .f32 := iblk0 V c 0 ⟨n, hn⟩
abbrev blkR0 (c : Dev nD) (n : ℕ) (hn : n < cfg0.N) : Vec Ideal S512x1024 .f32 := iblk0 V c 1 ⟨n, hn⟩

/-! ## The contraction, term by term -/

/-- Term `n` of entry (r, s) of the product, with the three indices as naturals (zero outside the ranges). -/
def termN (A : Spec.SA.Idx → EReal) (B : Spec.SW.Idx → EReal) (r s n : ℕ) : EReal :=
  if h : r < 8192 ∧ s < 2048 ∧ n < 2048 then
    A (ix2 (n0 := 8192) (n1 := 2048) ⟨r, h.1⟩ ⟨n, h.2.2⟩) * B (ix2 (n0 := 2048) (n1 := 2048) ⟨n, h.2.2⟩ ⟨s, h.2.1⟩)
  else 0

/-- The whole contraction is the sum over the 4 blocks of 512 terms. -/
theorem mm_eq_blocks (A : Spec.SA.Idx → EReal) (B : Spec.SW.Idx → EReal) (i : Spec.SA.Idx) :
    Spec.mm A B i = ∑ b ∈ Finset.range 4, ∑ k : Fin 512, termN A B (i 0).val (i 1).val (b * 512 + k.val) := by
  unfold Spec.mm
  have e : ∀ k : Fin 2048, A (ix2 (n0 := 8192) (n1 := 2048) (i 0) k) * B (ix2 (n0 := 2048) (n1 := 2048) k (i 1))
      = termN A B (i 0).val (i 1).val k.val := fun k => by
    unfold termN; rw [dif_pos ⟨idx2_lt0 i, idx2_lt1 i, k.isLt⟩]; rfl
  rw [Finset.sum_congr rfl (fun k _ => e k)]
  exact Cert.LibBlockSum.sum_fin_blocks_range 4 512 (termN A B (i 0).val (i 1).val)

/-- The product of the two blocks at point `n`, at entry (p, q): block `n % 4` of the terms of entry
    (⌊n/8⌋·1024 + p, (⌊n/4⌋ mod 2)·1024 + q). -/
theorem blockprod (c : Dev nD) (n : ℕ) (hn : n < cfg0.N) (p q : Fin 1024) :
    ∑ k : Fin 512, blkL0 V c n hn (ix2 p k) * blkR0 V c n hn (ix2 k q)
      = ∑ k : Fin 512, termN (V c main_arg0) (V c main_arg1) (n / 8 * 1024 + p.val) (n / 4 % 2 * 1024 + q.val) (n % 4 * 512 + k.val) := by
  have hN : n < 64 := lt_of_lt_of_eq hn N_0
  refine Finset.sum_congr rfl fun k _ => ?_
  have hr : n / 8 * 1024 + p.val < 8192 := by have := p.isLt; omega
  have hs : n / 4 % 2 * 1024 + q.val < 2048 := by have := q.isLt; omega
  have hk : n % 4 * 512 + k.val < 2048 := by have := k.isLt; omega
  unfold termN
  rw [dif_pos ⟨hr, hs, hk⟩]
  exact congrArg₂ (· * ·)
    (iblk0_0_apply V c ⟨n, hn⟩ (ix2 p k) (ix2 (n0 := 8192) (n1 := 2048) ⟨_, hr⟩ ⟨_, hk⟩) rfl rfl)
    (iblk0_1_apply V c ⟨n, hn⟩ (ix2 k q) (ix2 (n0 := 2048) (n1 := 2048) ⟨_, hk⟩ ⟨_, hs⟩) rfl rfl)

/-! ## The cases at an entry -/

theorem stepA0_apply (c : Dev nD) (n : ℕ) (hn : n < cfg0.N) (h0 : n % 4 = 0) (p q : Fin 1024) :
    stepA0 V c ⟨n, hn⟩ h0 (ix2 p q) = ∑ k : Fin 512, blkL0 V c n hn (ix2 p k) * blkR0 V c n hn (ix2 k q) := by
  unfold stepA0
  refine (congrFun (soutA_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (hA0_1 ⟨n, hn⟩ h0) (blkL0 V c n hn) (blkR0 V c n hn)) (ix2 p q)).trans ?_
  refine (pay2_apply (blkL0 V c n hn) (blkR0 V c n hn) (k0_pay1 (F := Ideal)) p q).trans ?_
  rw [pay1_apply, zero_add]

theorem stepB0_apply (c : Dev nD) (n : ℕ) (hn : n < cfg0.N) (h0 : ¬n % 4 = 0) (h1 : ¬n % 4 = 3) (xs : Vec Ideal S1024x1024 .f32) (p q : Fin 1024) :
    stepB0 V c ⟨n, hn⟩ h0 h1 xs (ix2 p q) = xs (ix2 p q) + ∑ k : Fin 512, blkL0 V c n hn (ix2 p k) * blkR0 V c n hn (ix2 k q) := by
  unfold stepB0
  refine (congrFun (soutB_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (hN0_0 ⟨n, hn⟩ h0) (hN0_1 ⟨n, hn⟩ h1) (blkL0 V c n hn) (blkR0 V c n hn) xs) (ix2 p q)).trans ?_
  exact pay2_apply (blkL0 V c n hn) (blkR0 V c n hn) xs p q

theorem stepC0_apply (c : Dev nD) (n : ℕ) (hn : n < cfg0.N) (h0 : ¬n % 4 = 0) (h1 : n % 4 = 3) (xs : Vec Ideal S1024x1024 .f32) (p q : Fin 1024) :
    stepC0 V c ⟨n, hn⟩ h0 h1 xs (ix2 p q) = xs (ix2 p q) + ∑ k : Fin 512, blkL0 V c n hn (ix2 p k) * blkR0 V c n hn (ix2 k q) := by
  unfold stepC0
  refine (congrFun (soutC_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (hN0_0 ⟨n, hn⟩ h0) ((hcond0_1 ⟨n, hn⟩).mpr h1) (blkL0 V c n hn) (blkR0 V c n hn) xs) (ix2 p q)).trans ?_
  exact pay2_apply (blkL0 V c n hn) (blkR0 V c n hn) xs p q

theorem outC0_apply (c : Dev nD) (n : ℕ) (hn : n < cfg0.N) (h0 : ¬n % 4 = 0) (h1 : n % 4 = 3) (xs : Vec Ideal S1024x1024 .f32) (p q : Fin 1024) :
    outC0 V c ⟨n, hn⟩ h0 h1 xs (ix2 p q) = xs (ix2 p q) + ∑ k : Fin 512, blkL0 V c n hn (ix2 p k) * blkR0 V c n hn (ix2 k q) := by
  unfold outC0
  refine (congrFun (outC_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (hN0_0 ⟨n, hn⟩ h0) ((hcond0_1 ⟨n, hn⟩).mpr h1) (blkL0 V c n hn) (blkR0 V c n hn) xs) (ix2 p q)).trans ?_
  refine (pay3_apply (k0_pay2 (F := Ideal) (blkL0 V c n hn) (blkR0 V c n hn) xs) (ix2 p q)).trans ?_
  exact pay2_apply (blkL0 V c n hn) (blkR0 V c n hn) xs p q

/-! ## The accumulator after each point -/

/-- After point `n` the accumulator's entry (p, q) is the sum of the first `n % 4 + 1` blocks of terms of the product's
    entry (⌊n/8⌋·1024 + p, (⌊n/4⌋ mod 2)·1024 + q). -/
theorem acc0_eq (c : Dev nD) : ∀ (n : ℕ) (hn : n < cfg0.N) (p q : Fin 1024),
    acc0 V c n hn (ix2 p q) = ∑ b ∈ Finset.range (n % 4 + 1), ∑ k : Fin 512,
      termN (V c main_arg0) (V c main_arg1) (n / 8 * 1024 + p.val) (n / 4 % 2 * 1024 + q.val) (b * 512 + k.val)
  | 0, hn, p, q => by
    refine (congrFun (acc0_A V c ⟨0, hn⟩ (Nat.zero_mod _)) (ix2 p q)).trans ?_
    refine (stepA0_apply V c 0 hn (Nat.zero_mod _) p q).trans ?_
    rw [blockprod V c 0 hn p q]
    simp only [Nat.zero_mod, Nat.zero_add, Finset.sum_range_one]
  | n + 1, hn, p, q => by
    have hN : n + 1 < 64 := lt_of_lt_of_eq hn N_0
    by_cases h0 : (n + 1) % 4 = 0
    · refine (congrFun (acc0_A V c ⟨n + 1, hn⟩ h0) (ix2 p q)).trans ?_
      refine (stepA0_apply V c (n + 1) hn h0 p q).trans ?_
      rw [blockprod V c (n + 1) hn p q, h0]
      simp only [Nat.zero_add, Finset.sum_range_one]
    · have ih := acc0_eq c n (Nat.lt_of_succ_lt hn) p q
      have e8 : (n + 1) / 8 = n / 8 := by omega
      have e4 : (n + 1) / 4 % 2 = n / 4 % 2 := by omega
      have em : (n + 1) % 4 = n % 4 + 1 := by omega
      by_cases h1 : (n + 1) % 4 = 3
      · refine (congrFun (acc0_C V c ⟨n + 1, hn⟩ h0 h1) (ix2 p q)).trans ?_
        refine (stepC0_apply V c (n + 1) hn h0 h1 _ p q).trans ?_
        rw [blockprod V c (n + 1) hn p q]
        show acc0 V c n (Nat.lt_of_succ_lt hn) (ix2 p q) + _ = _
        rw [ih, e8, e4, em]
        exact (Finset.sum_range_succ _ _).symm
      · refine (congrFun (acc0_B V c ⟨n + 1, hn⟩ h0 h1) (ix2 p q)).trans ?_
        refine (stepB0_apply V c (n + 1) hn h0 h1 _ p q).trans ?_
        rw [blockprod V c (n + 1) hn p q]
        show acc0 V c n (Nat.lt_of_succ_lt hn) (ix2 p q) + _ = _
        rw [ih, e8, e4, em]
        exact (Finset.sum_range_succ _ _).symm

/-! ## The output array -/

/-- What the last contraction step stores into the output block, at entry `j`: the whole contraction at the array's
    entry under it. -/
theorem outAt0_eq_mm (c : Dev nD) (t : Fin cfg0.N) (h0 : ¬t.val % 4 = 0) (h1 : t.val % 4 = 3) (j : S1024x1024.Idx) (i : Spec.SA.Idx)
    (hi0 : (i 0).val = t.val / 8 * 1024 + (j 0).val) (hi1 : (i 1).val = t.val / 4 % 2 * 1024 + (j 1).val) :
    outAt0 V c t j = Spec.mm (V c main_arg0) (V c main_arg1) i := by
  obtain ⟨n, hn⟩ := t
  obtain ⟨p, q, rfl⟩ : ∃ p q : Fin 1024, j = ix2 p q := ⟨j 0, j 1, eq_ix2 j⟩
  have hi0' : (i 0).val = n / 8 * 1024 + p.val := hi0
  have hi1' : (i 1).val = n / 4 % 2 * 1024 + q.val := hi1
  have h1' : n % 4 = 3 := h1
  obtain ⟨m, rfl⟩ : ∃ m, n = m + 1 := ⟨n - 1, by omega⟩
  have hN : m + 1 < 64 := lt_of_lt_of_eq hn N_0
  rw [outAt0_C V c ⟨m + 1, hn⟩ h0 h1]
  refine (outC0_apply V c (m + 1) hn h0 h1 _ p q).trans ?_
  rw [blockprod V c (m + 1) hn p q]
  show acc0 V c m (Nat.lt_of_succ_lt hn) (ix2 p q) + _ = _
  have e8 : (m + 1) / 8 = m / 8 := by omega
  have e4 : (m + 1) / 4 % 2 = m / 4 % 2 := by omega
  have em : m % 4 + 1 = 3 := by omega
  rw [acc0_eq V c m (Nat.lt_of_succ_lt hn) p q, mm_eq_blocks, hi0', hi1', e8, e4, h1', em]
  exact (Finset.sum_range_succ _ 3).symm

/-- What a writing point writes back is its block of the product. -/
theorem flushed0_eq (c : Dev nD) (t : Fin cfg0.N) (hf : (cfg0.win 2).flush t = true) :
    (dat0 (F := Ideal) V c).flushed 2 t = ((cfg0.win 2).blk t).view.read (Elt Ideal) (Spec.mm (V c main_arg0) (V c main_arg1)) := by
  have h1 : t.val % 4 = 3 := (flush0_2 t).mp hf
  have h0 : ¬t.val % 4 = 0 := by omega
  obtain ⟨e0, e1⟩ := idx0_2 t
  show (cfg0.win 2).cut (grid0.coords t) ((dat0 V c).after 2 t) = _
  rw [after0_2]
  funext j
  refine outAt0_eq_mm V c t h0 h1 j _ ?_ ?_
  · show win0_2.index t (0 : Fin 2) * 1024 + 1 * (j 0).val = _; rw [e0]; omega
  · show win0_2.index t (1 : Fin 2) * 1024 + 1 * (j 1).val = _; rw [e1]; omega

/-- An entry of the array is under point `t`'s output block iff each coordinate is in the block's range. -/
theorem mem_blk0_2 (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the array is under the block some writing point writes back. -/
theorem cover0_2 (i : S8192x2048.Idx) : ∃ t : Fin cfg0.N, (cfg0.win 2).flush t = true ∧ i ∈ ((cfg0.win 2).blk t).view.set := by
  have hi0 : (i 0).val < 8192 := idx2_lt0 i
  have hi1 : (i 1).val < 2048 := idx2_lt1 i
  obtain ⟨t, ht⟩ : ∃ t : Fin cfg0.N, t.val = (i 0).val / 1024 * 8 + (i 1).val / 1024 * 4 + 3 :=
    ⟨⟨(i 0).val / 1024 * 8 + (i 1).val / 1024 * 4 + 3, lt_of_lt_of_eq (by omega) N_0.symm⟩, rfl⟩
  obtain ⟨e0, e1⟩ := idx0_2 t
  refine ⟨t, (flush0_2 t).mpr (by omega), ?_⟩
  rw [mem_blk0_2]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 1024 ≤ (i 1).val ∧ (i 1).val < win0_2.index t (1 : Fin 2) * 1024 + 1024; rw [e1]; omega

/-- After the region the output array holds the product of the two operand arrays as the region found them. -/
theorem final (c : Dev nD) : (dat0 (F := Ideal) V c).arrAt 2 cfg0.N = Spec.mm (V c main_arg0) (V c main_arg1) :=
  (dat0 V c).arrAt_eq_of_cover 2 (Spec.mm (V c main_arg0) (V c main_arg1)) (flushed0_eq V c) cover0_2

end Cert.KernelIdeal.HandValue.R0

namespace Cert.KernelIdeal.HandValue

open Cert.KernelIdeal Cert.KernelIdeal.Gen Cert.KernelIdeal.Hand

/-- Region 0: after the region the array a holds inputs · w, for any contents the region is entered at. -/
theorem final0_2 (V : (c : Dev nD) → (b : Ref sig .tc) → Buf (Elt Ideal) ((c : Thread nD τ).loc b)) (c : Dev nD) :
    (dat0 (F := Ideal) V c).arrAt 2 cfg0.N = Spec.mm (V c main_arg0) (V c main_arg1) :=
  R0.final V c

end Cert.KernelIdeal.HandValue

end
-- ==== Proof.Ideal.R1Pieces.lean ====
/-
  Region 1: what each case of the body leaves in the three accumulators and in the three output windows' buffers, as
  terms of the point's operand blocks and of the accumulators the point found.  Where the contraction block is the
  first, each accumulator ends at its block product added to the zero vector; elsewhere at the block product added
  to what it held; and at the last contraction block each output window's buffer receives its accumulator's new
  contents (the third through the change to the narrower format).
-/
import proofs.«169802_j68702296867381_2_alg».proof.Proof.Ideal.R1Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body: zero on both axes. -/
theorem hz1 : (![0, 0] : Fin 2 → Nat) = fun _ => 0 := funext fun a => by fin_cases a <;> rfl

/-- First contraction block: accumulator 0 ends at its block product added to the zero vector. -/
theorem soutA1_0_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) :
    sout1_A_0 c i arg3 harg3 arg4 harg4 arg5 harg5 arg6 harg6 arg7 harg7 arg8 harg8 arg9 harg9 arg10 harg10 arg11 harg11 arg12 harg12 hc0 hc1 x0 x1 x2 x3 = k1_pay6 x0 x1 (k1_pay2 (F := F)) := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3)]
  unfold kernelRun1_A
  dsimp only
  try sl_unfold_words
  rw [View.canon_cons_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- A middle contraction block: accumulator 0 ends at its block product added to what it held. -/
theorem soutB1_0_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) :
    sout1_B_0 c i arg3 harg3 arg4 harg4 arg5 harg5 arg6 harg6 arg7 harg7 arg8 harg8 arg9 harg9 arg10 harg10 arg11 harg11 arg12 harg12 hc0 hc1 x0 x1 x2 x3 xs0 xs1 xs2 = k1_pay6 x0 x1 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_B
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- The last contraction block: accumulator 0 ends at its block product added to what it held, -/
theorem soutC1_0_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    sout1_C_0 c i arg3 harg3 arg4 harg4 arg5 harg5 arg6 harg6 arg7 harg7 arg8 harg8 arg9 harg9 arg10 harg10 arg11 harg11 arg12 harg12 hc0 hc1 x0 x1 x2 x3 xs0 xs1 xs2 = k1_pay6 x0 x1 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- and output window 4's buffer receives the same. -/
theorem outC1_4_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    out1_C_4 c i arg3 harg3 arg4 harg4 arg5 harg5 arg6 harg6 arg7 harg7 arg8 harg8 arg9 harg9 arg10 harg10 arg11 harg11 arg12 harg12 hc0 hc1 x0 x1 x2 x3 xs0 xs1 xs2 = k1_pay6 x0 x1 xs0 := by
  unfold out1_C_4
  rw [View.read_writes_eq_canon _ _ _ (cover1_C_4 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- First contraction block: accumulator 1 ends at its block product added to the zero vector. -/
theorem soutA1_1_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) :
    sout1_A_1 c i arg3 harg3 arg4 harg4 arg5 harg5 arg6 harg6 arg7 harg7 arg8 harg8 arg9 harg9 arg10 harg10 arg11 harg11 arg12 harg12 hc0 hc1 x0 x1 x2 x3 = k1_pay7 x0 x2 (k1_pay3 (F := F)) := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3)]
  unfold kernelRun1_A
  dsimp only
  try sl_unfold_words
  rw [View.canon_cons_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- A middle contraction block: accumulator 1 ends at its block product added to what it held. -/
theorem soutB1_1_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) :
    sout1_B_1 c i arg3 harg3 arg4 harg4 arg5 harg5 arg6 harg6 arg7 harg7 arg8 harg8 arg9 harg9 arg10 harg10 arg11 harg11 arg12 harg12 hc0 hc1 x0 x1 x2 x3 xs0 xs1 xs2 = k1_pay7 x0 x2 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_B
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- The last contraction block: accumulator 1 ends at its block product added to what it held, -/
theorem soutC1_1_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    sout1_C_1 c i arg3 harg3 arg4 harg4 arg5 harg5 arg6 harg6 arg7 harg7 arg8 harg8 arg9 harg9 arg10 harg10 arg11 harg11 arg12 harg12 hc0 hc1 x0 x1 x2 x3 xs0 xs1 xs2 = k1_pay7 x0 x2 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- and output window 5's buffer receives the same. -/
theorem outC1_5_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    out1_C_5 c i arg3 harg3 arg4 harg4 arg5 harg5 arg6 harg6 arg7 harg7 arg8 harg8 arg9 harg9 arg10 harg10 arg11 harg11 arg12 harg12 hc0 hc1 x0 x1 x2 x3 xs0 xs1 xs2 = k1_pay7 x0 x2 xs1 := by
  unfold out1_C_5
  rw [View.read_writes_eq_canon _ _ _ (cover1_C_5 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- First contraction block: accumulator 2 ends at its block product added to the zero vector. -/
theorem soutA1_2_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : cond1_0 i) (hc1 : ¬cond1_1 i)
    (x0 : Vec F S512x512 .bf16) (x1 x2 x3 : Vec F S512x512 .f32) :
    sout1_A_2 c i arg3 harg3 arg4 harg4 arg5 harg5 arg6 harg6 arg7 harg7 arg8 harg8 arg9 harg9 arg10 harg10 arg11 harg11 arg12 harg12 hc0 hc1 x0 x1 x2 x3 = k1_pay8 x0 x3 (k1_pay4 (F := F)) := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 hc0 hc1 x0 x1 x2 x3)]
  unfold kernelRun1_A
  dsimp only
  try sl_unfold_words
  rw [View.canon_cons_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- A middle contraction block: accumulator 2 ends at its block product added to what it held. -/
theorem soutB1_2_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : ¬cond1_1 i)
    (x0 : Vec F S512x512 .bf16) (x1 x2 x3 : Vec F S512x512 .f32) (xs0 xs1 xs2 : Vec F S512x512 .f32) :
    sout1_B_2 c i arg3 harg3 arg4 harg4 arg5 harg5 arg6 harg6 arg7 harg7 arg8 harg8 arg9 harg9 arg10 harg10 arg11 harg11 arg12 harg12 hc0 hc1 x0 x1 x2 x3 xs0 xs1 xs2 = k1_pay8 x0 x3 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_B
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- The last contraction block: accumulator 2 ends at its block product added to what it held, -/
theorem soutC1_2_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    sout1_C_2 c i arg3 harg3 arg4 harg4 arg5 harg5 arg6 harg6 arg7 harg7 arg8 harg8 arg9 harg9 arg10 harg10 arg11 harg11 arg12 harg12 hc0 hc1 x0 x1 x2 x3 xs0 xs1 xs2 = k1_pay8 x0 x3 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

/-- and output window 6's buffer receives the same, through the change to the narrower format. -/
theorem outC1_6_eq (c : Dev nD) (i : grid1.Coords) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (hc0 : ¬cond1_0 i) (hc1 : cond1_1 i)
    (x0 : Vec F S512x512 .bf16) (x1 x2 x3 : Vec F S512x512 .f32) (xs0 xs1 xs2 : Vec F S512x512 .f32) :
    out1_C_6 c i arg3 harg3 arg4 harg4 arg5 harg5 arg6 harg6 arg7 harg7 arg8 harg8 arg9 harg9 arg10 harg10 arg11 harg11 arg12 harg12 hc0 hc1 x0 x1 x2 x3 xs0 xs1 xs2 = k1_pay1 (k1_pay8 x0 x3 xs2) := by
  unfold out1_C_6
  rw [View.read_writes_eq_canon _ _ _ (cover1_C_6 c i arg3 harg3 arg4 harg4 arg5 harg5 arg6 harg6 arg7 harg7 arg8 harg8 arg9 harg9 arg10 harg10 arg11 harg11 arg12 harg12 hc0 hc1 x0 x1 x2 x3 xs0 xs1 xs2)]
  unfold kernelRun1_C
  dsimp only
  try sl_unfold_words
  rw [View.canon_unit_zero (S := S512x512) hz1]
  simp only [View.readAt_eq_ld, harg3.read_unread, harg4.read_unread, harg5.read_unread, harg6.read_unread, harg10.read_unread, harg11.read_unread, harg12.read_unread, View.ld_unit_zero (S := S512x512) hz1, View.readCov_unit_zero (S := S512x512) _ hz1]

end Cert.KernelIdeal.Hand

end
-- ==== Proof.Ideal.R1Steps.lean ====
/-
  Region 1: the accumulators and the output windows' buffers after a point, case by case, as the body's arithmetic
  applied to the point's operand blocks and to the accumulators the point before left.
-/
import proofs.«169802_j68702296867381_2_alg».proof.Proof.Ideal.R1Pieces
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three accumulators after a point with k = 0: each its block product added to the zero vector. -/
theorem accs1_A (c : Dev nD) (t : Fin cfg1.N) (h0 : t.val % 4 = 0) :
    (outsAt1 V c t.val t.isLt).2
      = (k1_pay6 (iblk1 V c 0 t) (iblk1 V c 1 t) (k1_pay2 (F := F)),
         k1_pay7 (iblk1 V c 0 t) (iblk1 V c 2 t) (k1_pay3 (F := F)),
         k1_pay8 (iblk1 V c 0 t) (iblk1 V c 3 t) (k1_pay4 (F := F))) := by
  rw [outsAt1_A V c t h0]
  dsimp only
  rw [soutA1_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
    soutA1_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t),
    soutA1_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condA1 t h0).1 (condA1 t h0).2 (iblk1 V c 0 t) (iblk1 V c 1 t) (iblk1 V c 2 t) (iblk1 V c 3 t)]

/-- After a point with 0 < k < 3: each its block product added to what the point before left. -/
theorem accs1_B (c : Dev nD) (t : Fin cfg1.N) (h0 : ¬t.val % 4 = 0) (h3 : ¬t.val % 4 = 3) :
    (outsAt1 V c t.val t.isLt).2
      = (k1_pay6 (iblk1 V c 0 t) (iblk1 V c 1 t) (outsAt1 V c (t.val - 1) (Nat.lt_of_le_of_lt (Nat.sub_le _ _) t.isLt)).2.1,
         k1_pay7 (iblk1 V c 0 t) (iblk1 V c 2 t) (outsAt1 V c (t.val - 1) (Nat.lt_of_le_of_lt (Nat.sub_le _ _) t.isLt)).2.2.1,
         k1_pay8 (iblk1 V c 0 t) (iblk1 V c 3 t) (outsAt1 V c (t.val - 1) (Nat.lt_of_le_of_lt (Nat.sub_le _ _) t.isLt)).2.2.2) := by
  rw [outsAt1_B V c t h0 h3]
  dsimp only
  rw [soutB1_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    soutB1_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    soutB1_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condB1 t h0 h3).1 (condB1 t h0 h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- After a point with k = 3: the same, -/
theorem accs1_C (c : Dev nD) (t : Fin cfg1.N) (h3 : t.val % 4 = 3) :
    (outsAt1 V c t.val t.isLt).2
      = (k1_pay6 (iblk1 V c 0 t) (iblk1 V c 1 t) (outsAt1 V c (t.val - 1) (Nat.lt_of_le_of_lt (Nat.sub_le _ _) t.isLt)).2.1,
         k1_pay7 (iblk1 V c 0 t) (iblk1 V c 2 t) (outsAt1 V c (t.val - 1) (Nat.lt_of_le_of_lt (Nat.sub_le _ _) t.isLt)).2.2.1,
         k1_pay8 (iblk1 V c 0 t) (iblk1 V c 3 t) (outsAt1 V c (t.val - 1) (Nat.lt_of_le_of_lt (Nat.sub_le _ _) t.isLt)).2.2.2) := by
  rw [outsAt1_C V c t h3]
  dsimp only
  rw [soutC1_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    soutC1_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    soutC1_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- and the output windows' buffers hold the accumulators' new contents (the third in the narrower format). -/
theorem outs1_C (c : Dev nD) (t : Fin cfg1.N) (h3 : t.val % 4 = 3) :
    (outsAt1 V c t.val t.isLt).1
      = (k1_pay6 (iblk1 V c 0 t) (iblk1 V c 1 t) (outsAt1 V c (t.val - 1) (Nat.lt_of_le_of_lt (Nat.sub_le _ _) t.isLt)).2.1,
         k1_pay7 (iblk1 V c 0 t) (iblk1 V c 2 t) (outsAt1 V c (t.val - 1) (Nat.lt_of_le_of_lt (Nat.sub_le _ _) t.isLt)).2.2.1,
         k1_pay1 (k1_pay8 (iblk1 V c 0 t) (iblk1 V c 3 t) (outsAt1 V c (t.val - 1) (Nat.lt_of_le_of_lt (Nat.sub_le _ _) t.isLt)).2.2.2)) := by
  rw [outsAt1_C V c t h3]
  dsimp only
  rw [outC1_4_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    outC1_5_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    outC1_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (condC1 t h3).1 (condC1 t h3).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

end Cert.KernelIdeal.Hand

end
-- ==== Proof.BlockProduct.lean ====
/-
  A matrix product contracted in four blocks of 512.  Entry `(P, Q)` of `A · W` is a sum over the 2048 contracted
  indices; the kernel forms it as a running sum over the four blocks `512 m … 512 m + 511` of that axis.  The partial
  sum over the first `n` blocks is stated with the arrays read at natural-number coordinates, so that a block's
  entries are addressed as "block index × 512 + position in the block"; over all four blocks it is the product's
  entry, by regrouping the sum (no finiteness is needed: only associativity and commutativity of the sum).
-/
import proofs.«169802_j68702296867381_2_alg».proof.Proof.Spec
import proofs.«169802_j68702296867381_2_alg».proof.Proof.LibBlockSum

noncomputable section

namespace Cert.Spec

open Idealize.ShloMosaic Idealize.ShloMosaic.ValueIdx

/-- Entry `(P, R)` of an 8192 × 2048 array by natural coordinates (`0` outside the array, never consulted). -/
def atA (A : SA.Idx → EReal) (P R : ℕ) : EReal :=
  if h : P < 8192 ∧ R < 2048 then A (ix2 (n0 := 8192) (n1 := 2048) ⟨P, h.1⟩ ⟨R, h.2⟩) else 0

/-- Entry `(R, Q)` of a 2048 × 2048 array by natural coordinates (`0` outside the array, never consulted). -/
def atW (W : SW.Idx → EReal) (R Q : ℕ) : EReal :=
  if h : R < 2048 ∧ Q < 2048 then W (ix2 (n0 := 2048) (n1 := 2048) ⟨R, h.1⟩ ⟨Q, h.2⟩) else 0

theorem atA_eq (A : SA.Idx → EReal) (P : Fin 8192) (R : Fin 2048) :
    atA A P.val R.val = A (ix2 (n0 := 8192) (n1 := 2048) P R) := by
  unfold atA; rw [dif_pos ⟨P.isLt, R.isLt⟩]

theorem atW_eq (W : SW.Idx → EReal) (R Q : Fin 2048) :
    atW W R.val Q.val = W (ix2 (n0 := 2048) (n1 := 2048) R Q) := by
  unfold atW; rw [dif_pos ⟨R.isLt, Q.isLt⟩]

/-- The product's entry `(P, Q)` summed over the first `n` blocks of 512 of the contracted axis. -/
def mmPartial (A : SA.Idx → EReal) (W : SW.Idx → EReal) (P Q n : ℕ) : EReal :=
  ∑ m ∈ Finset.range n, ∑ r : Fin 512, atA A P (m * 512 + r.val) * atW W (m * 512 + r.val) Q

theorem mmPartial_zero (A : SA.Idx → EReal) (W : SW.Idx → EReal) (P Q : ℕ) : mmPartial A W P Q 0 = 0 := by
  unfold mmPartial; rw [Finset.range_zero, Finset.sum_empty]

/-- One more block: the partial sum grows by that block's product. -/
theorem mmPartial_succ (A : SA.Idx → EReal) (W : SW.Idx → EReal) (P Q n : ℕ) :
    mmPartial A W P Q (n + 1)
      = mmPartial A W P Q n + ∑ r : Fin 512, atA A P (n * 512 + r.val) * atW W (n * 512 + r.val) Q := by
  unfold mmPartial; rw [Finset.sum_range_succ]

/-- Over all four blocks the partial sum is the product's entry. -/
theorem mm_eq_mmPartial (A : SA.Idx → EReal) (W : SW.Idx → EReal) (P : Fin 8192) (Q : Fin 2048) :
    mm A W (ix2 (n0 := 8192) (n1 := 2048) P Q) = mmPartial A W P.val Q.val 4 := by
  unfold mm mmPartial
  rw [← Cert.LibBlockSum.sum_fin_blocks_range 4 512 (fun R => atA A P.val R * atW W R Q.val)]
  show ∑ k : Fin 2048, A (ix2 (n0 := 8192) (n1 := 2048) P k) * W (ix2 (n0 := 2048) (n1 := 2048) k Q)
    = ∑ k : Fin 2048, atA A P.val k.val * atW W k.val Q.val
  exact Finset.sum_congr rfl fun k _ => by rw [atA_eq, atW_eq]

end Cert.Spec

end
-- ==== Proof.Ideal.R1Value.lean ====
/-
  Region 1 (the fused projections q, k, v = a · w_q, a · w_k, a · w_v): the value part, on the extended reals.  The
  grid's 256 points are (i, j, k) with position 16 i + 4 j + k; at a point the body adds to each of its three
  accumulators the product of the 512 × 512 block (i, k) of `a` with block (k, j) of the weight, the accumulators
  being zeroed at k = 0, and at k = 3 copies them to block (i, j) of the outputs.  So after the point (i, j, k) each
  accumulator holds the partial sum over the contraction blocks 0 … k of its product's block (i, j) (by induction on
  the position), at k = 3 that is the whole sum over the 2048 contracted indices regrouped in four blocks of 512, and
  the 64 output blocks tile each output array.  Changes of float format are the identity here.
-/
import proofs.«169802_j68702296867381_2_alg».proof.Proof.Ideal.R1Frame
import proofs.«169802_j68702296867381_2_alg».proof.Proof.Ideal.R1Steps
import proofs.«169802_j68702296867381_2_alg».proof.Proof.Spec
import proofs.«169802_j68702296867381_2_alg».proof.Proof.BlockProduct
import Idealize.ShloMosaic.Lib.Pipeline.Value
import Idealize.ShloMosaic.Lib.ValueIdx
import Idealize.ShloMosaic.PureOps.Ideal.Laws

set_option maxRecDepth 16384

noncomputable section

namespace Cert.KernelIdeal.HandValue.R1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The body's arithmetic at an index -/

abbrev D1 := dot_S512x512_S512x512_S512x512_1_0_0_1_n_n

theorem lhs_0 (i : S512x512.Idx) (q : D1.contr.Idx) : (D1.lhsIdx i q 0).val = (i 0).val := by
  unfold DotDims.lhsIdx
  rw [dif_neg (show ¬(0 : Fin S512x512.rank) ∈ D1.lhsBatch by decide), dif_pos (show (0 : Fin S512x512.rank) ∈ D1.lhsNonContracting by decide)]
  rfl
theorem lhs_1 (i : S512x512.Idx) (q : D1.contr.Idx) : (D1.lhsIdx i q 1).val = (q ⟨0, by decide⟩).val :=
  D1.lhsIdx_val_of_single rfl i q
theorem rhs_0 (i : S512x512.Idx) (q : D1.contr.Idx) : (D1.rhsIdx i q 0).val = (q ⟨0, by decide⟩).val :=
  D1.rhsIdx_val_of_single rfl i q
theorem rhs_1 (i : S512x512.Idx) (q : D1.contr.Idx) : (D1.rhsIdx i q 1).val = (i 1).val := by
  unfold DotDims.rhsIdx
  rw [dif_neg (show ¬(1 : Fin S512x512.rank) ∈ D1.rhsBatch by decide), dif_pos (show (1 : Fin S512x512.rank) ∈ D1.rhsNonContracting by decide)]
  rfl

/-- The product of two 512 × 512 blocks into a zero accumulator, at `(p, q)`: the sum over the inner index. -/
theorem blockProd_apply (L : FVec Ideal S512x512 .bf16) (R : FVec Ideal S512x512 .bf16) (p q : Fin 512) :
    matmul D1 none L R (constant (F := Ideal) S512x512 .f32 0x00000000#32) (ix2 (n0 := 512) (n1 := 512) p q)
      = ∑ r : Fin 512, L (ix2 (n0 := 512) (n1 := 512) p r) * R (ix2 (n0 := 512) (n1 := 512) r q) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 (n0 := 512) (n1 := 512) p q) ((contrEquiv1 D1 512 rfl rfl).symm k) = ix2 (n0 := 512) (n1 := 512) p k :=
    funext fun a => Fin.ext (by
      match a with
      | ⟨0, _⟩ => exact lhs_0 _ _
      | ⟨1, _⟩ => exact (lhs_1 _ _).trans hk)
  have er : D1.rhsIdx (ix2 (n0 := 512) (n1 := 512) p q) ((contrEquiv1 D1 512 rfl rfl).symm k) = ix2 (n0 := 512) (n1 := 512) k q :=
    funext fun a => Fin.ext (by
      match a with
      | ⟨0, _⟩ => exact (rhs_0 _ _).trans hk
      | ⟨1, _⟩ => exact rhs_1 _ _)
  rw [el, er]

/-- An accumulation step at `(p, q)`: what the accumulator held plus the blocks' product there. -/
theorem accStep_apply (L : FVec Ideal S512x512 .bf16) (R acc : FVec Ideal S512x512 .f32) (p q : Fin 512) :
    addf (F := Ideal) acc (matmul (φ₁ := .bf16) (φ₂ := .bf16) D1 none L (truncf (F := Ideal) .bf16 R bitsLt_bf16_f32) (constant (F := Ideal) S512x512 .f32 0x00000000#32))
        (ix2 (n0 := 512) (n1 := 512) p q)
      = acc (ix2 (n0 := 512) (n1 := 512) p q)
        + ∑ r : Fin 512, L (ix2 (n0 := 512) (n1 := 512) p r) * R (ix2 (n0 := 512) (n1 := 512) r q) :=
  congrArg (acc (ix2 (n0 := 512) (n1 := 512) p q) + ·) (blockProd_apply L (truncf (F := Ideal) .bf16 R bitsLt_bf16_f32) p q)

theorem pay6_apply (L : Vec Ideal S512x512 .bf16) (R acc : Vec Ideal S512x512 .f32) (p q : Fin 512) :
    k1_pay6 (F := Ideal) L R acc (ix2 (n0 := 512) (n1 := 512) p q)
      = acc (ix2 (n0 := 512) (n1 := 512) p q)
        + ∑ r : Fin 512, L (ix2 (n0 := 512) (n1 := 512) p r) * R (ix2 (n0 := 512) (n1 := 512) r q) := by
  unfold k1_pay6 k1_pay5
  dsimp only
  rw [shapeCast_self, shapeCast_self]
  exact accStep_apply L R acc p q

theorem pay7_apply (L : Vec Ideal S512x512 .bf16) (R acc : Vec Ideal S512x512 .f32) (p q : Fin 512) :
    k1_pay7 (F := Ideal) L R acc (ix2 (n0 := 512) (n1 := 512) p q)
      = acc (ix2 (n0 := 512) (n1 := 512) p q)
        + ∑ r : Fin 512, L (ix2 (n0 := 512) (n1 := 512) p r) * R (ix2 (n0 := 512) (n1 := 512) r q) := by
  unfold k1_pay7 k1_pay5
  dsimp only
  rw [shapeCast_self, shapeCast_self]
  exact accStep_apply L R acc p q

theorem pay8_apply (L : Vec Ideal S512x512 .bf16) (R acc : Vec Ideal S512x512 .f32) (p q : Fin 512) :
    k1_pay8 (F := Ideal) L R acc (ix2 (n0 := 512) (n1 := 512) p q)
      = acc (ix2 (n0 := 512) (n1 := 512) p q)
        + ∑ r : Fin 512, L (ix2 (n0 := 512) (n1 := 512) p r) * R (ix2 (n0 := 512) (n1 := 512) r q) := by
  unfold k1_pay8 k1_pay5
  dsimp only
  rw [shapeCast_self, shapeCast_self]
  exact accStep_apply L R acc p q

/-- The vectors stored at k = 0 are zero everywhere. -/
theorem pay2_apply (y : S512x512.Idx) : k1_pay2 (F := Ideal) y = 0 := by
  unfold k1_pay2; (try dsimp only); rw [shapeCast_self]; exact Ideal.ofBits_zero_f32
theorem pay3_apply (y : S512x512.Idx) : k1_pay3 (F := Ideal) y = 0 := by
  unfold k1_pay3; (try dsimp only); rw [shapeCast_self]; exact Ideal.ofBits_zero_f32
theorem pay4_apply (y : S512x512.Idx) : k1_pay4 (F := Ideal) y = 0 := by
  unfold k1_pay4; (try dsimp only); rw [shapeCast_self]; exact Ideal.ofBits_zero_f32

/-! ## The windows' blocks at a point -/

/-- At the point of position `t` = 16 i + 4 j + k: the window on `a` is on block (i, k), the windows on the three
    weights on block (k, j), the three output windows on block (i, j). -/
theorem idx_facts1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val % 4 ∧ win1_2.index t (1 : Fin 2) = t.val / 4 % 4
    ∧ win1_3.index t (0 : Fin 2) = t.val % 4 ∧ win1_3.index t (1 : Fin 2) = t.val / 4 % 4
    ∧ win1_4.index t (0 : Fin 2) = t.val / 16 ∧ win1_4.index t (1 : Fin 2) = t.val / 4 % 4
    ∧ win1_5.index t (0 : Fin 2) = t.val / 16 ∧ win1_5.index t (1 : Fin 2) = t.val / 4 % 4
    ∧ win1_6.index t (0 : Fin 2) = t.val / 16 ∧ win1_6.index t (1 : Fin 2) = t.val / 4 % 4 :=
  (by decide +kernel : ∀ t : Fin grid1.N, _)

theorem lt_N1 (t : Fin cfg1.N) : t.val < 256 := lt_of_lt_of_eq t.isLt N_1

variable (V : (c : Dev nD) → (b : Ref sig .tc) → Buf (Elt Ideal) ((c : Thread nD τ).loc b))

/-- The block of `a` the body finds at point `t`, entry by entry. -/
theorem iblk1_0_apply (c : Dev nD) (t : Fin cfg1.N) (p r : Fin 512) :
    iblk1 V c 0 t (ix2 (n0 := 512) (n1 := 512) p r)
      = Spec.atA (V c main_v0) (t.val / 16 * 512 + p.val) (t.val % 4 * 512 + r.val) := by
  obtain ⟨e0, e1, -⟩ := idx_facts1 t
  have ht := lt_N1 t
  have hp : p.val < 512 := p.isLt
  have hr : r.val < 512 := r.isLt
  have hP : t.val / 16 * 512 + p.val < 8192 := by omega
  have hR : t.val % 4 * 512 + r.val < 2048 := by omega
  unfold Spec.atA
  rw [dif_pos ⟨hP, hR⟩]
  show V c main_v0 (((cfg1.win 0).blk t).view.emb (ix2 (n0 := 512) (n1 := 512) p r)) = _
  refine congrArg (V c main_v0) ?_
  funext a; apply Fin.ext
  match a with
  | ⟨0, _⟩ => show win1_0.index t (0 : Fin 2) * 512 + 1 * p.val = t.val / 16 * 512 + p.val; omega
  | ⟨1, _⟩ => show win1_0.index t (1 : Fin 2) * 512 + 1 * r.val = t.val % 4 * 512 + r.val; omega

/-- The block of the weight of window 1 the body finds at point `t`, entry by entry. -/
theorem iblk1_1_apply (c : Dev nD) (t : Fin cfg1.N) (r q : Fin 512) :
    iblk1 V c 1 t (ix2 (n0 := 512) (n1 := 512) r q)
      = Spec.atW (V c main_arg2) (t.val % 4 * 512 + r.val) (t.val / 4 % 4 * 512 + q.val) := by
  obtain ⟨-, -, e0, e1, -⟩ := idx_facts1 t
  have ht := lt_N1 t
  have hr : r.val < 512 := r.isLt
  have hq : q.val < 512 := q.isLt
  have hR : t.val % 4 * 512 + r.val < 2048 := by omega
  have hQ : t.val / 4 % 4 * 512 + q.val < 2048 := by omega
  unfold Spec.atW
  rw [dif_pos ⟨hR, hQ⟩]
  show V c main_arg2 (((cfg1.win 1).blk t).view.emb (ix2 (n0 := 512) (n1 := 512) r q)) = _
  refine congrArg (V c main_arg2) ?_
  funext a; apply Fin.ext
  match a with
  | ⟨0, _⟩ => show win1_1.index t (0 : Fin 2) * 512 + 1 * r.val = t.val % 4 * 512 + r.val; omega
  | ⟨1, _⟩ => show win1_1.index t (1 : Fin 2) * 512 + 1 * q.val = t.val / 4 % 4 * 512 + q.val; omega

/-- The block of the weight of window 2 the body finds at point `t`, entry by entry. -/
theorem iblk1_2_apply (c : Dev nD) (t : Fin cfg1.N) (r q : Fin 512) :
    iblk1 V c 2 t (ix2 (n0 := 512) (n1 := 512) r q)
      = Spec.atW (V c main_arg3) (t.val % 4 * 512 + r.val) (t.val / 4 % 4 * 512 + q.val) := by
  obtain ⟨-, -, -, -, e0, e1, -⟩ := idx_facts1 t
  have ht := lt_N1 t
  have hr : r.val < 512 := r.isLt
  have hq : q.val < 512 := q.isLt
  have hR : t.val % 4 * 512 + r.val < 2048 := by omega
  have hQ : t.val / 4 % 4 * 512 + q.val < 2048 := by omega
  unfold Spec.atW
  rw [dif_pos ⟨hR, hQ⟩]
  show V c main_arg3 (((cfg1.win 2).blk t).view.emb (ix2 (n0 := 512) (n1 := 512) r q)) = _
  refine congrArg (V c main_arg3) ?_
  funext a; apply Fin.ext
  match a with
  | ⟨0, _⟩ => show win1_2.index t (0 : Fin 2) * 512 + 1 * r.val = t.val % 4 * 512 + r.val; omega
  | ⟨1, _⟩ => show win1_2.index t (1 : Fin 2) * 512 + 1 * q.val = t.val / 4 % 4 * 512 + q.val; omega

/-- The block of the weight of window 3 the body finds at point `t`, entry by entry. -/
theorem iblk1_3_apply (c : Dev nD) (t : Fin cfg1.N) (r q : Fin 512) :
    iblk1 V c 3 t (ix2 (n0 := 512) (n1 := 512) r q)
      = Spec.atW (V c main_arg4) (t.val % 4 * 512 + r.val) (t.val / 4 % 4 * 512 + q.val) := by
  obtain ⟨-, -, -, -, -, -, e0, e1, -⟩ := idx_facts1 t
  have ht := lt_N1 t
  have hr : r.val < 512 := r.isLt
  have hq : q.val < 512 := q.isLt
  have hR : t.val % 4 * 512 + r.val < 2048 := by omega
  have hQ : t.val / 4 % 4 * 512 + q.val < 2048 := by omega
  unfold Spec.atW
  rw [dif_pos ⟨hR, hQ⟩]
  show V c main_arg4 (((cfg1.win 3).blk t).view.emb (ix2 (n0 := 512) (n1 := 512) r q)) = _
  refine congrArg (V c main_arg4) ?_
  funext a; apply Fin.ext
  match a with
  | ⟨0, _⟩ => show win1_3.index t (0 : Fin 2) * 512 + 1 * r.val = t.val % 4 * 512 + r.val; omega
  | ⟨1, _⟩ => show win1_3.index t (1 : Fin 2) * 512 + 1 * q.val = t.val / 4 % 4 * 512 + q.val; omega

/-! ## The accumulators, point by point -/

/-- The closed form of an accumulator after the point of position `n` = 16 i + 4 j + k: the partial sums, over the
    contraction blocks 0 … k, of block (i, j) of the product. -/
def accAt (A : Spec.SA.Idx → EReal) (W : Spec.SW.Idx → EReal) (n : ℕ) : S512x512.Idx → EReal :=
  fun y => Spec.mmPartial A W (n / 16 * 512 + (y 0).val) (n / 4 % 4 * 512 + (y 1).val) (n % 4 + 1)

/-- At k = 0 the accumulator, zeroed, receives the first block product. -/
theorem acc_first (A : Spec.SA.Idx → EReal) (W : Spec.SW.Idx → EReal) (n : ℕ) (hn : n % 4 = 0)
    (L R Z new : S512x512.Idx → EReal)
    (hL : ∀ p r : Fin 512, L (ix2 (n0 := 512) (n1 := 512) p r) = Spec.atA A (n / 16 * 512 + p.val) (n % 4 * 512 + r.val))
    (hR : ∀ r q : Fin 512, R (ix2 (n0 := 512) (n1 := 512) r q) = Spec.atW W (n % 4 * 512 + r.val) (n / 4 % 4 * 512 + q.val))
    (hZ : ∀ y, Z y = 0)
    (hnew : ∀ p q : Fin 512, new (ix2 (n0 := 512) (n1 := 512) p q)
      = Z (ix2 (n0 := 512) (n1 := 512) p q) + ∑ r : Fin 512, L (ix2 (n0 := 512) (n1 := 512) p r) * R (ix2 (n0 := 512) (n1 := 512) r q)) :
    new = accAt A W n := by
  funext y
  obtain ⟨p, q, rfl⟩ : ∃ (p q : Fin 512), y = ix2 (n0 := 512) (n1 := 512) p q := ⟨y 0, y 1, eq_ix2 y⟩
  rw [hnew, hZ, zero_add]
  show _ = Spec.mmPartial A W (n / 16 * 512 + p.val) (n / 4 % 4 * 512 + q.val) (n % 4 + 1)
  rw [hn, Spec.mmPartial_succ, Spec.mmPartial_zero, zero_add]
  refine Finset.sum_congr rfl fun r _ => ?_
  rw [hL, hR, hn]

/-- At k > 0 the accumulator, holding the partial sum over the blocks before, receives the next block product. -/
theorem acc_next (A : Spec.SA.Idx → EReal) (W : Spec.SW.Idx → EReal) (n : ℕ) (hn : ¬n % 4 = 0)
    (L R old new : S512x512.Idx → EReal)
    (hL : ∀ p r : Fin 512, L (ix2 (n0 := 512) (n1 := 512) p r) = Spec.atA A (n / 16 * 512 + p.val) (n % 4 * 512 + r.val))
    (hR : ∀ r q : Fin 512, R (ix2 (n0 := 512) (n1 := 512) r q) = Spec.atW W (n % 4 * 512 + r.val) (n / 4 % 4 * 512 + q.val))
    (hold : old = accAt A W (n - 1))
    (hnew : ∀ p q : Fin 512, new (ix2 (n0 := 512) (n1 := 512) p q)
      = old (ix2 (n0 := 512) (n1 := 512) p q) + ∑ r : Fin 512, L (ix2 (n0 := 512) (n1 := 512) p r) * R (ix2 (n0 := 512) (n1 := 512) r q)) :
    new = accAt A W n := by
  funext y
  obtain ⟨p, q, rfl⟩ : ∃ (p q : Fin 512), y = ix2 (n0 := 512) (n1 := 512) p q := ⟨y 0, y 1, eq_ix2 y⟩
  rw [hnew, hold]
  show Spec.mmPartial A W ((n - 1) / 16 * 512 + p.val) ((n - 1) / 4 % 4 * 512 + q.val) ((n - 1) % 4 + 1) + _
    = Spec.mmPartial A W (n / 16 * 512 + p.val) (n / 4 % 4 * 512 + q.val) (n % 4 + 1)
  have e1 : (n - 1) / 16 = n / 16 := by omega
  have e2 : (n - 1) / 4 % 4 = n / 4 % 4 := by omega
  have e3 : (n - 1) % 4 + 1 = n % 4 := by omega
  rw [e1, e2, e3, Spec.mmPartial_succ]
  refine congrArg (_ + ·) (Finset.sum_congr rfl fun r _ => ?_)
  rw [hL, hR]

/-- After every point the three accumulators hold their closed forms. -/
theorem accs_eq (c : Dev nD) : ∀ (n : ℕ) (h : n < cfg1.N),
    (outsAt1 V c n h).2 = (accAt (V c main_v0) (V c main_arg2) n, accAt (V c main_v0) (V c main_arg3) n,
      accAt (V c main_v0) (V c main_arg4) n) := by
  intro n
  induction n with
  | zero =>
    intro h
    rw [show (outsAt1 V c 0 h).2 = (outsAt1 V c (⟨0, h⟩ : Fin cfg1.N).val (⟨0, h⟩ : Fin cfg1.N).isLt).2 from rfl,
      accs1_A V c ⟨0, h⟩ (Nat.zero_mod 4)]
    refine Prod.ext ?_ (Prod.ext ?_ ?_)
    · exact acc_first _ _ 0 (Nat.zero_mod 4) _ _ _ _ (iblk1_0_apply V c ⟨0, h⟩) (iblk1_1_apply V c ⟨0, h⟩) pay2_apply (pay6_apply _ _ _)
    · exact acc_first _ _ 0 (Nat.zero_mod 4) _ _ _ _ (iblk1_0_apply V c ⟨0, h⟩) (iblk1_2_apply V c ⟨0, h⟩) pay3_apply (pay7_apply _ _ _)
    · exact acc_first _ _ 0 (Nat.zero_mod 4) _ _ _ _ (iblk1_0_apply V c ⟨0, h⟩) (iblk1_3_apply V c ⟨0, h⟩) pay4_apply (pay8_apply _ _ _)
  | succ n ih =>
    intro h
    have ihn := ih (Nat.lt_of_succ_lt h)
    by_cases h0 : (n + 1) % 4 = 0
    · rw [show (outsAt1 V c (n + 1) h).2 = (outsAt1 V c (⟨n + 1, h⟩ : Fin cfg1.N).val (⟨n + 1, h⟩ : Fin cfg1.N).isLt).2 from rfl,
        accs1_A V c ⟨n + 1, h⟩ h0]
      refine Prod.ext ?_ (Prod.ext ?_ ?_)
      · exact acc_first _ _ (n + 1) h0 _ _ _ _ (iblk1_0_apply V c ⟨n + 1, h⟩) (iblk1_1_apply V c ⟨n + 1, h⟩) pay2_apply (pay6_apply _ _ _)
      · exact acc_first _ _ (n + 1) h0 _ _ _ _ (iblk1_0_apply V c ⟨n + 1, h⟩) (iblk1_2_apply V c ⟨n + 1, h⟩) pay3_apply (pay7_apply _ _ _)
      · exact acc_first _ _ (n + 1) h0 _ _ _ _ (iblk1_0_apply V c ⟨n + 1, h⟩) (iblk1_3_apply V c ⟨n + 1, h⟩) pay4_apply (pay8_apply _ _ _)
    · have hprev : (outsAt1 V c ((⟨n + 1, h⟩ : Fin cfg1.N).val - 1) (Nat.lt_of_le_of_lt (Nat.sub_le _ _) (⟨n + 1, h⟩ : Fin cfg1.N).isLt)).2
          = (accAt (V c main_v0) (V c main_arg2) (n + 1 - 1), accAt (V c main_v0) (V c main_arg3) (n + 1 - 1),
            accAt (V c main_v0) (V c main_arg4) (n + 1 - 1)) := ihn
      have hsame : (outsAt1 V c (n + 1) h).2
          = (k1_pay6 (F := Ideal) (iblk1 V c 0 ⟨n + 1, h⟩) (iblk1 V c 1 ⟨n + 1, h⟩) (outsAt1 V c ((⟨n + 1, h⟩ : Fin cfg1.N).val - 1) (Nat.lt_of_le_of_lt (Nat.sub_le _ _) (⟨n + 1, h⟩ : Fin cfg1.N).isLt)).2.1,
             k1_pay7 (F := Ideal) (iblk1 V c 0 ⟨n + 1, h⟩) (iblk1 V c 2 ⟨n + 1, h⟩) (outsAt1 V c ((⟨n + 1, h⟩ : Fin cfg1.N).val - 1) (Nat.lt_of_le_of_lt (Nat.sub_le _ _) (⟨n + 1, h⟩ : Fin cfg1.N).isLt)).2.2.1,
             k1_pay8 (F := Ideal) (iblk1 V c 0 ⟨n + 1, h⟩) (iblk1 V c 3 ⟨n + 1, h⟩) (outsAt1 V c ((⟨n + 1, h⟩ : Fin cfg1.N).val - 1) (Nat.lt_of_le_of_lt (Nat.sub_le _ _) (⟨n + 1, h⟩ : Fin cfg1.N).isLt)).2.2.2) := by
        by_cases h3 : (n + 1) % 4 = 3
        · exact accs1_C V c ⟨n + 1, h⟩ h3
        · exact accs1_B V c ⟨n + 1, h⟩ h0 h3
      rw [hsame]
      refine Prod.ext ?_ (Prod.ext ?_ ?_)
      · exact acc_next _ _ (n + 1) h0 _ _ _ _ (iblk1_0_apply V c ⟨n + 1, h⟩) (iblk1_1_apply V c ⟨n + 1, h⟩) (congrArg (·.1) hprev) (pay6_apply _ _ _)
      · exact acc_next _ _ (n + 1) h0 _ _ _ _ (iblk1_0_apply V c ⟨n + 1, h⟩) (iblk1_2_apply V c ⟨n + 1, h⟩) (congrArg (·.2.1) hprev) (pay7_apply _ _ _)
      · exact acc_next _ _ (n + 1) h0 _ _ _ _ (iblk1_0_apply V c ⟨n + 1, h⟩) (iblk1_3_apply V c ⟨n + 1, h⟩) (congrArg (·.2.2) hprev) (pay8_apply _ _ _)

/-! ## The outputs -/

/-- At a point with k = 3 the output windows' buffers hold the accumulators' closed forms (the change of format of
    the third is the identity). -/
theorem outs_eq (c : Dev nD) (t : Fin cfg1.N) (h3 : t.val % 4 = 3) :
    (outsAt1 V c t.val t.isLt).1 = (accAt (V c main_v0) (V c main_arg2) t.val, accAt (V c main_v0) (V c main_arg3) t.val,
      accAt (V c main_v0) (V c main_arg4) t.val) := by
  have h2 := accs_eq V c t.val t.isLt
  rw [accs1_C V c t h3] at h2
  rw [outs1_C V c t h3]
  refine Prod.ext ?_ (Prod.ext ?_ ?_)
  · exact congrArg (·.1) h2
  · exact congrArg (·.2.1) h2
  · exact congrArg (·.2.2) h2

/-- What a point with k = 3 writes back from output window 4 is its block of the whole product. -/
theorem flushed1_4_eq (c : Dev nD) (t : Fin cfg1.N) (hf : (cfg1.win 4).flush t = true) :
    (dat1 (F := Ideal) V c).flushed 4 t = ((cfg1.win 4).blk t).view.read (Elt Ideal) (Spec.mm (V c main_v0) (V c main_arg2)) := by
  have h3 : t.val % 4 = 3 := (flush1_4 t).mp hf
  obtain ⟨-, -, -, -, -, -, -, -, e0, e1, -⟩ := idx_facts1 t
  have ht := lt_N1 t
  show (cfg1.win 4).cut (grid1.coords t) ((dat1 (F := Ideal) V c).after 4 t) = _
  rw [after1_4, outs_eq V c t h3]
  funext y
  obtain ⟨p, q, rfl⟩ : ∃ (p q : Fin 512), y = ix2 (n0 := 512) (n1 := 512) p q := ⟨y 0, y 1, eq_ix2 y⟩
  have hp : p.val < 512 := p.isLt
  have hq : q.val < 512 := q.isLt
  have hP : t.val / 16 * 512 + p.val < 8192 := by omega
  have hQ : t.val / 4 % 4 * 512 + q.val < 2048 := by omega
  show accAt (V c main_v0) (V c main_arg2) t.val (ix2 (n0 := 512) (n1 := 512) p q)
    = Spec.mm (V c main_v0) (V c main_arg2) (((cfg1.win 4).blk t).view.emb (ix2 (n0 := 512) (n1 := 512) p q))
  have hemb : ((cfg1.win 4).blk t).view.emb (ix2 (n0 := 512) (n1 := 512) p q)
      = ix2 (n0 := 8192) (n1 := 2048) ⟨t.val / 16 * 512 + p.val, hP⟩ ⟨t.val / 4 % 4 * 512 + q.val, hQ⟩ := by
    funext a; apply Fin.ext
    match a with
    | ⟨0, _⟩ => show win1_4.index t (0 : Fin 2) * 512 + 1 * p.val = t.val / 16 * 512 + p.val; omega
    | ⟨1, _⟩ => show win1_4.index t (1 : Fin 2) * 512 + 1 * q.val = t.val / 4 % 4 * 512 + q.val; omega
  rw [hemb, Spec.mm_eq_mmPartial]
  show Spec.mmPartial _ _ _ _ (t.val % 4 + 1) = _
  rw [h3]

theorem mem_blk1_4 (t : Fin cfg1.N) (i : S8192x2048.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v1_0).slice (win1_4.rect t)).set ↔ _
  rw [View.set_slice_whole, Rect.mem_set_unit]
  exact Iff.rfl

/-- Every index of the output array lies in the block of a point with k = 3, which writes it back. -/
theorem cover1_4 (i : S8192x2048.Idx) :
    ∃ t : Fin cfg1.N, (cfg1.win 4).flush t = true ∧ i ∈ ((cfg1.win 4).blk t).view.set := by
  have hi0 : (i 0).val < 8192 := idx2_lt0 i
  have hi1 : (i 1).val < 2048 := idx2_lt1 i
  have hN : (i 0).val / 512 * 16 + (i 1).val / 512 * 4 + 3 < cfg1.N :=
    lt_of_lt_of_eq (show (i 0).val / 512 * 16 + (i 1).val / 512 * 4 + 3 < 256 by omega) N_1.symm
  refine ⟨⟨(i 0).val / 512 * 16 + (i 1).val / 512 * 4 + 3, hN⟩, (flush1_4 _).mpr (by show ((i 0).val / 512 * 16 + (i 1).val / 512 * 4 + 3) % 4 = 3; omega), ?_⟩
  rw [mem_blk1_4]
  obtain ⟨-, -, -, -, -, -, -, -, e0, e1, -⟩ := idx_facts1 ⟨(i 0).val / 512 * 16 + (i 1).val / 512 * 4 + 3, hN⟩
  intro a
  match a with
  | ⟨0, _⟩ =>
    show win1_4.index ⟨(i 0).val / 512 * 16 + (i 1).val / 512 * 4 + 3, hN⟩ (0 : Fin 2) * 512 ≤ (i 0).val ∧ (i 0).val < win1_4.index ⟨(i 0).val / 512 * 16 + (i 1).val / 512 * 4 + 3, hN⟩ (0 : Fin 2) * 512 + 512
    rw [e0]; show ((i 0).val / 512 * 16 + (i 1).val / 512 * 4 + 3) / 16 * 512 ≤ (i 0).val ∧ (i 0).val < ((i 0).val / 512 * 16 + (i 1).val / 512 * 4 + 3) / 16 * 512 + 512; omega
  | ⟨1, _⟩ =>
    show win1_4.index ⟨(i 0).val / 512 * 16 + (i 1).val / 512 * 4 + 3, hN⟩ (1 : Fin 2) * 512 ≤ (i 1).val ∧ (i 1).val < win1_4.index ⟨(i 0).val / 512 * 16 + (i 1).val / 512 * 4 + 3, hN⟩ (1 : Fin 2) * 512 + 512
    rw [e1]; show ((i 0).val / 512 * 16 + (i 1).val / 512 * 4 + 3) / 4 % 4 * 512 ≤ (i 1).val ∧ (i 1).val < ((i 0).val / 512 * 16 + (i 1).val / 512 * 4 + 3) / 4 % 4 * 512 + 512; omega

/-- What a point with k = 3 writes back from output window 5 is its block of the whole product. -/
theorem flushed1_5_eq (c : Dev nD) (t : Fin cfg1.N) (hf : (cfg1.win 5).flush t = true) :
    (dat1 (F := Ideal) V c).flushed 5 t = ((cfg1.win 5).blk t).view.read (Elt Ideal) (Spec.mm (V c main_v0) (V c main_arg3)) := by
  have h3 : t.val % 4 = 3 := (flush1_5 t).mp hf
  obtain ⟨-, -, -, -, -, -, -, -, -, -, e0, e1, -⟩ := idx_facts1 t
  have ht := lt_N1 t
  show (cfg1.win 5).cut (grid1.coords t) ((dat1 (F := Ideal) V c).after 5 t) = _
  rw [after1_5, outs_eq V c t h3]
  funext y
  obtain ⟨p, q, rfl⟩ : ∃ (p q : Fin 512), y = ix2 (n0 := 512) (n1 := 512) p q := ⟨y 0, y 1, eq_ix2 y⟩
  have hp : p.val < 512 := p.isLt
  have hq : q.val < 512 := q.isLt
  have hP : t.val / 16 * 512 + p.val < 8192 := by omega
  have hQ : t.val / 4 % 4 * 512 + q.val < 2048 := by omega
  show accAt (V c main_v0) (V c main_arg3) t.val (ix2 (n0 := 512) (n1 := 512) p q)
    = Spec.mm (V c main_v0) (V c main_arg3) (((cfg1.win 5).blk t).view.emb (ix2 (n0 := 512) (n1 := 512) p q))
  have hemb : ((cfg1.win 5).blk t).view.emb (ix2 (n0 := 512) (n1 := 512) p q)
      = ix2 (n0 := 8192) (n1 := 2048) ⟨t.val / 16 * 512 + p.val, hP⟩ ⟨t.val / 4 % 4 * 512 + q.val, hQ⟩ := by
    funext a; apply Fin.ext
    match a with
    | ⟨0, _⟩ => show win1_5.index t (0 : Fin 2) * 512 + 1 * p.val = t.val / 16 * 512 + p.val; omega
    | ⟨1, _⟩ => show win1_5.index t (1 : Fin 2) * 512 + 1 * q.val = t.val / 4 % 4 * 512 + q.val; omega
  rw [hemb, Spec.mm_eq_mmPartial]
  show Spec.mmPartial _ _ _ _ (t.val % 4 + 1) = _
  rw [h3]

theorem mem_blk1_5 (t : Fin cfg1.N) (i : S8192x2048.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v1_1).slice (win1_5.rect t)).set ↔ _
  rw [View.set_slice_whole, Rect.mem_set_unit]
  exact Iff.rfl

/-- Every index of the output array lies in the block of a point with k = 3, which writes it back. -/
theorem cover1_5 (i : S8192x2048.Idx) :
    ∃ t : Fin cfg1.N, (cfg1.win 5).flush t = true ∧ i ∈ ((cfg1.win 5).blk t).view.set := by
  have hi0 : (i 0).val < 8192 := idx2_lt0 i
  have hi1 : (i 1).val < 2048 := idx2_lt1 i
  have hN : (i 0).val / 512 * 16 + (i 1).val / 512 * 4 + 3 < cfg1.N :=
    lt_of_lt_of_eq (show (i 0).val / 512 * 16 + (i 1).val / 512 * 4 + 3 < 256 by omega) N_1.symm
  refine ⟨⟨(i 0).val / 512 * 16 + (i 1).val / 512 * 4 + 3, hN⟩, (flush1_5 _).mpr (by show ((i 0).val / 512 * 16 + (i 1).val / 512 * 4 + 3) % 4 = 3; omega), ?_⟩
  rw [mem_blk1_5]
  obtain ⟨-, -, -, -, -, -, -, -, -, -, e0, e1, -⟩ := idx_facts1 ⟨(i 0).val / 512 * 16 + (i 1).val / 512 * 4 + 3, hN⟩
  intro a
  match a with
  | ⟨0, _⟩ =>
    show win1_5.index ⟨(i 0).val / 512 * 16 + (i 1).val / 512 * 4 + 3, hN⟩ (0 : Fin 2) * 512 ≤ (i 0).val ∧ (i 0).val < win1_5.index ⟨(i 0).val / 512 * 16 + (i 1).val / 512 * 4 + 3, hN⟩ (0 : Fin 2) * 512 + 512
    rw [e0]; show ((i 0).val / 512 * 16 + (i 1).val / 512 * 4 + 3) / 16 * 512 ≤ (i 0).val ∧ (i 0).val < ((i 0).val / 512 * 16 + (i 1).val / 512 * 4 + 3) / 16 * 512 + 512; omega
  | ⟨1, _⟩ =>
    show win1_5.index ⟨(i 0).val / 512 * 16 + (i 1).val / 512 * 4 + 3, hN⟩ (1 : Fin 2) * 512 ≤ (i 1).val ∧ (i 1).val < win1_5.index ⟨(i 0).val / 512 * 16 + (i 1).val / 512 * 4 + 3, hN⟩ (1 : Fin 2) * 512 + 512
    rw [e1]; show ((i 0).val / 512 * 16 + (i 1).val / 512 * 4 + 3) / 4 % 4 * 512 ≤ (i 1).val ∧ (i 1).val < ((i 0).val / 512 * 16 + (i 1).val / 512 * 4 + 3) / 4 % 4 * 512 + 512; omega

/-- What a point with k = 3 writes back from output window 6 is its block of the whole product. -/
theorem flushed1_6_eq (c : Dev nD) (t : Fin cfg1.N) (hf : (cfg1.win 6).flush t = true) :
    (dat1 (F := Ideal) V c).flushed 6 t = ((cfg1.win 6).blk t).view.read (Elt Ideal) (Spec.mm (V c main_v0) (V c main_arg4)) := by
  have h3 : t.val % 4 = 3 := (flush1_6 t).mp hf
  obtain ⟨-, -, -, -, -, -, -, -, -, -, -, -, e0, e1⟩ := idx_facts1 t
  have ht := lt_N1 t
  show (cfg1.win 6).cut (grid1.coords t) ((dat1 (F := Ideal) V c).after 6 t) = _
  rw [after1_6, outs_eq V c t h3]
  funext y
  obtain ⟨p, q, rfl⟩ : ∃ (p q : Fin 512), y = ix2 (n0 := 512) (n1 := 512) p q := ⟨y 0, y 1, eq_ix2 y⟩
  have hp : p.val < 512 := p.isLt
  have hq : q.val < 512 := q.isLt
  have hP : t.val / 16 * 512 + p.val < 8192 := by omega
  have hQ : t.val / 4 % 4 * 512 + q.val < 2048 := by omega
  show accAt (V c main_v0) (V c main_arg4) t.val (ix2 (n0 := 512) (n1 := 512) p q)
    = Spec.mm (V c main_v0) (V c main_arg4) (((cfg1.win 6).blk t).view.emb (ix2 (n0 := 512) (n1 := 512) p q))
  have hemb : ((cfg1.win 6).blk t).view.emb (ix2 (n0 := 512) (n1 := 512) p q)
      = ix2 (n0 := 8192) (n1 := 2048) ⟨t.val / 16 * 512 + p.val, hP⟩ ⟨t.val / 4 % 4 * 512 + q.val, hQ⟩ := by
    funext a; apply Fin.ext
    match a with
    | ⟨0, _⟩ => show win1_6.index t (0 : Fin 2) * 512 + 1 * p.val = t.val / 16 * 512 + p.val; omega
    | ⟨1, _⟩ => show win1_6.index t (1 : Fin 2) * 512 + 1 * q.val = t.val / 4 % 4 * 512 + q.val; omega
  rw [hemb, Spec.mm_eq_mmPartial]
  show Spec.mmPartial _ _ _ _ (t.val % 4 + 1) = _
  rw [h3]

theorem mem_blk1_6 (t : Fin cfg1.N) (i : S8192x2048.Idx) :
    i ∈ ((cfg1.win 6).blk t).view.set ↔ ∀ a : Fin 2, win1_6.index t a * S512x512.size a ≤ (i a).val ∧ (i a).val < win1_6.index t a * S512x512.size a + S512x512.size a := by
  show i ∈ ((View.whole main_v1_2).slice (win1_6.rect t)).set ↔ _
  rw [View.set_slice_whole, Rect.mem_set_unit]
  exact Iff.rfl

/-- Every index of the output array lies in the block of a point with k = 3, which writes it back. -/
theorem cover1_6 (i : S8192x2048.Idx) :
    ∃ t : Fin cfg1.N, (cfg1.win 6).flush t = true ∧ i ∈ ((cfg1.win 6).blk t).view.set := by
  have hi0 : (i 0).val < 8192 := idx2_lt0 i
  have hi1 : (i 1).val < 2048 := idx2_lt1 i
  have hN : (i 0).val / 512 * 16 + (i 1).val / 512 * 4 + 3 < cfg1.N :=
    lt_of_lt_of_eq (show (i 0).val / 512 * 16 + (i 1).val / 512 * 4 + 3 < 256 by omega) N_1.symm
  refine ⟨⟨(i 0).val / 512 * 16 + (i 1).val / 512 * 4 + 3, hN⟩, (flush1_6 _).mpr (by show ((i 0).val / 512 * 16 + (i 1).val / 512 * 4 + 3) % 4 = 3; omega), ?_⟩
  rw [mem_blk1_6]
  obtain ⟨-, -, -, -, -, -, -, -, -, -, -, -, e0, e1⟩ := idx_facts1 ⟨(i 0).val / 512 * 16 + (i 1).val / 512 * 4 + 3, hN⟩
  intro a
  match a with
  | ⟨0, _⟩ =>
    show win1_6.index ⟨(i 0).val / 512 * 16 + (i 1).val / 512 * 4 + 3, hN⟩ (0 : Fin 2) * 512 ≤ (i 0).val ∧ (i 0).val < win1_6.index ⟨(i 0).val / 512 * 16 + (i 1).val / 512 * 4 + 3, hN⟩ (0 : Fin 2) * 512 + 512
    rw [e0]; show ((i 0).val / 512 * 16 + (i 1).val / 512 * 4 + 3) / 16 * 512 ≤ (i 0).val ∧ (i 0).val < ((i 0).val / 512 * 16 + (i 1).val / 512 * 4 + 3) / 16 * 512 + 512; omega
  | ⟨1, _⟩ =>
    show win1_6.index ⟨(i 0).val / 512 * 16 + (i 1).val / 512 * 4 + 3, hN⟩ (1 : Fin 2) * 512 ≤ (i 1).val ∧ (i 1).val < win1_6.index ⟨(i 0).val / 512 * 16 + (i 1).val / 512 * 4 + 3, hN⟩ (1 : Fin 2) * 512 + 512
    rw [e1]; show ((i 0).val / 512 * 16 + (i 1).val / 512 * 4 + 3) / 4 % 4 * 512 ≤ (i 1).val ∧ (i 1).val < ((i 0).val / 512 * 16 + (i 1).val / 512 * 4 + 3) / 4 % 4 * 512 + 512; omega

end Cert.KernelIdeal.HandValue.R1

namespace Cert.KernelIdeal.HandValue

open Cert.KernelIdeal Cert.KernelIdeal.Gen Cert.KernelIdeal.Hand
open Idealize.ShloMosaic Idealize.ShloMosaic.TcCoe

/-- After the region the output array of window 4 holds the whole product q = a · w_q. -/
theorem final1_4 (V : (c : Dev nD) → (b : Ref sig .tc) → Buf (Elt Ideal) ((c : Thread nD τ).loc b)) (c : Dev nD) :
    (dat1 (F := Ideal) V c).arrAt 4 cfg1.N = Cert.Spec.mm (V c main_v0) (V c main_arg2) :=
  (dat1 (F := Ideal) V c).arrAt_eq_of_cover 4 (Cert.Spec.mm (V c main_v0) (V c main_arg2)) (fun t hf => R1.flushed1_4_eq V c t hf) R1.cover1_4

/-- After the region the output array of window 5 holds the whole product k = a · w_k. -/
theorem final1_5 (V : (c : Dev nD) → (b : Ref sig .tc) → Buf (Elt Ideal) ((c : Thread nD τ).loc b)) (c : Dev nD) :
    (dat1 (F := Ideal) V c).arrAt 5 cfg1.N = Cert.Spec.mm (V c main_v0) (V c main_arg3) :=
  (dat1 (F := Ideal) V c).arrAt_eq_of_cover 5 (Cert.Spec.mm (V c main_v0) (V c main_arg3)) (fun t hf => R1.flushed1_5_eq V c t hf) R1.cover1_5

/-- After the region the output array of window 6 holds the whole product v = a · w_v. -/
theorem final1_6 (V : (c : Dev nD) → (b : Ref sig .tc) → Buf (Elt Ideal) ((c : Thread nD τ).loc b)) (c : Dev nD) :
    (dat1 (F := Ideal) V c).arrAt 6 cfg1.N = Cert.Spec.mm (V c main_v0) (V c main_arg4) :=
  (dat1 (F := Ideal) V c).arrAt_eq_of_cover 6 (Cert.Spec.mm (V c main_v0) (V c main_arg4)) (fun t hf => R1.flushed1_6_eq V c t hf) R1.cover1_6

end Cert.KernelIdeal.HandValue

end
-- ==== Proof.Ideal.R2ValBody.lean ====
/- Region 2 (kᵀ·q), the body's arithmetic read back: what each of the three cases leaves in the accumulator and
   in the output block as ONE term of the point's two input blocks and of what the accumulator held — the
   accumulator plus the block product, from zeros at a first block —, that term on the extended reals at an
   index (the accumulator's entry plus the sum over the block's 1024 rows of the products), and the whole
   product kᵀ·q at an index as the sum over the eight row blocks of those block sums. -/
import proofs.«169802_j68702296867381_2_alg».proof.Proof.Ideal.R2Frame
import proofs.«169802_j68702296867381_2_alg».proof.Proof.Spec
import proofs.«169802_j68702296867381_2_alg».proof.Proof.LibBlockSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

section AnyFloat

variable {F : FTy → Type} [FloatOps F]

theorem hz2 : (![0, 0] : Fin 2 → Nat) = fun _ => 0 := funext fun a => by fin_cases a <;> rfl

/-- A first block leaves, in the accumulator, the zero block plus the block product. -/
theorem soutA_eq (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : cond2_0 i) (hc1 : ¬cond2_1 i) (x0 x1 : Vec F S1024x256 .f32) :
    sout2_A_0 c i arg3 harg3 arg4 harg4 arg5 harg5 arg6 harg6 hc0 hc1 x0 x1 = k2_pay2 (k2_pay1 (F := F)) x0 x1 := by
  unfold sout2_A_0
  rw [View.read_writes_eq_canon _ _ _ (scover2_A_0 c i arg3 harg3 arg4 harg4 arg5 harg5 arg6 harg6 hc0 hc1 x0 x1)]
  unfold kernelRun2_A
  dsimp only
  try sl_unfold_words
  rw [View.canon_cons_unit_zero (S := S256x256) hz2, View.readCov_unit_zero (S := S256x256) _ hz2]
  simp only [View.readAt_eq_ld, harg3.read_unread, harg4.read_unread, View.ld_unit_zero (S := S1024x256) hz2]

/-- A middle block leaves, in the accumulator, what it held plus the block product. -/
theorem soutB_eq (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : ¬cond2_1 i) (x0 x1 : Vec F S1024x256 .f32) (xs0 : Vec F S256x256 .f32) :
    sout2_B_0 c i arg3 harg3 arg4 harg4 arg5 harg5 arg6 harg6 hc0 hc1 x0 x1 xs0 = k2_pay2 xs0 x0 x1 := by
  unfold sout2_B_0
  rw [View.read_writes_eq_canon _ _ _ (scover2_B_0 c i arg3 harg3 arg4 harg4 arg5 harg5 arg6 harg6 hc0 hc1 x0 x1 xs0)]
  unfold kernelRun2_B
  dsimp only
  try sl_unfold_words
  rw [View.canon_unit_zero (S := S256x256) hz2]
  simp only [View.readAt_eq_ld, harg3.read_unread, harg4.read_unread, harg6.read_unread, View.ld_unit_zero (S := S1024x256) hz2, View.ld_unit_zero (S := S256x256) hz2]

/-- A last block leaves the same in the accumulator, -/
theorem soutC_eq (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 x1 : Vec F S1024x256 .f32) (xs0 : Vec F S256x256 .f32) :
    sout2_C_0 c i arg3 harg3 arg4 harg4 arg5 harg5 arg6 harg6 hc0 hc1 x0 x1 xs0 = k2_pay2 xs0 x0 x1 := by
  unfold sout2_C_0
  rw [View.read_writes_eq_canon _ _ _ (scover2_C_0 c i arg3 harg3 arg4 harg4 arg5 harg5 arg6 harg6 hc0 hc1 x0 x1 xs0)]
  unfold kernelRun2_C
  dsimp only
  try sl_unfold_words
  rw [View.canon_unit_zero (S := S256x256) hz2]
  simp only [View.readAt_eq_ld, harg3.read_unread, harg4.read_unread, harg6.read_unread, View.ld_unit_zero (S := S1024x256) hz2, View.ld_unit_zero (S := S256x256) hz2]

/-- and stores that same block into the output. -/
theorem outC_eq (c : Dev nD) (i : grid2.Coords) (arg3 : Memref sig .tc .vmem S1024x256 .f32) (harg3 : arg3.IsWhole) (arg4 : Memref sig .tc .vmem S1024x256 .f32) (harg4 : arg4.IsWhole) (arg5 : Memref sig .tc .vmem S256x256 .f32) (harg5 : arg5.IsWhole) (arg6 : Memref sig .tc .vmem S256x256 .f32) (harg6 : arg6.IsWhole) (hc0 : ¬cond2_0 i) (hc1 : cond2_1 i) (x0 x1 : Vec F S1024x256 .f32) (xs0 : Vec F S256x256 .f32) :
    out2_C_2 c i arg3 harg3 arg4 harg4 arg5 harg5 arg6 harg6 hc0 hc1 x0 x1 xs0 = k2_pay2 xs0 x0 x1 := by
  unfold out2_C_2
  rw [View.read_writes_eq_canon _ _ _ (cover2_C_2 c i arg3 harg3 arg4 harg4 arg5 harg5 arg6 harg6 hc0 hc1 x0 x1 xs0)]
  unfold kernelRun2_C
  dsimp only
  try sl_unfold_words
  rw [View.canon_unit_zero (S := S256x256) hz2, View.readCov_unit_zero (S := S256x256) _ hz2]
  simp only [View.readAt_eq_ld, harg3.read_unread, harg4.read_unread, harg6.read_unread, View.ld_unit_zero (S := S1024x256) hz2, View.ld_unit_zero (S := S256x256) hz2]

end AnyFloat

/-! ## The body's arithmetic on the extended reals -/

/-- The zero block is zero at every entry. -/
theorem pay1_apply (a b : Fin 256) : k2_pay1 (F := Ideal) (ix2 a b) = 0 := by
  unfold k2_pay1
  simp only [shapeCast_self]
  show Ideal.ofBits .f32 0x00000000#32 = 0
  exact Ideal.ofBits_zero_f32

/-- The dot's operand indices on the axes it does not contract: the first operand's column is the output's row, -/
theorem lhs2_1 (j : S256x256.Idx) (q : dot_S1024x256_S1024x256_S256x256_0_0_1_1_n_n.contr.Idx) : (dot_S1024x256_S1024x256_S256x256_0_0_1_1_n_n.lhsIdx j q 1).val = (j 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
/-- the second operand's column is the output's column. -/
theorem rhs2_1 (j : S256x256.Idx) (q : dot_S1024x256_S1024x256_S256x256_0_0_1_1_n_n.contr.Idx) : (dot_S1024x256_S1024x256_S256x256_0_0_1_1_n_n.rhsIdx j q 1).val = (j 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- The product of the transposed first block with the second, contracted over the blocks' 1024 rows, at entry (a, b). -/
theorem blockProduct_apply (x0 x1 : FVec Ideal S1024x256 .f32) (a b : Fin 256) :
    (FloatOps.matmul (F := Ideal) dot_S1024x256_S1024x256_S256x256_0_0_1_1_n_n (some .fp32) x0 x1 (constant S256x256 .f32 0x00000000#32) : FVec Ideal S256x256 .f32) (ix2 a b)
      = ∑ r : Fin 1024, x0 (ix2 r a) * x1 (ix2 r b) := by
  rw [Ideal.matmul_constant_zero_apply, ← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 a b) ((contrEquiv1 dot_S1024x256_S1024x256_S256x256_0_0_1_1_n_n 1024 rfl rfl).symm k) = ix2 k a := funext fun d => Fin.ext (by
    match d with
    | ⟨0, _⟩ => exact (dot_S1024x256_S1024x256_S256x256_0_0_1_1_n_n.lhsIdx_val_of_single rfl _ _).trans hk
    | ⟨1, _⟩ => exact lhs2_1 _ _)
  have er : dot_S1024x256_S1024x256_S256x256_0_0_1_1_n_n.rhsIdx (ix2 a b) ((contrEquiv1 dot_S1024x256_S1024x256_S256x256_0_0_1_1_n_n 1024 rfl rfl).symm k) = ix2 k b := funext fun d => Fin.ext (by
    match d with
    | ⟨0, _⟩ => exact (dot_S1024x256_S1024x256_S256x256_0_0_1_1_n_n.rhsIdx_val_of_single rfl _ _).trans hk
    | ⟨1, _⟩ => exact rhs2_1 _ _)
  rw [el, er]

/-- The stored block at entry (a, b): the accumulator's entry plus the block product's. -/
theorem pay2_apply (xs : Vec Ideal S256x256 .f32) (x0 x1 : Vec Ideal S1024x256 .f32) (a b : Fin 256) :
    k2_pay2 (F := Ideal) xs x0 x1 (ix2 a b) = xs (ix2 a b) + ∑ r : Fin 1024, x0 (ix2 r a) * x1 (ix2 r b) := by
  unfold k2_pay2
  simp only [shapeCast_self]
  exact congrArg (xs (ix2 a b) + ·) (blockProduct_apply x0 x1 a b)

/-! ## The whole product as a sum over the eight row blocks -/

/-- A matrix of 8192 × 2048 read at natural coordinates (zero outside its extents). -/
def at2 (K : Cert.Spec.SA.Idx → EReal) (p q : ℕ) : EReal :=
  if h : p < 8192 ∧ q < 2048 then K (ix2 (n0 := 8192) (n1 := 2048) ⟨p, h.1⟩ ⟨q, h.2⟩) else 0

theorem at2_ix2 (K : Cert.Spec.SA.Idx → EReal) (n : Fin 8192) (a : Fin 2048) : K (ix2 n a) = at2 K n.val a.val := by
  unfold at2; rw [dif_pos ⟨n.isLt, a.isLt⟩]

/-- The blocks' partial sums: over the first `m` row blocks, the products of column `p` of `K` and column `q` of `Q`. -/
def psum (K Q : Cert.Spec.SA.Idx → EReal) (p q m : ℕ) : EReal :=
  ∑ j ∈ Finset.range m, ∑ r : Fin 1024, at2 K (j * 1024 + r.val) p * at2 Q (j * 1024 + r.val) q

/-- The product kᵀ·q at an entry is the sum over all eight row blocks. -/
theorem tmm_eq_psum (K Q : Cert.Spec.SA.Idx → EReal) (i : Cert.Spec.SW.Idx) (p q : ℕ) (hp : (i 0).val = p) (hq : (i 1).val = q) :
    Cert.Spec.tmm K Q i = psum K Q p q 8 := by
  subst hp hq
  unfold Cert.Spec.tmm psum
  refine (Finset.sum_congr rfl fun n _ => ?_).trans (Cert.LibBlockSum.sum_fin_blocks_range 8 1024 (fun n => at2 K n (i 0).val * at2 Q n (i 1).val))
  rw [at2_ix2 K n (i 0), at2_ix2 Q n (i 1)]

/-- One more row block: a stored block whose accumulator entry is the sum over the first `j` row blocks and whose
    input blocks are row block `j` of the two matrices holds the sum over the first `j + 1`. -/
theorem acc_step (xs : Vec Ideal S256x256 .f32) (x0 x1 : Vec Ideal S1024x256 .f32) (K Q : Cert.Spec.SA.Idx → EReal)
    (p q j m : ℕ) (a b : Fin 256) (hm : m = j + 1)
    (hx0 : ∀ r : Fin 1024, x0 (ix2 r a) = at2 K (j * 1024 + r.val) p)
    (hx1 : ∀ r : Fin 1024, x1 (ix2 r b) = at2 Q (j * 1024 + r.val) q)
    (hxs : xs (ix2 a b) = psum K Q p q j) :
    k2_pay2 (F := Ideal) xs x0 x1 (ix2 a b) = psum K Q p q m := by
  subst hm
  rw [pay2_apply, hxs]
  unfold psum
  rw [Finset.sum_range_succ]
  exact congrArg (_ + ·) (Finset.sum_congr rfl fun r _ => by rw [hx0 r, hx1 r])

/-- The first row block: from the zero block. -/
theorem acc_first (x0 x1 : Vec Ideal S1024x256 .f32) (K Q : Cert.Spec.SA.Idx → EReal)
    (p q j m : ℕ) (a b : Fin 256) (hj : j = 0) (hm : m = 1)
    (hx0 : ∀ r : Fin 1024, x0 (ix2 r a) = at2 K (j * 1024 + r.val) p)
    (hx1 : ∀ r : Fin 1024, x1 (ix2 r b) = at2 Q (j * 1024 + r.val) q) :
    k2_pay2 (F := Ideal) (k2_pay1 (F := Ideal)) x0 x1 (ix2 a b) = psum K Q p q m :=
  acc_step _ x0 x1 K Q p q j m a b (by omega) hx0 hx1 (by
    subst hj
    rw [pay1_apply]
    unfold psum
    rw [Finset.sum_range_zero])

end Cert.KernelIdeal.HandValue

end
-- ==== Proof.Ideal.R2Value.lean ====
/- Region 2 (kᵀ·q), from blocks to the array: at grid point (i₀, i₁, k) the two input windows hold row block k of
   columns 256·i₀ … of the first matrix and of columns 256·i₁ … of the second; the accumulator after that point is
   the sum over row blocks 0 … k of the products (by induction on the point: a point with k = 0 starts from zero,
   every other adds its block to what the point before left); the points with k = 7 write the accumulator back,
   their 64 blocks tile the 2048 × 2048 result, so the result array ends holding the whole product. -/
import proofs.«169802_j68702296867381_2_alg».proof.Proof.Ideal.R2ValBody

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The two matrices as the region finds them. -/
abbrev K2 (c : Dev nD) : Cert.Spec.SA.Idx → EReal := V c main_v1_1
abbrev Q2 (c : Dev nD) : Cert.Spec.SA.Idx → EReal := V c main_v1_0

/-- The windows' block indices at every grid point, decided over the grid: the inputs' row block is the innermost
    coordinate, their column blocks the outer two coordinates, which are also the output's block. -/
theorem idx2_facts : ∀ t : Fin cfg2.N, win2_0.index t (0 : Fin 2) = t.val % 8 ∧ win2_0.index t (1 : Fin 2) = t.val / 64
    ∧ win2_1.index t (0 : Fin 2) = t.val % 8 ∧ win2_1.index t (1 : Fin 2) = t.val / 8 % 8
    ∧ win2_2.index t (0 : Fin 2) = t.val / 64 ∧ win2_2.index t (1 : Fin 2) = t.val / 8 % 8 :=
  (by decide +kernel : ∀ t : Fin grid2.N, _)

/-- The first input's block at point `t`, entry (r, a): row `1024·k + r`, column `256·i₀ + a` of the first matrix. -/
theorem iblk2_0_apply (c : Dev nD) (t : Fin cfg2.N) (r : Fin 1024) (a : Fin 256) :
    (iblk2 V c 0 t : Vec Ideal S1024x256 .f32) (ix2 r a) = at2 (K2 V c) (t.val % 8 * 1024 + r.val) (t.val / 64 * 256 + a.val) := by
  obtain ⟨e0, e1, -, -, -, -⟩ := idx2_facts t
  have hN : t.val < 512 := lt_of_lt_of_eq t.isLt N_2
  have hp : t.val % 8 * 1024 + r.val < 8192 := by have := r.isLt; omega
  have hq : t.val / 64 * 256 + a.val < 2048 := by have := a.isLt; omega
  unfold iblk2 at2
  rw [View.read_apply, dif_pos ⟨hp, hq⟩]
  show V c main_v1_1 _ = V c main_v1_1 _
  congr 1
  funext d
  apply Fin.ext
  match d with
  | ⟨0, _⟩ => show win2_0.index t 0 * 1024 + 1 * r.val = t.val % 8 * 1024 + r.val; rw [e0]; omega
  | ⟨1, _⟩ => show win2_0.index t 1 * 256 + 1 * a.val = t.val / 64 * 256 + a.val; rw [e1]; omega

/-- The second input's block at point `t`, entry (r, b): row `1024·k + r`, column `256·i₁ + b` of the second matrix. -/
theorem iblk2_1_apply (c : Dev nD) (t : Fin cfg2.N) (r : Fin 1024) (b : Fin 256) :
    (iblk2 V c 1 t : Vec Ideal S1024x256 .f32) (ix2 r b) = at2 (Q2 V c) (t.val % 8 * 1024 + r.val) (t.val / 8 % 8 * 256 + b.val) := by
  obtain ⟨-, -, e2, e3, -, -⟩ := idx2_facts t
  have hN : t.val < 512 := lt_of_lt_of_eq t.isLt N_2
  have hp : t.val % 8 * 1024 + r.val < 8192 := by have := r.isLt; omega
  have hq : t.val / 8 % 8 * 256 + b.val < 2048 := by have := b.isLt; omega
  unfold iblk2 at2
  rw [View.read_apply, dif_pos ⟨hp, hq⟩]
  show V c main_v1_0 _ = V c main_v1_0 _
  congr 1
  funext d
  apply Fin.ext
  match d with
  | ⟨0, _⟩ => show win2_1.index t 0 * 1024 + 1 * r.val = t.val % 8 * 1024 + r.val; rw [e2]; omega
  | ⟨1, _⟩ => show win2_1.index t 1 * 256 + 1 * b.val = t.val / 8 % 8 * 256 + b.val; rw [e3]; omega

/-- THE ACCUMULATION: after point `n` = (i₀, i₁, k) the accumulator's entry (a, b) is the sum over row blocks 0 … k of the
    products of column `256·i₀ + a` of the first matrix with column `256·i₁ + b` of the second. -/
theorem acc2_eq (c : Dev nD) : ∀ (n : ℕ) (h : n < cfg2.N) (a b : Fin 256),
    (outsAt2 V c n h).2 (ix2 a b) = psum (K2 V c) (Q2 V c) (n / 64 * 256 + a.val) (n / 8 % 8 * 256 + b.val) (n % 8 + 1)
  | 0, h, a, b => by
    rw [outsAt2_A V c ⟨0, h⟩ rfl (by dsimp only; omega)]
    dsimp only
    rw [soutA_eq]
    exact acc_first _ _ (K2 V c) (Q2 V c) _ _ ((⟨0, h⟩ : Fin cfg2.N).val % 8) _ a b rfl rfl
      (fun r => iblk2_0_apply V c ⟨0, h⟩ r a) (fun r => iblk2_1_apply V c ⟨0, h⟩ r b)
  | n + 1, h, a, b => by
    have hN : n + 1 < 512 := lt_of_lt_of_eq h N_2
    by_cases h0 : (n + 1) % 8 = 0
    · have h1 : ¬(n + 1) % 8 = 7 := by omega
      rw [outsAt2_A V c ⟨n + 1, h⟩ h0 h1]
      dsimp only
      rw [soutA_eq]
      exact acc_first _ _ (K2 V c) (Q2 V c) _ _ ((n + 1) % 8) _ a b h0 (by omega)
        (fun r => iblk2_0_apply V c ⟨n + 1, h⟩ r a) (fun r => iblk2_1_apply V c ⟨n + 1, h⟩ r b)
    · have ih := acc2_eq c n (Nat.lt_of_succ_lt h) a b
      by_cases h1 : (n + 1) % 8 = 7
      · rw [outsAt2_C V c ⟨n + 1, h⟩ h0 h1]
        dsimp only
        rw [soutC_eq]
        refine acc_step _ _ _ (K2 V c) (Q2 V c) _ _ ((n + 1) % 8) _ a b rfl
          (fun r => iblk2_0_apply V c ⟨n + 1, h⟩ r a) (fun r => iblk2_1_apply V c ⟨n + 1, h⟩ r b) ?_
        show (outsAt2 V c n _).2 (ix2 a b) = _
        rw [ih]; congr 1 <;> omega
      · rw [outsAt2_B V c ⟨n + 1, h⟩ h0 h1]
        dsimp only
        rw [soutB_eq]
        refine acc_step _ _ _ (K2 V c) (Q2 V c) _ _ ((n + 1) % 8) _ a b rfl
          (fun r => iblk2_0_apply V c ⟨n + 1, h⟩ r a) (fun r => iblk2_1_apply V c ⟨n + 1, h⟩ r b) ?_
        show (outsAt2 V c n _).2 (ix2 a b) = _
        rw [ih]; congr 1 <;> omega

/-- At a last row block the output's staging buffer is left holding what the accumulator is left holding. -/
theorem out2_eq_acc (c : Dev nD) (t : Fin cfg2.N) (h0 : ¬t.val % 8 = 0) (h7 : t.val % 8 = 7) :
    (outsAt2 V c t.val t.isLt).1 = (outsAt2 V c t.val t.isLt).2 := by
  rw [outsAt2_C V c t h0 h7]
  dsimp only
  rw [outC_eq, soutC_eq]

/-- WHAT A WRITING POINT WRITES BACK is its block of the whole product. -/
theorem flushed2_eq (c : Dev nD) (t : Fin cfg2.N) (hf : (cfg2.win 2).flush t = true) :
    (dat2 V c).flushed 2 t = ((cfg2.win 2).blk t).view.read (Elt Ideal) (Cert.Spec.tmm (K2 V c) (Q2 V c)) := by
  have h7 : t.val % 8 = 7 := (flush2_2 t).mp hf
  have h0 : ¬t.val % 8 = 0 := by omega
  obtain ⟨-, -, -, -, e4, e5⟩ := idx2_facts t
  show (cfg2.win 2).cut (grid2.coords t) ((dat2 V c).after 2 t) = _
  rw [after2_2, out2_eq_acc V c t h0 h7]
  funext y
  obtain ⟨a, b, rfl⟩ : ∃ (a b : Fin 256), y = ix2 a b := ⟨y 0, y 1, eq_ix2 y⟩
  show (outsAt2 V c t.val t.isLt).2 (ix2 a b) = Cert.Spec.tmm (K2 V c) (Q2 V c) (((cfg2.win 2).blk t).view.emb (ix2 a b))
  rw [acc2_eq V c t.val t.isLt a b, h7]
  exact (tmm_eq_psum (K2 V c) (Q2 V c) _ _ _
    (by show win2_2.index t 0 * 256 + 1 * a.val = _; rw [e4]; omega)
    (by show win2_2.index t 1 * 256 + 1 * b.val = _; rw [e5]; omega)).symm

/-- Every entry of the result lies in the block of a writing point: the point (i₀, i₁, 7) of its block (i₀, i₁). -/
theorem cover2 (i : Cert.Spec.SW.Idx) :
    ∃ t : Fin cfg2.N, (cfg2.win 2).flush t = true ∧ i ∈ ((cfg2.win 2).blk t).view.set := by
  have hi0 : (i 0).val < 2048 := (i 0).isLt
  have hi1 : (i 1).val < 2048 := (i 1).isLt
  have hN : cfg2.N = 512 := N_2
  let t : Fin cfg2.N := ⟨(i 0).val / 256 * 64 + (i 1).val / 256 * 8 + 7, by rw [hN]; omega⟩
  have ht : t.val = (i 0).val / 256 * 64 + (i 1).val / 256 * 8 + 7 := rfl
  obtain ⟨-, -, -, -, e4, e5⟩ := idx2_facts t
  refine ⟨t, (flush2_2 t).mpr (by rw [ht]; omega), ?_⟩
  show i ∈ ((View.whole main_v2).slice (win2_2.rect t)).set
  rw [View.set_slice_whole, Rect.mem_set_unit]
  intro d
  match d with
  | ⟨0, _⟩ =>
    show win2_2.index t 0 * 256 ≤ (i 0).val ∧ (i 0).val < win2_2.index t 0 * 256 + 256
    rw [e4, ht]; omega
  | ⟨1, _⟩ =>
    show win2_2.index t 1 * 256 ≤ (i 1).val ∧ (i 1).val < win2_2.index t 1 * 256 + 256
    rw [e5, ht]; omega

/-- THE RESULT: after the region the result array holds the product of the transposed first matrix with the second. -/
theorem final2_2 (c : Dev nD) :
    (dat2 (F := Ideal) V c).arrAt 2 cfg2.N = Cert.Spec.tmm (V c main_v1_1) (V c main_v1_0) :=
  (dat2 V c).arrAt_eq_of_cover 2 (Cert.Spec.tmm (K2 V c) (Q2 V c)) (fun t hf => flushed2_eq V c t hf) (fun i => cover2 i)

end Cert.KernelIdeal.HandValue

end
-- ==== Proof.SpecSoftmax.lean ====
/-
  The row softmax on the extended reals, as both programs compute it: for each row the maximum `m` of its entries
  (a fold of `max` from `-∞`), the exponentials `e k = exp (x k - m)` of the entries shifted by it, their sum `s`,
  and the quotients `e k / s`.  Exponential and quotient are the extended reals' (`exp (-∞) = 0`, a quotient by
  zero an infinity): nothing is assumed finite.  A row's result depends on that row alone, so the softmax of a band
  of rows is the same band of the softmax of the whole matrix (`smaxRows_band`).
-/
import proofs.«169802_j68702296867381_2_alg».proof.Proof.Spec

noncomputable section

namespace Cert.Spec

open Idealize.ShloMosaic Idealize.ShloMosaic.ValueIdx

section Rows

variable {n : Nat}

/-- The maximum of row `r` of a matrix with 2048 columns: the fold of `max` from `-∞` over the row's entries. -/
def rowMax (X : (⟨2, ![n, 2048]⟩ : Shape).Idx → EReal) (r : Fin n) : EReal :=
  (Finset.univ : Finset (Fin 2048)).fold max ⊥ (fun k => X (ix2 (n0 := n) (n1 := 2048) r k))

/-- Entry `k` of row `r`, shifted by the row's maximum and exponentiated. -/
def rowExp (X : (⟨2, ![n, 2048]⟩ : Shape).Idx → EReal) (r : Fin n) (k : Fin 2048) : EReal :=
  Ideal.exp (X (ix2 (n0 := n) (n1 := 2048) r k) - rowMax X r)

/-- The sum of row `r`'s shifted exponentials. -/
def rowSum (X : (⟨2, ![n, 2048]⟩ : Shape).Idx → EReal) (r : Fin n) : EReal :=
  ∑ k : Fin 2048, rowExp X r k

/-- The row softmax of a matrix of `n` rows and 2048 columns. -/
def smaxRows (X : (⟨2, ![n, 2048]⟩ : Shape).Idx → EReal) : (⟨2, ![n, 2048]⟩ : Shape).Idx → EReal :=
  fun i => Ideal.div (rowExp X (i 0) (i 1)) (rowSum X (i 0))

/-- At coordinates `(r, q)`: the shifted exponential of the entry over the row's sum. -/
theorem smaxRows_ix2 (X : (⟨2, ![n, 2048]⟩ : Shape).Idx → EReal) (r : Fin n) (q : Fin 2048) :
    smaxRows X (ix2 (n0 := n) (n1 := 2048) r q) = Ideal.div (rowExp X r q) (rowSum X r) := rfl

end Rows

/-- A row's softmax reads that row only: if row `p` of `Y` is row `r` of `X`, the softmax of `Y` on row `p` is
    that of `X` on row `r`. -/
theorem smaxRows_band {n n' : Nat} (X : (⟨2, ![n, 2048]⟩ : Shape).Idx → EReal) (Y : (⟨2, ![n', 2048]⟩ : Shape).Idx → EReal)
    (p : Fin n') (r : Fin n) (h : ∀ k : Fin 2048, Y (ix2 (n0 := n') (n1 := 2048) p k) = X (ix2 (n0 := n) (n1 := 2048) r k))
    (q : Fin 2048) :
    smaxRows Y (ix2 (n0 := n') (n1 := 2048) p q) = smaxRows X (ix2 (n0 := n) (n1 := 2048) r q) := by
  have hm : rowMax Y p = rowMax X r := by
    unfold rowMax; exact congrArg (fun f => Finset.fold max ⊥ f Finset.univ) (funext h)
  have he : ∀ k, rowExp Y p k = rowExp X r k := fun k => by unfold rowExp; rw [h k, hm]
  have hs : rowSum Y p = rowSum X r := by
    unfold rowSum; exact Finset.sum_congr rfl fun k _ => he k
  rw [smaxRows_ix2, smaxRows_ix2, he q, hs]

/-- The row softmax of the 2048 × 2048 matrix of feature scores. -/
def smax (X : SW.Idx → EReal) : SW.Idx → EReal := smaxRows (n := 2048) X

end Cert.Spec

end
-- ==== Proof.Ideal.R3Value.lean ====
/-
  The row-softmax region of the kernel: the value part, on the extended reals.  At each of the 8 grid points the body
  computes, on its block of 256 whole rows, the maximum of each row (a reduction from `-∞`), the exponentials of the
  entries shifted by it, their sum along the row, and the quotients; the change to the narrower output format is
  the identity here.  That is the row softmax of the block, and since a row's softmax reads that row only, it is the
  block of the row softmax of the whole 2048 × 2048 score matrix.  The 8 blocks tile the output array, so after the
  region the array holds the row softmax of the score matrix the region was entered with.
-/
import proofs.«169802_j68702296867381_2_alg».proof.Proof.Ideal.R3Frame
import proofs.«169802_j68702296867381_2_alg».proof.Proof.Spec
import proofs.«169802_j68702296867381_2_alg».proof.Proof.SpecSoftmax
import Idealize.ShloMosaic.Lib.Pipeline.Value
import Idealize.ShloMosaic.Lib.ValueIdx
import Idealize.ShloMosaic.PureOps.Ideal.Laws

set_option maxRecDepth 16384

noncomputable section

namespace Cert.KernelIdeal.HandValue.R3

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The word `0xFF800000` denotes `-∞`. -/
theorem ofBits_ninf : Ideal.ofBits .f32 0xFF800000#32 = ⊥ := by simp [Ideal.ofBits, Ideal.ieee]

/-- A vector of 256 row values, made a column and broadcast along the rows, reads at `(p, q)` the value of row `p`. -/
theorem column_apply (v : S256.Idx → EReal) (h1 : S256.ShapeCasts S256x1) (h2 : S256x1.Broadcasts S256x2048)
    (p : Fin 256) (q : Fin 2048) :
    broadcastTo S256x2048 (shapeCast S256x1 v h1) h2 (ix2 (n0 := 256) (n1 := 2048) p q) = v (ix1 (n := 256) p) := by
  refine (broadcastTo_apply _ h2 (ix2 (n0 := 256) (n1 := 2048) p q) (ix2 (n0 := 256) (n1 := 1) p 0) ?_).trans ?_
  · intro a
    match a with
    | ⟨0, _⟩ => show p.val = if (256 : Nat) = 1 then 0 else p.val; rw [if_neg (by decide)]
    | ⟨1, _⟩ => show 0 = if (1 : Nat) = 1 then 0 else q.val; rw [if_pos rfl]
  · refine shapeCast_apply v h1 (ix2 (n0 := 256) (n1 := 1) p 0) (ix1 (n := 256) p) ?_
    rw [Shape.rowMajor_val_one, Shape.rowMajor_val_two]
    show p.val = p.val * 1 + 0
    omega

/-- Row `p`'s index with column `k` inserted is `(p, k)`. -/
theorem lift_row (h : S256x2048.Reduces [1] S256) (p : Fin 256) (k : Fin 2048) :
    h.lift (ix1 (n := 256) p) k = ix2 (n0 := 256) (n1 := 2048) p k :=
  funext fun a => Fin.ext (by match a with | ⟨0, _⟩ => rfl | ⟨1, _⟩ => rfl)

/-- The maximum-reduction along the rows, at row `p`, is the fold of `max` from `-∞` over the row. -/
theorem rowmax_apply (x : FVec Ideal S256x2048 .f32) (h : S256x2048.Reduces [1] S256) (hφ : FKind.Formats .f32)
    (hacc : (0xFF800000#32 : BitVec 32) = FKind.maximumf.neutral .f32 hφ) (p : Fin 256) :
    multiReduction .maximumf [1] S256 x 0xFF800000#32 h hφ hacc (ix1 (n := 256) p) = Spec.rowMax (n := 256) x p := by
  refine (Ideal.multiReduction_maximumf_single x 0xFF800000#32 h hφ hacc (ix1 (n := 256) p)).trans ?_
  unfold Spec.rowMax
  rw [show FloatOps.ofBits (F := Ideal) .f32 0xFF800000#32 = (⊥ : EReal) from ofBits_ninf]
  exact congrArg (fun f => Finset.fold max ⊥ f Finset.univ) (funext fun k => congrArg x (lift_row h p k))

/-- The sum-reduction along the rows, at row `p`, is the sum over the row. -/
theorem rowsum_apply (x : FVec Ideal S256x2048 .f32) (h : S256x2048.Reduces [1] S256) (hφ : FKind.Formats .f32)
    (hacc : (0x00000000#32 : BitVec 32) = FKind.add.neutral .f32 hφ) (p : Fin 256) :
    multiReduction .add [1] S256 x 0x00000000#32 h hφ hacc (ix1 (n := 256) p)
      = ∑ k : Fin 2048, x (ix2 (n0 := 256) (n1 := 2048) p k) :=
  (Ideal.multiReduction_add_single x 0x00000000#32 h hφ hacc (ix1 (n := 256) p)).trans
    (Finset.sum_congr rfl fun k _ => congrArg x (lift_row h p k))

/-- The entries shifted by a vector of row values and exponentiated, at `(p, k)`. -/
theorem shifted_apply (x0 : Vec Ideal S256x2048 .f32) (mx : FVec Ideal S256 .f32) (h1 : S256.ShapeCasts S256x1)
    (h2 : S256x1.Broadcasts S256x2048) (p : Fin 256) (k : Fin 2048) :
    Idealize.ShloMosaic.exp (F := Ideal) (subf (F := Ideal) x0 (broadcastTo S256x2048 (shapeCast S256x1 mx h1) h2))
        (ix2 (n0 := 256) (n1 := 2048) p k)
      = Ideal.exp (x0 (ix2 (n0 := 256) (n1 := 2048) p k) - mx (ix1 (n := 256) p)) :=
  congrArg (fun m => Ideal.exp (x0 (ix2 (n0 := 256) (n1 := 2048) p k) - m)) (column_apply mx h1 h2 p k)

/-- The body's arithmetic on a block of 256 rows is the row softmax of the block. -/
theorem pay_apply (x0 : Vec Ideal S256x2048 .f32) (p : Fin 256) (q : Fin 2048) :
    k3_pay1 (F := Ideal) x0 (ix2 (n0 := 256) (n1 := 2048) p q) = Spec.smaxRows (n := 256) x0 (ix2 (n0 := 256) (n1 := 2048) p q) := by
  unfold k3_pay1
  dsimp only
  rw [shapeCast_self]
  have hE : ∀ k : Fin 2048, _ = Spec.rowExp (n := 256) x0 p k := fun k =>
    (shifted_apply x0 _ shapeCasts_S256_S256x1 broadcasts_S256x1_S256x2048 p k).trans
      (congrArg (fun m => Ideal.exp (x0 (ix2 (n0 := 256) (n1 := 2048) p k) - m))
        (rowmax_apply x0 reduces_S256x2048_S256 k3_pay1._proof_2 k3_pay1._proof_3 p))
  rw [Spec.smaxRows_ix2]
  refine congrArg₂ Ideal.div (hE q) ?_
  refine (column_apply _ _ _ p q).trans ((rowsum_apply _ _ _ _ p).trans ?_)
  exact Finset.sum_congr rfl fun k _ => hE k

/-! ## From blocks to the array -/

theorem hz3 : (![0, 0] : Fin 2 → Nat) = fun _ => 0 := funext fun a => by fin_cases a <;> rfl

/-- At grid point `t` both windows are on block row `t`, block column `0`: rows `256 t … 256 t + 255`, all columns. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

theorem lt_N3 (t : Fin cfg3.N) : t.val < 8 := lt_of_lt_of_eq t.isLt N_3

variable (V : (c : Dev nD) → (b : Ref sig .tc) → Buf (Elt Ideal) ((c : Thread nD τ).loc b))

/-- What point `t` writes back is block `t` of the row softmax of the whole score matrix: the block holds whole rows,
    and a row's softmax reads that row only. -/
theorem flushed3_1_eq (c : Dev nD) (t : Fin cfg3.N) :
    (dat3 (F := Ideal) V c).flushed 1 t = ((cfg3.win 1).blk t).view.read (Elt Ideal) (Spec.smax (V c main_v2)) := by
  show (cfg3.win 1).cut (grid3.coords t) ((dat3 (F := Ideal) V c).after 1 t) = _
  rw [after3_1]
  unfold out3_1
  rw [View.canon_unit_zero hz3]
  simp only [View.ld_unit_zero (S := S256x2048) hz3]
  obtain ⟨e0, e1, e2, e3⟩ := idx_facts3 t
  have ht := lt_N3 t
  funext j
  obtain ⟨p, q, rfl⟩ : ∃ (p : Fin 256) (q : Fin 2048), j = ix2 (n0 := 256) (n1 := 2048) p q := ⟨j 0, j 1, eq_ix2 j⟩
  have hp : p.val < 256 := p.isLt
  have hq : q.val < 2048 := q.isLt
  show k3_pay1 (F := Ideal) (iblk3 V c 0 t) (ix2 (n0 := 256) (n1 := 2048) p q)
    = Spec.smax (V c main_v2) (((cfg3.win 1).blk t).view.emb (ix2 (n0 := 256) (n1 := 2048) p q))
  refine (pay_apply (iblk3 V c 0 t) p q).trans ?_
  have hr : t.val * 256 + p.val < 2048 := by omega
  have hout : ((cfg3.win 1).blk t).view.emb (ix2 (n0 := 256) (n1 := 2048) p q)
      = ix2 (n0 := 2048) (n1 := 2048) ⟨t.val * 256 + p.val, hr⟩ q := by
    funext a; apply Fin.ext
    match a with
    | ⟨0, _⟩ => show win3_1.index t (0 : Fin 2) * 256 + 1 * p.val = t.val * 256 + p.val; omega
    | ⟨1, _⟩ => show win3_1.index t (1 : Fin 2) * 2048 + 1 * q.val = q.val; omega
  rw [hout]
  unfold Spec.smax
  refine Spec.smaxRows_band (V c main_v2) (iblk3 V c 0 t) p ⟨t.val * 256 + p.val, hr⟩ (fun k => ?_) q
  show V c main_v2 (((cfg3.win 0).blk t).view.emb (ix2 (n0 := 256) (n1 := 2048) p k)) = _
  refine congrArg (V c main_v2) ?_
  funext a; apply Fin.ext
  have hk : k.val < 2048 := k.isLt
  match a with
  | ⟨0, _⟩ => show win3_0.index t (0 : Fin 2) * 256 + 1 * p.val = t.val * 256 + p.val; omega
  | ⟨1, _⟩ => show win3_0.index t (1 : Fin 2) * 2048 + 1 * k.val = k.val; omega

/-- An index of the array is in point `t`'s block iff each coordinate is in the block's range on its axis. -/
theorem mem_blk3 (t : Fin cfg3.N) (i : S2048x2048.Idx) :
    i ∈ ((cfg3.win 1).blk t).view.set ↔ ∀ a : Fin 2, win3_1.index t a * S256x2048.size a ≤ (i a).val ∧ (i a).val < win3_1.index t a * S256x2048.size a + S256x2048.size a := by
  show i ∈ ((View.whole main_v3).slice (win3_1.rect t)).set ↔ _
  rw [View.set_slice_whole, Rect.mem_set_unit]
  exact Iff.rfl

/-- Every row lies in the block of the point `row / 256`, and every point writes its block back. -/
theorem cover3 (i : S2048x2048.Idx) :
    ∃ t : Fin cfg3.N, (cfg3.win 1).flush t = true ∧ i ∈ ((cfg3.win 1).blk t).view.set := by
  have hi0 : (i 0).val < 2048 := idx2_lt0 i
  have hi1 : (i 1).val < 2048 := idx2_lt1 i
  have hN : (i 0).val / 256 < cfg3.N := lt_of_lt_of_eq (show (i 0).val / 256 < 8 by omega) N_3.symm
  refine ⟨⟨(i 0).val / 256, hN⟩, flush3_1 _, ?_⟩
  rw [mem_blk3]
  obtain ⟨e0, e1, e2, e3⟩ := idx_facts3 ⟨(i 0).val / 256, hN⟩
  intro a
  match a with
  | ⟨0, _⟩ =>
    show win3_1.index ⟨(i 0).val / 256, hN⟩ (0 : Fin 2) * 256 ≤ (i 0).val ∧ (i 0).val < win3_1.index ⟨(i 0).val / 256, hN⟩ (0 : Fin 2) * 256 + 256
    rw [e2]; show (i 0).val / 256 * 256 ≤ (i 0).val ∧ (i 0).val < (i 0).val / 256 * 256 + 256; omega
  | ⟨1, _⟩ =>
    show win3_1.index ⟨(i 0).val / 256, hN⟩ (1 : Fin 2) * 2048 ≤ (i 1).val ∧ (i 1).val < win3_1.index ⟨(i 0).val / 256, hN⟩ (1 : Fin 2) * 2048 + 2048
    rw [e3]; omega

end Cert.KernelIdeal.HandValue.R3

namespace Cert.KernelIdeal.HandValue

open Cert.KernelIdeal Cert.KernelIdeal.Gen Cert.KernelIdeal.Hand
open Idealize.ShloMosaic Idealize.ShloMosaic.TcCoe

/-- After the region the output array holds the row softmax of the score matrix the region was entered with. -/
theorem final3_1 (V : (c : Dev nD) → (b : Ref sig .tc) → Buf (Elt Ideal) ((c : Thread nD τ).loc b)) (c : Dev nD) :
    (dat3 (F := Ideal) V c).arrAt 1 cfg3.N = Cert.Spec.smax (V c main_v2) :=
  (dat3 (F := Ideal) V c).arrAt_eq_of_cover 1 (Cert.Spec.smax (V c main_v2)) (fun t _ => R3.flushed3_1_eq V c t) R3.cover3

end Cert.KernelIdeal.HandValue

end
-- ==== Proof.Ideal.R4Pieces.lean ====
/-
  Region 4: what each case's stores leave, as terms of the point's operand blocks and of the accumulator
  the point found.  Where the contraction block is the first the accumulator ends at the block product added
  to the zero vector; elsewhere at the block product added to what it held; and at the last contraction block
  the output's staging buffer receives that same sum.
-/
import proofs.«169802_j68702296867381_2_alg».proof.Proof.Ideal.R4Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body: zero on both axes. -/
theorem hz4 : (![0, 0] : Fin 2 → Nat) = fun _ => 0 := funext fun a => by fin_cases a <;> rfl

/-- First contraction block: the accumulator ends at the block product added to the zero vector. -/
theorem soutA4_eq (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : cond4_0 i) (hc1 : ¬cond4_1 i)
    (x0 : Vec F S1024x512 .bf16) (x1 : Vec F S512x1024 .bf16) :
    sout4_A_0 c i arg3 harg3 arg4 harg4 arg5 harg5 arg6 harg6 hc0 hc1 x0 x1 = k4_pay2 x0 x1 (k4_pay1 (F := F)) := by
  unfold sout4_A_0
  rw [View.read_writes_eq_canon _ _ _ (scover4_A_0 c i arg3 harg3 arg4 harg4 arg5 harg5 arg6 harg6 hc0 hc1 x0 x1)]
  unfold kernelRun4_A
  dsimp only
  try sl_unfold_words
  rw [View.canon_cons_unit_zero hz4]
  simp only [View.readAt_eq_ld, harg3.read_unread, harg4.read_unread, View.ld_unit_zero (S := S1024x512) hz4,
    View.ld_unit_zero (S := S512x1024) hz4, View.readCov_unit_zero (S := S1024x1024) _ hz4]

/-- A middle contraction block: the accumulator ends at the block product added to what it held. -/
theorem soutB4_eq (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : ¬cond4_1 i)
    (x0 : Vec F S1024x512 .bf16) (x1 : Vec F S512x1024 .bf16) (xs0 : Vec F S1024x1024 .f32) :
    sout4_B_0 c i arg3 harg3 arg4 harg4 arg5 harg5 arg6 harg6 hc0 hc1 x0 x1 xs0 = k4_pay2 x0 x1 xs0 := by
  unfold sout4_B_0
  rw [View.read_writes_eq_canon _ _ _ (scover4_B_0 c i arg3 harg3 arg4 harg4 arg5 harg5 arg6 harg6 hc0 hc1 x0 x1 xs0)]
  unfold kernelRun4_B
  dsimp only
  try sl_unfold_words
  rw [View.canon_unit_zero hz4]
  simp only [View.readAt_eq_ld, harg3.read_unread, harg4.read_unread, harg6.read_unread, View.ld_unit_zero (S := S1024x512) hz4,
    View.ld_unit_zero (S := S512x1024) hz4, View.ld_unit_zero (S := S1024x1024) hz4]

/-- The last contraction block: the accumulator ends at the block product added to what it held, -/
theorem soutC4_eq (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) :
    sout4_C_0 c i arg3 harg3 arg4 harg4 arg5 harg5 arg6 harg6 hc0 hc1 x0 x1 xs0 = k4_pay2 x0 x1 xs0 := by
  unfold sout4_C_0
  rw [View.read_writes_eq_canon _ _ _ (scover4_C_0 c i arg3 harg3 arg4 harg4 arg5 harg5 arg6 harg6 hc0 hc1 x0 x1 xs0)]
  unfold kernelRun4_C
  dsimp only
  try sl_unfold_words
  rw [View.canon_unit_zero hz4]
  simp only [View.readAt_eq_ld, harg3.read_unread, harg4.read_unread, harg6.read_unread, View.ld_unit_zero (S := S1024x512) hz4,
    View.ld_unit_zero (S := S512x1024) hz4, View.ld_unit_zero (S := S1024x1024) hz4]

/-- and the output's staging buffer receives the same. -/
theorem outC4_eq (c : Dev nD) (i : grid4.Coords) (arg3 : Memref sig .tc .vmem S1024x512 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond4_0 i) (hc1 : cond4_1 i)
    (x0 : Vec F S1024x512 .bf16) (x1 : Vec F S512x1024 .bf16) (xs0 : Vec F S1024x1024 .f32) :
    out4_C_2 c i arg3 harg3 arg4 harg4 arg5 harg5 arg6 harg6 hc0 hc1 x0 x1 xs0 = k4_pay2 x0 x1 xs0 := by
  unfold out4_C_2
  rw [View.read_writes_eq_canon _ _ _ (cover4_C_2 c i arg3 harg3 arg4 harg4 arg5 harg5 arg6 harg6 hc0 hc1 x0 x1 xs0)]
  unfold kernelRun4_C
  dsimp only
  try sl_unfold_words
  rw [View.canon_unit_zero hz4, View.readCov_unit_zero (S := S1024x1024) _ hz4]
  simp only [View.readAt_eq_ld, harg3.read_unread, harg4.read_unread, harg6.read_unread, View.ld_unit_zero (S := S1024x512) hz4,
    View.ld_unit_zero (S := S512x1024) hz4, View.ld_unit_zero (S := S1024x1024) hz4]

end Cert.KernelIdeal.Hand

end
-- ==== Proof.Ideal.R4Payload.lean ====
/-
  Region 4 on the extended reals: the two stored values of the body read at one index.  The zero vector reads
  zero everywhere; the accumulation step reads, at row p and column q, what the accumulator held there plus the
  sum over the 512 contraction indices k of (left block at (p, k)) · (right block at (k, q)).  The casts to the
  same shape are the identity, the matrix unit's product into the zero accumulator is that plain sum.
-/
import proofs.«169802_j68702296867381_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.HandValue.R4

open Cert.KernelIdeal Cert.KernelIdeal.Gen
open Idealize.ShloMosaic Idealize.ShloMosaic.TcCoe Idealize.ShloMosaic.ValueIdx Idealize.SL.Sem

/-- The zero vector at an index. -/
theorem pay1_apply (j : S1024x1024.Idx) : (k4_pay1 (F := Ideal)) j = 0 := by
  unfold k4_pay1
  exact (congrFun (shapeCast_self _ _) j).trans Ideal.ofBits_zero_f32

/-- The left operand's index of the block product at output index `i` and contraction index `q`: row of `i`, -/
theorem lhs4_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- column `q`; -/
theorem lhs4_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand's: row `q`, -/
theorem rhs4_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- column of `i`. -/
theorem rhs4_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product at row `p`, column `q`: the sum over the block's 512 contraction indices. -/
theorem blockprod_apply (x0 : FVec Ideal S1024x512 .bf16) (x1 : FVec Ideal S512x1024 .bf16) (p q : Fin 1024) :
    FloatOps.matmul dot_S1024x512_S512x1024_S1024x1024_1_0_0_1_n_n none x0 x1 (constant (F := Ideal) S1024x1024 .f32 0x00000000#32) (ix2 p q)
      = ∑ k : Fin 512, x0 (ix2 p k) * x1 (ix2 k q) := by
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs4_0 _ _
    | ⟨1, _⟩ => exact (lhs4_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-- The accumulation step at row `p`, column `q`. -/
theorem pay2_apply (x0 : FVec Ideal S1024x512 .bf16) (x1 : FVec Ideal S512x1024 .bf16) (xs : FVec Ideal S1024x1024 .f32) (p q : Fin 1024) :
    k4_pay2 x0 x1 xs (ix2 p q) = xs (ix2 p q) + ∑ k : Fin 512, x0 (ix2 p k) * x1 (ix2 k q) := by
  unfold k4_pay2
  refine (congrFun (shapeCast_self _ _) (ix2 p q)).trans ?_
  refine congrArg (xs (ix2 p q) + ·) ?_
  refine Eq.trans ?_ (blockprod_apply x0 x1 p q)
  exact congrFun (congrArg₂ (fun a b => FloatOps.matmul dot_S1024x512_S512x1024_S1024x1024_1_0_0_1_n_n none a b (constant (F := Ideal) S1024x1024 .f32 0x00000000#32)) (shapeCast_self _ _) (shapeCast_self _ _)) (ix2 p q)

end Cert.KernelIdeal.HandValue.R4

end
-- ==== Proof.Ideal.R4Acc.lean ====
/-
  Region 4 on the extended reals: the accumulation.  The grid point number n names the row block n / 8, the
  column block n / 4 mod 2 and the contraction block n mod 4.  The left operand's block at that point is rows
  1024·(n / 8) … of columns 512·(n mod 4) … of the value array, the right operand's is rows 512·(n mod 4) … of
  columns 1024·(n / 4 mod 2) … of the score array.  After the body at point n the accumulator holds, at row p
  and column q, the sum over the contraction blocks 0 … n mod 4 of the 512 products of each block; after the last
  contraction block that is the whole sum over the 2048 contraction indices, and the output's staging buffer
  holds the same.
-/
import proofs.«169802_j68702296867381_2_alg».proof.Proof.Ideal.R4Pieces
import proofs.«169802_j68702296867381_2_alg».proof.Proof.Ideal.R4Payload
import proofs.«169802_j68702296867381_2_alg».proof.Proof.Spec
import proofs.«169802_j68702296867381_2_alg».proof.Proof.LibBlockSum

set_option maxRecDepth 16384

noncomputable section

open scoped BigOperators

namespace Cert.KernelIdeal.HandValue.R4

open Cert.KernelIdeal Cert.KernelIdeal.Gen
open Idealize.ShloMosaic Idealize.ShloMosaic.TcCoe Idealize.ShloMosaic.ValueIdx Idealize.SL.Sem
open Cert.KernelIdeal.Hand
open Idealize.ShloMosaic.Pipeline (Dat)

variable (V : (c : Dev nD) → (b : Ref sig .tc) → Buf (Elt Ideal) ((c : Thread nD τ).loc b))

/-! ## The index maps, decided over the grid -/

/-- Point `t`'s block indices: the left operand's (row block, contraction block), the right operand's
    (contraction block, column block), the output's (row block, column block). -/
theorem idx4 : ∀ t : Fin cfg4.N,
    win4_0.index t (0 : Fin 2) = t.val / 8 ∧ win4_0.index t (1 : Fin 2) = t.val % 4
    ∧ win4_1.index t (0 : Fin 2) = t.val % 4 ∧ win4_1.index t (1 : Fin 2) = t.val / 4 % 2
    ∧ win4_2.index t (0 : Fin 2) = t.val / 8 ∧ win4_2.index t (1 : Fin 2) = t.val / 4 % 2 :=
  (by decide +kernel : ∀ t : Fin grid4.N, _)

/-! ## One product of the contraction -/

/-- The product (row r, contraction index m) · (contraction index m, column s) of the two arrays, at natural
    coordinates; zero outside the arrays. -/
def term (A : Cert.Spec.SA.Idx → EReal) (B : Cert.Spec.SW.Idx → EReal) (r s m : ℕ) : EReal :=
  if h : r < 8192 ∧ s < 2048 ∧ m < 2048 then A (ix2 (n0 := 8192) (n1 := 2048) ⟨r, h.1⟩ ⟨m, h.2.2⟩) * B (ix2 (n0 := 2048) (n1 := 2048) ⟨m, h.2.2⟩ ⟨s, h.2.1⟩) else 0

/-- The 512 products of contraction block `j`, added. -/
def blocksum (A : Cert.Spec.SA.Idx → EReal) (B : Cert.Spec.SW.Idx → EReal) (r s j : ℕ) : EReal :=
  ∑ k : Fin 512, term A B r s (j * 512 + k.val)

/-- The four contraction blocks together are the whole contraction. -/
theorem blocks_total (A : Cert.Spec.SA.Idx → EReal) (B : Cert.Spec.SW.Idx → EReal) (r : Fin 8192) (s : Fin 2048) :
    ∑ j ∈ Finset.range 4, blocksum A B r.val s.val j = Cert.Spec.mm A B (ix2 (n0 := 8192) (n1 := 2048) r s) := by
  unfold blocksum
  refine (Cert.LibBlockSum.sum_fin_blocks_range 4 512 (term A B r.val s.val)).symm.trans ?_
  show ∑ m : Fin 2048, term A B r.val s.val m.val = _
  unfold Cert.Spec.mm
  refine Finset.sum_congr rfl fun m _ => ?_
  unfold term
  rw [dif_pos ⟨r.isLt, s.isLt, m.isLt⟩]

/-! ## The operand blocks as parts of the arrays -/

/-- The left operand's block at point `t`, row p, column k. -/
theorem iblk0_apply (c : Dev nD) (t : Fin cfg4.N) (p : Fin 1024) (k : Fin 512)
    (hr : t.val / 8 * 1024 + p.val < 8192) (hm : t.val % 4 * 512 + k.val < 2048) :
    (iblk4 V c 0 t : Vec Ideal S1024x512 .bf16) (ix2 p k)
      = (V c main_v1_2 : S8192x2048.Idx → Elt Ideal .bf16) (ix2 ⟨t.val / 8 * 1024 + p.val, hr⟩ ⟨t.val % 4 * 512 + k.val, hm⟩) := by
  obtain ⟨e0, e1, -⟩ := idx4 t
  unfold iblk4
  rw [View.read_apply]
  show V c main_v1_2 _ = V c main_v1_2 _
  congr 1
  funext a
  apply Fin.ext
  match a with
  | ⟨0, _⟩ => show win4_0.index t 0 * 1024 + 1 * p.val = t.val / 8 * 1024 + p.val; rw [e0]; omega
  | ⟨1, _⟩ => show win4_0.index t 1 * 512 + 1 * k.val = t.val % 4 * 512 + k.val; rw [e1]; omega

/-- The right operand's block at point `t`, row k, column q. -/
theorem iblk1_apply (c : Dev nD) (t : Fin cfg4.N) (k : Fin 512) (q : Fin 1024)
    (hm : t.val % 4 * 512 + k.val < 2048) (hs : t.val / 4 % 2 * 1024 + q.val < 2048) :
    (iblk4 V c 1 t : Vec Ideal S512x1024 .bf16) (ix2 k q)
      = (V c main_v3 : S2048x2048.Idx → Elt Ideal .bf16) (ix2 ⟨t.val % 4 * 512 + k.val, hm⟩ ⟨t.val / 4 % 2 * 1024 + q.val, hs⟩) := by
  obtain ⟨-, -, e2, e3, -⟩ := idx4 t
  unfold iblk4
  rw [View.read_apply]
  show V c main_v3 _ = V c main_v3 _
  congr 1
  funext a
  apply Fin.ext
  match a with
  | ⟨0, _⟩ => show win4_1.index t 0 * 512 + 1 * k.val = t.val % 4 * 512 + k.val; rw [e2]; omega
  | ⟨1, _⟩ => show win4_1.index t 1 * 1024 + 1 * q.val = t.val / 4 % 2 * 1024 + q.val; rw [e3]; omega

/-- The operand blocks at point `t`, as vectors of extended reals. -/
abbrev X0 (c : Dev nD) (t : Fin cfg4.N) : FVec Ideal S1024x512 .bf16 := iblk4 V c 0 t
abbrev X1 (c : Dev nD) (t : Fin cfg4.N) : FVec Ideal S512x1024 .bf16 := iblk4 V c 1 t

/-- One product of the block product at point `t` is one product of the whole contraction. -/
theorem prod_term (c : Dev nD) (t : Fin cfg4.N) (p q : Fin 1024) (k : Fin 512) :
    X0 V c t (ix2 p k) * X1 V c t (ix2 k q)
      = term (V c main_v1_2) (V c main_v3) (t.val / 8 * 1024 + p.val) (t.val / 4 % 2 * 1024 + q.val) (t.val % 4 * 512 + k.val) := by
  have hN : t.val < 64 := lt_of_lt_of_eq t.isLt N_4
  have hp := p.isLt
  have hq := q.isLt
  have hk := k.isLt
  have hr : t.val / 8 * 1024 + p.val < 8192 := by omega
  have hs : t.val / 4 % 2 * 1024 + q.val < 2048 := by omega
  have hm : t.val % 4 * 512 + k.val < 2048 := by omega
  unfold term
  rw [dif_pos ⟨hr, hs, hm⟩]
  exact congrArg₂ (· * ·) (iblk0_apply V c t p k hr hm) (iblk1_apply V c t k q hm hs)

/-- The block product at point `t`, row p, column q, is contraction block `t mod 4`'s part of the contraction. -/
theorem step_sum (c : Dev nD) (t : Fin cfg4.N) (p q : Fin 1024) :
    ∑ k : Fin 512, X0 V c t (ix2 p k) * X1 V c t (ix2 k q)
      = blocksum (V c main_v1_2) (V c main_v3) (t.val / 8 * 1024 + p.val) (t.val / 4 % 2 * 1024 + q.val) (t.val % 4) :=
  Finset.sum_congr rfl fun k _ => prod_term V c t p q k

/-! ## The accumulator point by point -/

/-- At a first contraction block the accumulator ends at the block product added to the zero vector. -/
theorem acc_first (c : Dev nD) (t : Fin cfg4.N) (h0 : t.val % 4 = 0) :
    (outsAt4 V c t.val t.isLt).2 = k4_pay2 (F := Ideal) (iblk4 V c 0 t) (iblk4 V c 1 t) (k4_pay1 (F := Ideal)) := by
  rw [outsAt4_A V c t h0]
  dsimp only
  exact soutA4_eq (F := Ideal) c (grid4.coords t) (ms4_0 t) (hs4_0 t) (ms4_1 t) (hs4_1 t) (ms4_2 t) (hs4_2 t) scM4_0 (Memref.isWhole_whole _) (hA4_0 t h0) (hA4_1 t h0) (iblk4 V c 0 t) (iblk4 V c 1 t)

/-- At any other contraction block it ends at the block product added to what the point before left. -/
theorem acc_next (c : Dev nD) (t : Fin cfg4.N) (h0 : ¬t.val % 4 = 0) :
    (outsAt4 V c t.val t.isLt).2 = k4_pay2 (F := Ideal) (iblk4 V c 0 t) (iblk4 V c 1 t) (outsAt4 V c (t.val - 1) (Nat.lt_of_le_of_lt (Nat.sub_le _ _) t.isLt)).2 := by
  by_cases h3 : t.val % 4 = 3
  · rw [outsAt4_C V c t h0 h3]
    dsimp only
    exact soutC4_eq (F := Ideal) c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2
  · rw [outsAt4_B V c t h0 h3]
    dsimp only
    exact soutB4_eq (F := Ideal) c (grid4.coords t) (ms4_0 t) (hs4_0 t) (ms4_1 t) (hs4_1 t) (ms4_2 t) (hs4_2 t) scM4_0 (Memref.isWhole_whole _) (hB4_0 t h0) (hB4_1 t h3) (iblk4 V c 0 t) (iblk4 V c 1 t) (outsAt4 V c (t.val - 1) (Nat.lt_of_le_of_lt (Nat.sub_le _ _) t.isLt)).2

/-- At a last contraction block the output's staging buffer receives the same. -/
theorem out_last (c : Dev nD) (t : Fin cfg4.N) (h0 : ¬t.val % 4 = 0) (h3 : t.val % 4 = 3) :
    (outsAt4 V c t.val t.isLt).1 = k4_pay2 (F := Ideal) (iblk4 V c 0 t) (iblk4 V c 1 t) (outsAt4 V c (t.val - 1) (Nat.lt_of_le_of_lt (Nat.sub_le _ _) t.isLt)).2 := by
  rw [outsAt4_C V c t h0 h3]
  dsimp only
  exact outC4_eq (F := Ideal) c (grid4.coords t) (ms4_0 t) (hs4_0 t) (ms4_1 t) (hs4_1 t) (ms4_2 t) (hs4_2 t) scM4_0 (Memref.isWhole_whole _) (hB4_0 t h0) (hC4_1 t h3) (iblk4 V c 0 t) (iblk4 V c 1 t) (outsAt4 V c (t.val - 1) (Nat.lt_of_le_of_lt (Nat.sub_le _ _) t.isLt)).2

/-- THE INVARIANT.  After the body at point n the accumulator holds, at row p and column q, the contraction
    blocks 0 … n mod 4 of the product of row 1024·(n / 8) + p with column 1024·(n / 4 mod 2) + q. -/
theorem acc_inv (c : Dev nD) : ∀ (n : ℕ) (hn : n < cfg4.N) (p q : Fin 1024),
    ((outsAt4 V c n hn).2 : FVec Ideal S1024x1024 .f32) (ix2 p q)
      = ∑ j ∈ Finset.range (n % 4 + 1), blocksum (V c main_v1_2) (V c main_v3) (n / 8 * 1024 + p.val) (n / 4 % 2 * 1024 + q.val) j := by
  intro n
  induction n using Nat.strong_induction_on with
  | _ n ih =>
    intro hn p q
    by_cases h0 : n % 4 = 0
    · refine (congrFun (acc_first V c ⟨n, hn⟩ h0) (ix2 p q)).trans ?_
      refine (pay2_apply (X0 V c ⟨n, hn⟩) (X1 V c ⟨n, hn⟩) (k4_pay1 (F := Ideal)) p q).trans ?_
      refine (congrArg₂ (· + ·) (pay1_apply (ix2 p q)) (step_sum V c ⟨n, hn⟩ p q)).trans ?_
      show 0 + blocksum _ _ (n / 8 * 1024 + p.val) (n / 4 % 2 * 1024 + q.val) (n % 4) = _
      rw [zero_add, h0, Finset.sum_range_one]
    · refine (congrFun (acc_next V c ⟨n, hn⟩ h0) (ix2 p q)).trans ?_
      refine (pay2_apply (X0 V c ⟨n, hn⟩) (X1 V c ⟨n, hn⟩) (outsAt4 V c (n - 1) (Nat.lt_of_le_of_lt (Nat.sub_le _ _) hn)).2 p q).trans ?_
      refine (congrArg₂ (· + ·) (ih (n - 1) (by omega) (Nat.lt_of_le_of_lt (Nat.sub_le _ _) hn) p q) (step_sum V c ⟨n, hn⟩ p q)).trans ?_
      have e8 : (n - 1) / 8 = n / 8 := by omega
      have e4 : (n - 1) / 4 % 2 = n / 4 % 2 := by omega
      have em : (n - 1) % 4 + 1 = n % 4 := by omega
      show (∑ j ∈ Finset.range ((n - 1) % 4 + 1), blocksum _ _ ((n - 1) / 8 * 1024 + p.val) ((n - 1) / 4 % 2 * 1024 + q.val) j)
        + blocksum _ _ (n / 8 * 1024 + p.val) (n / 4 % 2 * 1024 + q.val) (n % 4) = _
      rw [e8, e4, em, Finset.sum_range_succ]

/-- After a last contraction block the output's staging buffer holds, at row p and column q, the whole product of
    row 1024·(t / 8) + p of the value array with column 1024·(t / 4 mod 2) + q of the score array. -/
theorem out_total (c : Dev nD) (t : Fin cfg4.N) (h3 : t.val % 4 = 3) (p q : Fin 1024)
    (hr : t.val / 8 * 1024 + p.val < 8192) (hs : t.val / 4 % 2 * 1024 + q.val < 2048) :
    ((outsAt4 V c t.val t.isLt).1 : FVec Ideal S1024x1024 .f32) (ix2 p q)
      = Cert.Spec.mm (V c main_v1_2) (V c main_v3) (ix2 (n0 := 8192) (n1 := 2048) ⟨t.val / 8 * 1024 + p.val, hr⟩ ⟨t.val / 4 % 2 * 1024 + q.val, hs⟩) := by
  have h0 : ¬t.val % 4 = 0 := by omega
  refine (congrFun ((out_last V c t h0 h3).trans (acc_next V c t h0).symm) (ix2 p q)).trans ?_
  refine (acc_inv V c t.val t.isLt p q).trans ?_
  rw [h3]
  exact blocks_total (V c main_v1_2) (V c main_v3) ⟨t.val / 8 * 1024 + p.val, hr⟩ ⟨t.val / 4 % 2 * 1024 + q.val, hs⟩

end Cert.KernelIdeal.HandValue.R4

end
-- ==== Proof.Ideal.R4Value.lean ====
/-
  Region 4 on the extended reals: the result array.  Every fourth grid point (the last contraction block of each
  of the sixteen output blocks) writes its output block back; that block is the whole product of the value array
  with the score array read through the block's rectangle; the sixteen blocks of 1024 × 1024 tile the
  8192 × 2048 array.  So the array ends at the product, whatever the region found in its buffers.
-/
import proofs.«169802_j68702296867381_2_alg».proof.Proof.Ideal.R4Acc
import Idealize.ShloMosaic.Lib.Pipeline.Value

set_option maxRecDepth 16384

noncomputable section

open scoped BigOperators

namespace Cert.KernelIdeal.HandValue.R4

open Cert.KernelIdeal Cert.KernelIdeal.Gen
open Idealize.ShloMosaic Idealize.ShloMosaic.TcCoe Idealize.ShloMosaic.ValueIdx Idealize.SL.Sem
open Cert.KernelIdeal.Hand
open Idealize.ShloMosaic.Pipeline (Dat)

variable (V : (c : Dev nD) → (b : Ref sig .tc) → Buf (Elt Ideal) ((c : Thread nD τ).loc b))

/-- Row p, column q of point `t`'s output block is row 1024·(t / 8) + p, column 1024·(t / 4 mod 2) + q of the array. -/
theorem emb4_2 (t : Fin cfg4.N) (p q : Fin 1024)
    (hr : t.val / 8 * 1024 + p.val < 8192) (hs : t.val / 4 % 2 * 1024 + q.val < 2048) :
    (((cfg4.win 2).blk t).view.emb (ix2 p q) : S8192x2048.Idx)
      = ix2 (n0 := 8192) (n1 := 2048) ⟨t.val / 8 * 1024 + p.val, hr⟩ ⟨t.val / 4 % 2 * 1024 + q.val, hs⟩ := by
  obtain ⟨-, -, -, -, e4, e5⟩ := idx4 t
  funext a
  apply Fin.ext
  match a with
  | ⟨0, _⟩ => show win4_2.index t 0 * 1024 + 1 * p.val = t.val / 8 * 1024 + p.val; rw [e4]; omega
  | ⟨1, _⟩ => show win4_2.index t 1 * 1024 + 1 * q.val = t.val / 4 % 2 * 1024 + q.val; rw [e5]; omega

/-- WHAT A WRITE-BACK WRITES: at a point that writes the output block back, the block of the product. -/
theorem flushed4_2_eq (c : Dev nD) (t : Fin cfg4.N) (hf : (cfg4.win 2).flush t = true) :
    (dat4 V c).flushed 2 t = ((cfg4.win 2).blk t).view.read (Elt Ideal) (Cert.Spec.mm (V c main_v1_2) (V c main_v3)) := by
  have h3 : t.val % 4 = 3 := (flush4_2 t).mp hf
  have hN : t.val < 64 := lt_of_lt_of_eq t.isLt N_4
  show (cfg4.win 2).cut (grid4.coords t) ((dat4 V c).after 2 t) = _
  rw [after4_2]
  refine funext fun (y : S1024x1024.Idx) => ?_
  obtain ⟨p, q, rfl⟩ : ∃ (p q : Fin 1024), y = ix2 p q := ⟨y 0, y 1, eq_ix2 y⟩
  have hp := p.isLt
  have hq := q.isLt
  have hr : t.val / 8 * 1024 + p.val < 8192 := by omega
  have hs : t.val / 4 % 2 * 1024 + q.val < 2048 := by omega
  refine (out_total V c t h3 p q hr hs).trans ?_
  rw [View.read_apply, emb4_2 t p q hr hs]
  rfl

/-- An index of the array is in point `t`'s output block iff each coordinate is in the block's range. -/
theorem mem_blk4_2 (t : Fin cfg4.N) (i : S8192x2048.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v4).slice (win4_2.rect t)).set ↔ _
  rw [View.set_slice_whole, Rect.mem_set_unit]
  exact Iff.rfl

/-- Every index of the array is in the block some write-back writes: row block i₀ / 1024, column block i₁ / 1024,
    last contraction block. -/
theorem cover4_2 (i : S8192x2048.Idx) :
    ∃ t : Fin cfg4.N, (cfg4.win 2).flush t = true ∧ i ∈ ((cfg4.win 2).blk t).view.set := by
  have h0 : (i 0).val < 8192 := (i 0).isLt
  have h1 : (i 1).val < 2048 := (i 1).isLt
  have hN : cfg4.N = 64 := N_4
  obtain ⟨t, ht⟩ : ∃ t : Fin cfg4.N, t.val = (i 0).val / 1024 * 8 + (i 1).val / 1024 * 4 + 3 :=
    ⟨⟨(i 0).val / 1024 * 8 + (i 1).val / 1024 * 4 + 3, by rw [hN]; omega⟩, rfl⟩
  refine ⟨t, (flush4_2 t).mpr (by rw [ht]; omega), ?_⟩
  rw [mem_blk4_2]
  obtain ⟨-, -, -, -, e4, e5⟩ := idx4 t
  intro a
  match a with
  | ⟨0, _⟩ =>
    show win4_2.index t 0 * 1024 ≤ (i 0).val ∧ (i 0).val < win4_2.index t 0 * 1024 + 1024
    rw [e4, ht]; omega
  | ⟨1, _⟩ =>
    show win4_2.index t 1 * 1024 ≤ (i 1).val ∧ (i 1).val < win4_2.index t 1 * 1024 + 1024
    rw [e5, ht]; omega

end Cert.KernelIdeal.HandValue.R4

namespace Cert.KernelIdeal.HandValue

open Cert.KernelIdeal Cert.KernelIdeal.Gen Cert.KernelIdeal.Hand
open Idealize.ShloMosaic Idealize.ShloMosaic.TcCoe Idealize.SL.Sem

/-- THE RESULT ARRAY after the region: the product of the value array with the score array, as the region found
    them, whatever else its buffers held. -/
theorem final4_2 (V : (c : Dev nD) → (b : Ref sig .tc) → Buf (Elt Ideal) ((c : Thread nD τ).loc b)) (c : Dev nD) :
    (dat4 (F := Ideal) V c).arrAt 2 cfg4.N = Cert.Spec.mm (V c main_v1_2) (V c main_v3) :=
  (dat4 V c).arrAt_eq_of_cover 2 (Cert.Spec.mm (V c main_v1_2) (V c main_v3)) (R4.flushed4_2_eq V c) R4.cover4_2

end Cert.KernelIdeal.HandValue

end
-- ==== Proof.RefValue.lean ====
/-
  The reference program read as mathematics.  Its host operations, one stage at a time, are: the activations
  `a = x · w`; the three projections `q = a · w_q`, `k = a · w_k`, `v = a · w_v`; the transpose of `k` and the
  feature scores `kᵀ · q`; the row softmax of the scores (row maximum, shifted exponentials, row sum, quotient); and
  the product of `v` with it.  Each stage is identified with the corresponding whole-array function of `Spec`,
  so the result is `(a · w_v) · softmax ((a · w_k)ᵀ · (a · w_q))`.  Only commutativity-free rewriting is used: every
  stage is read at an index and the two sides are the same sums, folds and quotients, term by term.
-/
import proofs.«169802_j68702296867381_2_alg».proof.Proof.Gen.ReferenceIdeal.Read
import proofs.«169802_j68702296867381_2_alg».proof.Proof.Spec
import proofs.«169802_j68702296867381_2_alg».proof.Proof.SpecSoftmax

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- An activation-shaped array (8192 × 2048) and a weight-shaped one (2048 × 2048), on the extended reals. -/
abbrev ArrA := (⟨S8192x2048, .f32⟩ : BufTy).Contents (Elt Ideal)
abbrev ArrW := (⟨S2048x2048, .f32⟩ : BufTy).Contents (Elt Ideal)

/-! ## The operand indices of a product at output index `i` and contraction index `k`, by coordinates -/

theorem lidx_A (i : S8192x2048.Idx) (k : Fin 2048) :
    (fun a => match a with | ⟨0, _⟩ => ⟨(i 0).val, (i 0).isLt⟩ | ⟨1, _⟩ => ⟨k.val, k.isLt⟩ : S8192x2048.Idx)
      = ix2 (n0 := 8192) (n1 := 2048) (i 0) k :=
  funext fun a => Fin.ext (by match a with | ⟨0, _⟩ => rfl | ⟨1, _⟩ => rfl)

theorem ridx_W (i : S8192x2048.Idx) (k : Fin 2048) :
    (fun a => match a with | ⟨0, _⟩ => ⟨k.val, k.isLt⟩ | ⟨1, _⟩ => ⟨(i 1).val, (i 1).isLt⟩ : S2048x2048.Idx)
      = ix2 (n0 := 2048) (n1 := 2048) k (i 1) :=
  funext fun a => Fin.ext (by match a with | ⟨0, _⟩ => rfl | ⟨1, _⟩ => rfl)

/-! ## The products -/

/-- `a = x · w`. -/
theorem v0_eq (x : ArrA) (w : ArrW) : val_main_v0 (F := Ideal) x w = Spec.mm x w := by
  funext i
  rw [val_main_v0_apply]
  unfold Spec.mm
  refine Finset.sum_congr rfl fun k _ => ?_
  exact congrArg₂ (· * ·) (congrArg x (lidx_A i k)) (congrArg w (ridx_W i k))

/-- `q = a · w_q`. -/
theorem v1_eq (x : ArrA) (w wq : ArrW) : val_main_v1 (F := Ideal) x w wq = Spec.mm (Spec.mm x w) wq := by
  funext i
  rw [val_main_v1_apply, v0_eq]
  generalize Spec.mm x w = a
  unfold Spec.mm
  refine Finset.sum_congr rfl fun k _ => ?_
  exact congrArg₂ (· * ·) (congrArg a (lidx_A i k)) (congrArg wq (ridx_W i k))

/-- `k = a · w_k`. -/
theorem v2_eq (x : ArrA) (w wk : ArrW) : val_main_v2 (F := Ideal) x w wk = Spec.mm (Spec.mm x w) wk := by
  funext i
  rw [val_main_v2_apply, v0_eq]
  generalize Spec.mm x w = a
  unfold Spec.mm
  refine Finset.sum_congr rfl fun k _ => ?_
  exact congrArg₂ (· * ·) (congrArg a (lidx_A i k)) (congrArg wk (ridx_W i k))

/-- `v = a · w_v`. -/
theorem v3_eq (x : ArrA) (w wv : ArrW) : val_main_v3 (F := Ideal) x w wv = Spec.mm (Spec.mm x w) wv := by
  funext i
  rw [val_main_v3_apply, v0_eq]
  generalize Spec.mm x w = a
  unfold Spec.mm
  refine Finset.sum_congr rfl fun k _ => ?_
  exact congrArg₂ (· * ·) (congrArg a (lidx_A i k)) (congrArg wv (ridx_W i k))

/-- The scores: the transpose of `k` times `q` is `kᵀ · q`, a sum over the 8192 rows of both. -/
theorem v5_eq (x : ArrA) (w wq wk : ArrW) :
    val_main_v5 (F := Ideal) x w wq wk = Spec.tmm (Spec.mm (Spec.mm x w) wk) (Spec.mm (Spec.mm x w) wq) := by
  funext i
  rw [val_main_v5_apply]
  unfold Spec.tmm
  refine Finset.sum_congr rfl fun n _ => ?_
  rw [val_main_v4_apply, v2_eq, v1_eq]
  generalize Spec.mm (Spec.mm x w) wk = K
  generalize Spec.mm (Spec.mm x w) wq = Q
  refine congrArg₂ (· * ·) (congrArg K ?_) (congrArg Q ?_)
  · exact funext fun a => Fin.ext (by match a with | ⟨0, _⟩ => rfl | ⟨1, _⟩ => rfl)
  · exact funext fun a => Fin.ext (by match a with | ⟨0, _⟩ => rfl | ⟨1, _⟩ => rfl)

/-! ## The row softmax of the scores -/

/-- The word `0xFF800000` denotes `-∞`. -/
theorem ofBits_ninf : Ideal.ofBits .f32 0xFF800000#32 = ⊥ := by simp [Ideal.ofBits, Ideal.ieee]

/-- Row `r`'s index with column `k` inserted is `(r, k)`. -/
theorem lift_row (h : S2048x2048.Reduces [1] S2048) (r k : Fin 2048) :
    h.lift (ix1 (n := 2048) r) k = ix2 (n0 := 2048) (n1 := 2048) r k :=
  funext fun a => Fin.ext (by match a with | ⟨0, _⟩ => rfl | ⟨1, _⟩ => rfl)

section Softmax

variable (x : ArrA) (w wq wk : ArrW)

/-- The reduce with a maximum body from `-∞` along the rows: at row `r` the row's maximum. -/
theorem v6_apply (r : Fin 2048) :
    val_main_v6 (F := Ideal) x w wq wk (ix1 (n := 2048) r)
      = Spec.rowMax (n := 2048) (val_main_v5 (F := Ideal) x w wq wk) r := by
  unfold val_main_v6
  generalize val_main_v5 (F := Ideal) x w wq wk = X
  have h : S2048x2048.Reduces [1] S2048 := by decide
  refine (Host.reduce_eq_fold_single (s := S2048x2048) (t := S2048) (a := (1 : Fin 2)) (u := S_) (α := EReal)
    (FloatOps.maximumf (F := Ideal) (φ := .f32)) (X : S2048x2048.Idx → EReal) (val_main_cst (F := Ideal))
    reducesTo_S2048x2048_S2048_d1 h h_S_ (ix1 (n := 2048) r)).trans ?_
  unfold Spec.rowMax
  show Finset.fold max (Ideal.ofBits .f32 0xFF800000#32) (X ∘ h.lift (ix1 (n := 2048) r)) Finset.univ = _
  rw [ofBits_ninf]
  exact congrArg (fun f => Finset.fold max ⊥ f Finset.univ) (funext fun k => congrArg X (lift_row h r k))

/-- The maximum of that with a broadcast `-∞` is the row's maximum still. -/
theorem v8_apply (r : Fin 2048) :
    val_main_v8 (F := Ideal) x w wq wk (ix1 (n := 2048) r)
      = Spec.rowMax (n := 2048) (val_main_v5 (F := Ideal) x w wq wk) r := by
  rw [val_main_v8_apply, val_main_v7_apply, val_main_cst_0_apply, v6_apply]
  show max (Ideal.ofBits .f32 0xFF800000#32) _ = _
  rw [ofBits_ninf]
  exact max_eq_right bot_le

/-- Made a column and broadcast along the rows: at `(r, q)` row `r`'s maximum. -/
theorem v10_apply (r q : Fin 2048) :
    val_main_v10 (F := Ideal) x w wq wk (ix2 (n0 := 2048) (n1 := 2048) r q)
      = Spec.rowMax (n := 2048) (val_main_v5 (F := Ideal) x w wq wk) r := by
  rw [val_main_v10_apply, val_main_v9_apply]
  refine Eq.trans (congrArg (val_main_v8 (F := Ideal) x w wq wk) ?_) (v8_apply x w wq wk r)
  exact funext fun a => Fin.ext (by match a with | ⟨0, _⟩ => rfl)

/-- The shifted exponentials. -/
theorem v12_apply (r q : Fin 2048) :
    val_main_v12 (F := Ideal) x w wq wk (ix2 (n0 := 2048) (n1 := 2048) r q)
      = Spec.rowExp (n := 2048) (val_main_v5 (F := Ideal) x w wq wk) r q := by
  rw [val_main_v12_apply, val_main_v11_apply, v10_apply]
  rfl

/-- Their sums along the rows. -/
theorem v13_apply (r : Fin 2048) :
    val_main_v13 (F := Ideal) x w wq wk (ix1 (n := 2048) r)
      = Spec.rowSum (n := 2048) (val_main_v5 (F := Ideal) x w wq wk) r := by
  rw [val_main_v13_apply, val_main_cst_1_apply]
  show Ideal.ofBits .f32 0x00000000#32 + _ = _
  rw [Ideal.ofBits_zero_f32, zero_add]
  unfold Spec.rowSum
  refine Finset.sum_congr rfl fun k _ => ?_
  refine Eq.trans (congrArg (val_main_v12 (F := Ideal) x w wq wk) ?_) (v12_apply x w wq wk r k)
  exact funext fun a => Fin.ext (by match a with | ⟨0, _⟩ => rfl | ⟨1, _⟩ => rfl)

/-- Made a column and broadcast along the rows: at `(r, q)` row `r`'s sum. -/
theorem v15_apply (r q : Fin 2048) :
    val_main_v15 (F := Ideal) x w wq wk (ix2 (n0 := 2048) (n1 := 2048) r q)
      = Spec.rowSum (n := 2048) (val_main_v5 (F := Ideal) x w wq wk) r := by
  rw [val_main_v15_apply, val_main_v14_apply]
  refine Eq.trans (congrArg (val_main_v13 (F := Ideal) x w wq wk) ?_) (v13_apply x w wq wk r)
  exact funext fun a => Fin.ext (by match a with | ⟨0, _⟩ => rfl)

/-- The quotients: the row softmax of the scores. -/
theorem v16_eq : val_main_v16 (F := Ideal) x w wq wk = Spec.smax (val_main_v5 (F := Ideal) x w wq wk) := by
  funext i
  obtain ⟨r, q, rfl⟩ : ∃ (r q : Fin 2048), i = ix2 (n0 := 2048) (n1 := 2048) r q := ⟨i 0, i 1, eq_ix2 i⟩
  rw [val_main_v16_apply, v12_apply, v15_apply]
  rfl

end Softmax

/-! ## The result -/

/-- The reference computes `(a · w_v) · softmax ((a · w_k)ᵀ · (a · w_q))` with `a = x · w`. -/
theorem val_main_v17_spec (x : (⟨S8192x2048, .f32⟩ : BufTy).Contents (Elt Ideal)) (w wq wk wv : (⟨S2048x2048, .f32⟩ : BufTy).Contents (Elt Ideal)) :
    Cert.ReferenceIdeal.Read.val_main_v17 (F := Ideal) x w wq wk wv
      = Cert.Spec.mm (Cert.Spec.mm (Cert.Spec.mm x w) wv)
          (Cert.Spec.smax (Cert.Spec.tmm (Cert.Spec.mm (Cert.Spec.mm x w) wk) (Cert.Spec.mm (Cert.Spec.mm x w) wq))) := by
  funext i
  rw [val_main_v17_apply, v3_eq, v16_eq, v5_eq]
  generalize Spec.mm (Spec.mm x w) wv = A
  generalize Spec.smax (Spec.tmm (Spec.mm (Spec.mm x w) wk) (Spec.mm (Spec.mm x w) wq)) = P
  unfold Spec.mm
  refine Finset.sum_congr rfl fun k _ => ?_
  exact congrArg₂ (· * ·) (congrArg A (lidx_A i k)) (congrArg P (ridx_W i k))

end Cert.ReferenceIdeal.RefValue

end
-- ==== Proof.RefFrame.lean ====
/-
  The reference program is a straight-line host computation: four matrix products, a transposed product,
  a row softmax and a last product.  Its run terminates without a fault and leaves the argument arrays
  as they were; the frame claim is that run with the result forgotten.
-/
import proofs.«169802_j68702296867381_2_alg».proof.Defs
import proofs.«169802_j68702296867381_2_alg».proof.Proof.Gen.ReferenceIdeal
import proofs.«169802_j68702296867381_2_alg».proof.Proof.Gen.Pre_finite_inputs
import proofs.«169802_j68702296867381_2_alg».proof.Proof.Gen.ReferenceIdeal.Read

noncomputable section

open Idealize.ShloMosaic Idealize.SL.Sem

namespace Cert.Proof.RefClaims

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefClaims

end
-- ==== Proof.lean ====
/-
  The kernel computes, in five pipelined regions,
      a = x·w,   q = a·w_q,   k = a·w_k,   v = a·w_v,   s = kᵀ·q,   p = the softmax of each row of s,   out = v·p,
  each product accumulated block by block along the contracted axis in a scratch buffer that is zeroed at the first
  block and copied to the output at the last; the reference computes the same seven stages as whole-array host
  operations.  Read on the extended reals (a change of float format is the identity there), a product accumulated
  over the blocks of the contracted axis is the product contracted at once — addition on the extended reals is
  commutative and associative, so the regrouping of the sum needs no finiteness — and both programs compute the row
  softmax by the same formula (the row maximum as a fold of max from -∞, exp (x - max), the row sum, the quotient).
  So both results are ONE function of the five argument arrays (`Cert.Spec.mm`, `tmm`, `smax` composed), and the
  precondition is never opened.

  The frames: each region's body is run symbolically once per control case (first block / middle block / last block
  of the contraction), the scratch accumulator's contents being carried from grid point to grid point in the region's
  invariant; the five regions are composed along the contents of the unscoped buffers at the region boundaries.  That
  argument is independent of the float instance and is used at the word level for the printed kernel and at the
  exact level for its idealization.  The idealization rewrote nothing, so there is nothing to preserve.
-/
import proofs.«169802_j68702296867381_2_alg».proof.Defs
import proofs.«169802_j68702296867381_2_alg».proof.Proof.Gen.Kernel
import proofs.«169802_j68702296867381_2_alg».proof.Proof.Gen.KernelIdeal
import proofs.«169802_j68702296867381_2_alg».proof.Proof.Gen.ReferenceIdeal
import proofs.«169802_j68702296867381_2_alg».proof.Proof.Gen.Pre_finite_inputs
import proofs.«169802_j68702296867381_2_alg».proof.Proof.Bits.Ends
import proofs.«169802_j68702296867381_2_alg».proof.Proof.Ideal.Result
import proofs.«169802_j68702296867381_2_alg».proof.Proof.Ideal.R0Value
import proofs.«169802_j68702296867381_2_alg».proof.Proof.Ideal.R1Value
import proofs.«169802_j68702296867381_2_alg».proof.Proof.Ideal.R2Value
import proofs.«169802_j68702296867381_2_alg».proof.Proof.Ideal.R3Value
import proofs.«169802_j68702296867381_2_alg».proof.Proof.Ideal.R4Value
import proofs.«169802_j68702296867381_2_alg».proof.Proof.SpecSoftmax
import proofs.«169802_j68702296867381_2_alg».proof.Proof.RefValue
import proofs.«169802_j68702296867381_2_alg».proof.Proof.RefFrame
import Idealize.ShloMosaic.Adequacy
import Idealize.ShloMosaic.Init

noncomputable section

namespace Cert.Proof

open Idealize.ShloMosaic Idealize.ShloMosaic.TcCoe Idealize.SL.Sem
open Cert.KernelIdeal Cert.KernelIdeal.Gen Cert.KernelIdeal.Hand Cert.KernelIdeal.HandValue

/-- The printed kernel, at the word level: it runs to the end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- Its idealization, at the exact level: the same argument. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The result both programs end with, as a function of the argument arrays on a core:
    `(x·w·w_v) · softmax_rows ((x·w·w_k)ᵀ · (x·w·w_q))`. -/
def result (x : Cert.Spec.SA.Idx → EReal) (w wq wk wv : Cert.Spec.SW.Idx → EReal) : Cert.Spec.SA.Idx → EReal :=
  Cert.Spec.mm (Cert.Spec.mm (Cert.Spec.mm x w) wv)
    (Cert.Spec.smax (Cert.Spec.tmm (Cert.Spec.mm (Cert.Spec.mm x w) wk) (Cert.Spec.mm (Cert.Spec.mm x w) wq)))

/-- From memories agreeing on the arguments both idealized programs run to the end with the same result array: the
    kernel's last region leaves `result` of the launch contents in its output array (the five regions' values composed
    along the boundaries), and the reference's composed host term is `result` of its own arguments, which are the same. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => result (m ((c : Thread nD τ).loc main_arg0)) (m ((c : Thread nD τ).loc main_arg1))
      (m ((c : Thread nD τ).loc main_arg2)) (m ((c : Thread nD τ).loc main_arg3)) (m ((c : Thread nD τ).loc main_arg4)), ?_, ?_⟩
  · exact (θ_run Cert.KernelIdeal.defs _ _).mono (fun r h c =>
      ⟨(h c _ (mem_uc main_v4 (by decide))).trans
          (result_of m Cert.Spec.smax final0_2 final1_4 final1_5 final1_6 final2_2 final3_1 final4_2 c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c)⟩) (run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v17_eq _ _ _ _ _).trans
      (Cert.ReferenceIdeal.RefValue.val_main_v17_spec _ _ _ _ _)

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, trivial, algebraic⟩

end Cert.Proof

end
